-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x4096 : Shape := ⟨2, ![16, 4096]⟩
abbrev S16 : Shape := ⟨1, ![16]⟩
abbrev S32000x1024 : Shape := ⟨2, ![32000, 1024]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v10 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v10 main_v16
  main_v17

def fn {F : FTy → Type} [FloatOps F] (main_arg0 : IVec S16x4096 32) (main_arg1 : IVec S16 32) (main_arg2 : FVec F S32000x1024 .f32) : IVec S_ 1 :=
  let main_v0 : FVec F S32000x1024 .f32 := Host.absf main_arg2
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_c_0 : IVec S_ 32 := constantI S_ 32 0#32
  let main_v4 : IVec S16x4096 32 := broadcastInDim S16x4096 ![] bcast_S_S16x4096 main_c_0
  let main_v5 : IVec S16x4096 1 := cmpi .sge main_arg0 main_v4
  let main_c_1 : IVec S_ 32 := constantI S_ 32 31999#32
  let main_v6 : IVec S16x4096 32 := broadcastInDim S16x4096 ![] bcast_S_S16x4096 main_c_1
  let main_v7 : IVec S16x4096 1 := cmpi .sle main_arg0 main_v6
  let main_v8 : IVec S16x4096 1 := andi main_v5 main_v7
  let main_c_2 : IVec S_ 1 := constantI S_ 1 1#1
  let main_v9 : IVec S_ 1 := (fun x v => Host.reduce IntOp.andi x v reducesTo_S16x4096_S_d0_1 h_S_) main_v8 main_c_2
  let main_v10 : IVec S_ 1 := andi main_v3 main_v9
  let main_c_3 : IVec S_ 32 := constantI S_ 32 1#32
  let main_v11 : IVec S16 32 := broadcastInDim S16 ![] bcast_S_S16 main_c_3
  let main_v12 : IVec S16 1 := cmpi .sge main_arg1 main_v11
  let main_c_4 : IVec S_ 32 := constantI S_ 32 4096#32
  let main_v13 : IVec S16 32 := broadcastInDim S16 ![] bcast_S_S16 main_c_4
  let main_v14 : IVec S16 1 := cmpi .sle main_arg1 main_v13
  let main_v15 : IVec S16 1 := andi main_v12 main_v14
  let main_c_5 : IVec S_ 1 := constantI S_ 1 1#1
  fn_part1 (F := F) main_v10 main_v15 main_c_5
-- ==== Kernel.lean ====
abbrev S16x4096 : Shape := ⟨2, ![16, 4096]⟩
abbrev S16 : Shape := ⟨1, ![16]⟩
abbrev S32000x1024 : Shape := ⟨2, ![32000, 1024]⟩
abbrev S250x128x1024 : Shape := ⟨3, ![250, 128, 1024]⟩
abbrev S5x50x128 : Shape := ⟨3, ![5, 50, 128]⟩
abbrev S50x128x1024 : Shape := ⟨3, ![50, 128, 1024]⟩
abbrev S1x50x128 : Shape := ⟨3, ![1, 50, 128]⟩
abbrev S50x128 : Shape := ⟨2, ![50, 128]⟩
abbrev S32000 : Shape := ⟨1, ![32000]⟩
abbrev S65536 : Shape := ⟨1, ![65536]⟩
abbrev S16x16 : Shape := ⟨2, ![16, 16]⟩
abbrev S4096 : Shape := ⟨1, ![4096]⟩
abbrev S_ : Shape := ⟨0, ![]⟩
abbrev S1x16 : Shape := ⟨2, ![1, 16]⟩

abbrev nBuf : Table → Nat
  | .hbm => 10
  | .local .tc .vmem => 4
  | .local .scVector .vmem => 4
  | _ => 0

abbrev bufTy : (tb : Table) → Fin (nBuf tb) → BufTy
  | .hbm, ⟨0, _⟩ => ⟨S16x4096, .i32⟩
  | .hbm, ⟨1, _⟩ => ⟨S16, .i32⟩
  | .hbm, ⟨2, _⟩ => ⟨S32000x1024, .f32⟩
  | .hbm, ⟨3, _⟩ => ⟨S250x128x1024, .f32⟩
  | .hbm, ⟨4, _⟩ => ⟨S5x50x128, .f32⟩
  | .hbm, ⟨5, _⟩ => ⟨S32000, .f32⟩
  | .hbm, ⟨6, _⟩ => ⟨S65536, .i32⟩
  | .hbm, ⟨7, _⟩ => ⟨S16x16, .f32⟩
  | .hbm, ⟨8, _⟩ => ⟨S_, .f32⟩
  | .hbm, ⟨9, _⟩ => ⟨S_, .f32⟩
  | .local .tc .vmem, ⟨0, _⟩ => ⟨S50x128x1024, .f32⟩
  | .local .tc .vmem, ⟨1, _⟩ => ⟨S50x128x1024, .f32⟩
  | .local .tc .vmem, ⟨2, _⟩ => ⟨S1x50x128, .f32⟩
  | .local .tc .vmem, ⟨3, _⟩ => ⟨S1x50x128, .f32⟩
  | .local .scVector .vmem, ⟨0, _⟩ => ⟨S32000, .f32⟩
  | .local .scVector .vmem, ⟨1, _⟩ => ⟨S4096, .i32⟩
  | .local .scVector .vmem, ⟨2, _⟩ => ⟨S16, .i32⟩
  | .local .scVector .vmem, ⟨3, _⟩ => ⟨S16, .f32⟩
  | _, _ => ⟨S16x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v2_scv : Ref sig .scVector := ⟨.hbm, 5, rfl⟩
abbrev main_v3_scv : Ref sig .scVector := ⟨.hbm, 6, rfl⟩
abbrev main_arg1_scv : Ref sig .scVector := ⟨.hbm, 1, rfl⟩
abbrev main_v4_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S50x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x50x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![1, 16], ![false, false]⟩

def k1_cond1 (i : grid1.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k1_off1 (i : grid1.Coords) : Fin 1 → Nat :=
  let arg1 : BitVec 32 := BitVec.ofNat 32 (i 1).val
  let c4096_i32 : BitVec 32 := 4096#32
  let v3 : BitVec 32 := Scalar.muli arg1 c4096_i32
  ![v3.toNat]

def k1_chk1 (i : grid1.Coords) (v4 : IVec S16 32) : Prop :=
  (∀ (k1_h1 : k1_cond1 i = 1#1), ∀ a x, ((![v4] : Fin 1 → IVec S16 32) a x).toNat < S16.size a)
instance k1_chk1.dec : ∀ (i : grid1.Coords) (v4 : IVec S16 32), Decidable (k1_chk1 i v4) := fun i v4 => decidable_of_iff' _ (Iff.of_eq (k1_chk1.eq_1 i v4))
theorem k1_idx1_inb : ∀ (i : grid1.Coords) (v4 : IVec S16 32) (k1_hw1 : k1_chk1 i v4), ∀ (k1_h1 : k1_cond1 i = 1#1), ∀ a x, ((![v4] : Fin 1 → IVec S16 32) a x).toNat < S16.size a := fun i v4 k1_hw1 k1_h1 => k1_hw1 k1_h1
@[reducible] def k1_t1_loop : Scf.Loop 32 :=
  let c0_i32_0 : BitVec 32 := 0#32
  let c256_i32 : BitVec 32 := 256#32
  let v8 : BitVec 32 := Scalar.addi c0_i32_0 c256_i32
  let c1_i32 : BitVec 32 := 1#32
  ⟨c0_i32_0, v8, c1_i32⟩
def k1_off2 (k1_t1 : Fin k1_t1_loop.trips) : Fin 1 → Nat :=
  let c0_i32_0 : BitVec 32 := 0#32
  let c1_i32 : BitVec 32 := 1#32
  let arg10 : BitVec 32 := Scf.iv c0_i32_0 c1_i32 k1_t1
  let c16_i32_2 : BitVec 32 := 16#32
  let v11 : BitVec 32 := Scalar.muli arg10 c16_i32_2
  let v12 : Index := Scalar.indexCast v11
  ![v12.toNat]

def k1_chk2 (i : grid1.Coords) (v19 : IVec S16 32) : Prop :=
  (∀ (k1_h1 : k1_cond1 i = 1#1), ∀ a x, ((![v19] : Fin 1 → IVec S16 32) a x).toNat < S32000.size a)
instance k1_chk2.dec : ∀ (i : grid1.Coords) (v19 : IVec S16 32), Decidable (k1_chk2 i v19) := fun i v19 => decidable_of_iff' _ (Iff.of_eq (k1_chk2.eq_1 i v19))
theorem k1_idx2_inb : ∀ (i : grid1.Coords) (v19 : IVec S16 32) (k1_hw2 : k1_chk2 i v19), ∀ (k1_h1 : k1_cond1 i = 1#1), ∀ a x, ((![v19] : Fin 1 → IVec S16 32) a x).toNat < S32000.size a := fun i v19 k1_hw2 k1_h1 => k1_hw2 k1_h1
def k1_off3 (i : grid1.Coords) : Fin 2 → Nat :=
  let arg1 : BitVec 32 := BitVec.ofNat 32 (i 1).val
  let c0_i32_2_r3 : BitVec 32 := 0#32
  ![arg1.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32000x1024_S250x128x1024 : S32000x1024.ShapeCasts S250x128x1024
  inb_S50x128x1024_S50x128x1024_0_0_0 : ∀ a, (![0, 0, 0] : Fin 3 → Nat) a + S50x128x1024.size a ≤ S50x128x1024.size a
  h_S50x128x1024 : 0 < S50x128x1024.numel
  shapeCasts_S50x128x1024_S50x128x1024 : S50x128x1024.ShapeCasts S50x128x1024
  reduces_S50x128x1024_S50x128 : S50x128x1024.Reduces [2] S50x128
  inb_S1x50x128_S1x50x128_0_0_0 : ∀ a, (![0, 0, 0] : Fin 3 → Nat) a + S1x50x128.size a ≤ S1x50x128.size a
  h_S1x50x128 : 0 < S1x50x128.numel
  shapeCasts_S1x50x128_S50x128 : S1x50x128.ShapeCasts S50x128
  shapeCasts_S50x128_S1x50x128 : S50x128.ShapeCasts S1x50x128
  shapeCasts_S5x50x128_S32000 : S5x50x128.ShapeCasts S32000
  shapeCasts_S16x4096_S65536 : S16x4096.ShapeCasts S65536
  h_S16 : 0 < S16.numel
  iota_S16_d0_w32_scVector : S16.Iotas .scVector 32 [0]
  h_S32000 : 0 < S32000.numel
  inb_S16_S16_0 : ∀ a, (![0] : Fin 1 → Nat) a + S16.size a ≤ S16.size a
  squeezes_S1x16_S16 : S1x16.Squeezes S16
  reducesTo_S16x16_S_d0_1 : S16x16.ReducesTo [0, 1] S_
  h_S_ : 0 < S_.numel
  hcc1_scoped0 : 4 + S_.numel ≤ 8
  hcc1_scoped1 : 5 + S_.numel ≤ 8
  hcc1_scoped2 : 6 + S_.numel ≤ 8
  hcc1_scoped3 : 7 + S_.numel ≤ 8
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50x128x1024.size a ≤ S250x128x1024.size a
  hwx0_0 : ∀ i : grid0.Coords, EltTy.bits .f32 = 32 ∨ (Rect.block (s := S250x128x1024) S50x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x50x128.size a ≤ S5x50x128.size a
  hwx0_1 : ∀ i : grid0.Coords, EltTy.bits .f32 = 32 ∨ (Rect.block (s := S5x50x128) S1x50x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ (k1_h1 : k1_cond1 i = 1#1), ∀ a, (k1_off1 i) a + S4096.size a ≤ S65536.size a
  k1_t1_ok : ∀ i : grid1.Coords, ∀ (k1_h1 : k1_cond1 i = 1#1), k1_t1_loop.OK
  k1_off2_inb : ∀ (i : grid1.Coords) (k1_t1 : Fin k1_t1_loop.trips), ∀ (k1_h1 : k1_cond1 i = 1#1), ∀ a, (k1_off2 k1_t1) a + S16.size a ≤ S4096.size a
  k1_off3_inb : ∀ i : grid1.Coords, ∀ (k1_h1 : k1_cond1 i = 1#1), ∀ a, (k1_off3 i) a + S1x16.size a ≤ S16x16.size a

variable [Facts₀]

abbrev cc1_scoped0 : DmaSems sig S_ := SemArray.consecutive 4 S_ hcc1_scoped0
abbrev cc1_scoped1 : DmaSems sig S_ := SemArray.consecutive 5 S_ hcc1_scoped1
abbrev cc1_scoped2 : DmaSems sig S_ := SemArray.consecutive 6 S_ hcc1_scoped2
abbrev cc1_scoped3 : DmaSems sig S_ := SemArray.consecutive 7 S_ hcc1_scoped3

abbrev win0_0 : Pipeline.Window sig grid0 :=
  Pipeline.Window.ofSpec (Memref.whole main_v0) S50x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x50x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4096 : Shape := ⟨2, ![16, 4096]⟩
abbrev S16 : Shape := ⟨1, ![16]⟩
abbrev S32000x1024 : Shape := ⟨2, ![32000, 1024]⟩
abbrev S4096 : Shape := ⟨1, ![4096]⟩
abbrev S1x4096 : Shape := ⟨2, ![1, 4096]⟩
abbrev S16x1 : Shape := ⟨2, ![16, 1]⟩
abbrev S_ : Shape := ⟨0, ![]⟩
abbrev S16x4096x1 : Shape := ⟨3, ![16, 4096, 1]⟩
abbrev S1 : Shape := ⟨1, ![1]⟩
abbrev S1x1x1 : Shape := ⟨3, ![1, 1, 1]⟩
abbrev S16x4096x1024 : Shape := ⟨3, ![16, 4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S16, .i32⟩
  | .hbm, ⟨2, _⟩ => ⟨S32000x1024, .f32⟩
  | .hbm, ⟨3, _⟩ => ⟨S4096, .i32⟩
  | .hbm, ⟨4, _⟩ => ⟨S1x4096, .i32⟩
  | .hbm, ⟨5, _⟩ => ⟨S16x1, .i32⟩
  | .hbm, ⟨6, _⟩ => ⟨S16x4096, .i32⟩
  | .hbm, ⟨7, _⟩ => ⟨S16x4096, .i32⟩
  | .hbm, ⟨8, _⟩ => ⟨S16x4096, .i1⟩
  | .hbm, ⟨9, _⟩ => ⟨S_, .i32⟩
  | .hbm, ⟨10, _⟩ => ⟨S_, .i32⟩
  | .hbm, ⟨11, _⟩ => ⟨S16x4096, .i32⟩
  | .hbm, ⟨12, _⟩ => ⟨S16x4096, .i32⟩
  | .hbm, ⟨13, _⟩ => ⟨S_, .i32⟩
  | .hbm, ⟨14, _⟩ => ⟨S16x4096, .i32⟩
  | .hbm, ⟨15, _⟩ => ⟨S16x4096, .i1⟩
  | .hbm, ⟨16, _⟩ => ⟨S_, .i32⟩
  | .hbm, ⟨17, _⟩ => ⟨S16x4096, .i32⟩
  | .hbm, ⟨18, _⟩ => ⟨S16x4096, .i32⟩
  | .hbm, ⟨19, _⟩ => ⟨S16x4096, .i32⟩
  | .hbm, ⟨20, _⟩ => ⟨S16x4096x1, .i32⟩
  | .hbm, ⟨21, _⟩ => ⟨S1, .i32⟩
  | .hbm, ⟨22, _⟩ => ⟨S_, .i32⟩
  | .hbm, ⟨23, _⟩ => ⟨S16x4096x1, .i32⟩
  | .hbm, ⟨24, _⟩ => ⟨S16x4096x1, .i1⟩
  | .hbm, ⟨25, _⟩ => ⟨S1x1x1, .i32⟩
  | .hbm, ⟨26, _⟩ => ⟨S16x4096x1, .i32⟩
  | .hbm, ⟨27, _⟩ => ⟨S16x4096x1, .i1⟩
  | .hbm, ⟨28, _⟩ => ⟨S16x4096x1, .i1⟩
  | .hbm, ⟨29, _⟩ => ⟨S_, .i1⟩
  | .hbm, ⟨30, _⟩ => ⟨S16x4096, .i1⟩
  | .hbm, ⟨31, _⟩ => ⟨S16x4096x1024, .f32⟩
  | .hbm, ⟨32, _⟩ => ⟨S16x4096x1024, .i1⟩
  | .hbm, ⟨33, _⟩ => ⟨S_, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S_, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  reducesTo_S16x4096x1_S16x4096_d2 : S16x4096x1.ReducesTo [2] S16x4096
  h_S_ : 0 < S_.numel
  bcast_S16x4096_S16x4096x1024_0_1 : S16x4096.BroadcastsInDim S16x4096x1024 (![0, 1] : Fin 2 → Fin S16x4096x1024.rank)
  bcast_S_S16x4096x1024 : S_.BroadcastsInDim S16x4096x1024 (![] : Fin 0 → Fin S16x4096x1024.rank)
  reducesTo_S16x4096x1024_S_d0_1_2 : S16x4096x1024.ReducesTo [0, 1, 2] S_
  gather_S32000x1024_S16x4096x1_S16x4096x1024_2_0_n_n_0_2_11024_wf : GatherDims.WF S32000x1024 S16x4096x1 S16x4096x1024 [2] [0] [] [0] [] 2 ![1, 1024]

variable [Facts₀]

def gather_S32000x1024_S16x4096x1_S16x4096x1024_2_0_n_n_0_2_11024 : GatherDims S32000x1024 S16x4096x1 S16x4096x1024 where
  offsetDims := [2]
  collapsedSliceDims := [0]
  operandBatchingDims := []
  startIndicesBatchingDims := []
  startIndexMap := [0]
  indexVectorDim := 2
  sliceSizes := ![1, 1024]
  wf := gather_S32000x1024_S16x4096x1_S16x4096x1024_2_0_n_n_0_2_11024_wf

class Facts : Prop extends Facts₀ where

variable [Facts]
-- ==== Proof.Setup.lean ====
/-
  The program as the launch theorem sees it, and what its threads are handed.

  One device. Its TensorCore runs the host program: three relabelings of arrays, one kernel region that sums each of
  the table's 32000 rows, and one call that starts sixteen vector subcores of the first SparseCore, each summing the row
  sums its own token sequence looks up; then the host adds the sixteen by sixteen partial sums. This module fixes the
  names every other module of the proof speaks in: the configuration, the ghost state (the launch handshakes' rounds,
  the region's staging cells' rounds, the local transfers' counters), the arrays' locations, the sixteen rows of the
  partial sums' array, and the resources one vector subcore is handed (a read token of each of the three arrays it
  reads, and its own row of the partial sums) and hands back (the same, its row now holding its sums).
-/
import proofs.«212176_g79912161509532_cont_sun_c4_840_27_alg».proof.KernelIdeal
import proofs.«212176_g79912161509532_cont_sun_c4_840_27_alg».proof.Proof.Gen.KernelIdeal
import proofs.«212176_g79912161509532_cont_sun_c4_840_27_alg».proof.Proof.Gen.KernelIdeal.Launch
import Idealize.ShloMosaic.Lib.SparseCore.Launch
import Idealize.ShloMosaic.Lib.Pipeline.Kit
import Idealize.ShloMosaic.Lib.Pipeline.Regions
import Idealize.ShloMosaic.Lib.Transfers
import Idealize.ShloMosaic.Lib.StableHlo.Run

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- No pipeline has a prefetched table. -/
abbrev adm : (p : Fin 1) → (pcfgs (F := F) p).Adm := fun p => (cfgs p).toPCfg_adm

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the region's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the middle factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-! ## The arrays -/

/-- The row sums (flat), the tokens (flat), the lengths and the partial sums, as locations of device `d`. -/
abbrev rsLoc (d : Dev nD) : Loc nD τ sig := (SparseCore.T d).loc main_v2
abbrev tkLoc (d : Dev nD) : Loc nD τ sig := (SparseCore.T d).loc main_v3
abbrev slLoc (d : Dev nD) : Loc nD τ sig := (SparseCore.T d).loc main_arg1
abbrev psLoc (d : Dev nD) : Loc nD τ sig := (SparseCore.T d).loc main_v4

theorem hdiv : 16 ∣ S16x16.size 0 := ⟨1, rfl⟩
/-- Row `i` of the partial sums. -/
abbrev row (i : Fin 16) : Rect S16x16 := Rect.part (s := S16x16) (a₀ := 0) hdiv i
abbrev rowSet (i : Fin 16) : Finset S16x16.Idx := ((Memref.whole main_v4_scv : Memref sig .scVector .hbm S16x16 .f32).view.slice (row i)).set

/-- The read token of vector subcore `i`: the sixteenth part of the full share it is lent. -/
abbrev tok (i : Fin 16) : PosShare TreeShare := Transfers.shareTok fullShare 16 i

/-! ## A vector subcore's place, from its grid coordinates -/

/-- The SparseCore and the vector subcore a grid point names, and the row of the partial sums that is the subcore's. -/
abbrev cV (L : grid1.Coords) : Fin τ.nSC := (L 0).castLE Facts₀.hcore1
abbrev jV (L : grid1.Coords) : Fin τ.nSub := (L 1).castLE Facts₀.hsub1
theorem bound_one : grid1.bound 1 = 16 := rfl
abbrev jL (L : grid1.Coords) : Fin 16 := Fin.cast bound_one (L 1)
/-- The grid point of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- What vector subcore `i` is handed: a read token of the row sums at `rs`, of the tokens at `tk` and of the lengths at
    `sl`, and row `i` of the partial sums at whatever it holds. -/
def goRes (d : Dev nD) (rs : Buf (Elt F) (rsLoc d)) (tk : Buf (Elt F) (tkLoc d)) (sl : Buf (Elt F) (slLoc d)) (i : Fin 16) : sProp 𝕄 :=
  iprop((rsLoc d ↦{tok i} rs) ∗ (tkLoc d ↦{tok i} tk) ∗ (slLoc d ↦{tok i} sl) ∗ ∃ f, psLoc d ↦[rowSet i]{fullShare} f)

/-- What it hands back: the three tokens, and its row of the partial sums at the array `ps`. -/
def tdRes (d : Dev nD) (rs : Buf (Elt F) (rsLoc d)) (tk : Buf (Elt F) (tkLoc d)) (sl : Buf (Elt F) (slLoc d)) (ps : Buf (Elt F) (psLoc d)) (i : Fin 16) : sProp 𝕄 :=
  iprop((rsLoc d ↦{tok i} rs) ∗ (tkLoc d ↦{tok i} tk) ∗ (slLoc d ↦{tok i} sl) ∗ psLoc d ↦[rowSet i]{fullShare} ps)

/-- What rides beside the TensorCore's arrays through the host program before the SparseCore call: the generator
    register at some state, and what the TensorCore owes the launch (the start signals of the call to come), its recorded
    waits all at the index of no call (the lowest level). -/
def Rtc (d : Dev nD) : sProp 𝕄 :=
  iprop((∃ r, prngReg d r) ∗ ∃ Wt : Waits sig (HIx 1), ⌜∀ p ∈ Wt, p.2 = (none : HIx 1)⌝ ∗ owes (T d) ((K (F := F)).Otc d 0) Wt)

end Cert.KernelIdeal.Hand

end
-- ==== Proof.Launch.lean ====
/-
  What the one SparseCore call carries, and how its operands are dealt to the sixteen vector subcores.

  The call takes the three arrays the subcores read (the flat row sums, the flat tokens, the lengths), each whole at
  the contents the host program has given it, and the array of partial sums at whatever it holds; it brings the
  three back unchanged and the partial sums at the ONE array `ps` whose row `i` is what subcore `i` computed. Each
  array that every subcore reads is split into sixteen read tokens and a remainder that stays with the sequencer;
  the partial sums are split into their sixteen rows, and joined again from the rows once every row holds `ps`.
-/
import proofs.«212176_g79912161509532_cont_sun_c4_840_27_alg».proof.Proof.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (rs : (d : Dev nD) → Buf (Elt F) (rsLoc d)) (tk : (d : Dev nD) → Buf (Elt F) (tkLoc d))
  (sl : (d : Dev nD) → Buf (Elt F) (slLoc d)) (ps : (d : Dev nD) → Buf (Elt F) (psLoc d))

/-- The three arrays the subcores read, whole, at their contents. -/
abbrev inPts (d : Dev nD) : sProp 𝕄 :=
  iprop((rsLoc d ↦{fullShare} rs d) ∗ (tkLoc d ↦{fullShare} tk d) ∗ (slLoc d ↦{fullShare} sl d))

/-- The call's payloads. -/
def P : (K (F := F)).Pay (nD := nD) (Val := Elt F) (Name := ℕ) (U := UU) where
  st := fun _ d _ => iprop(inPts rs tk sl d ∗ ∃ f, psLoc d ↦{fullShare} f)
  dn := fun _ d _ => iprop(inPts rs tk sl d ∗ psLoc d ↦{fullShare} ps d)
  go := fun q d _ i => match q with | 0 => goRes d (rs d) (tk d) (sl d) (Fin.cast nSub_zero i)
  td := fun q d _ i => match q with | 0 => tdRes d (rs d) (tk d) (sl d) (ps d) (Fin.cast nSub_zero i)
  x := fun _ _ => iprop(emp)

instance P_storable : (P (F := F) rs tk sl ps).IsStorable where
  st _ d _ := by unfold P; infer_instance
  dn _ d _ := by unfold P; infer_instance
  go q d _ i := match q with | 0 => by unfold P goRes; infer_instance
  td q d _ i := match q with | 0 => by unfold P tdRes; infer_instance

/-! ## The sixteen rows of the partial sums -/

omit rs tk sl ps in
theorem rowSet_eq (i : Fin 16) : rowSet i = (row i).set := by
  show ((View.whole (main_v4_scv : Ref sig .scVector)).slice (row i)).set = _
  rw [View.set_slice]; exact Finset.map_refl
omit rs tk sl ps in
theorem rows_disjoint : ∀ i ∈ (Finset.univ : Finset (Fin 16)), ∀ j ∈ (Finset.univ : Finset (Fin 16)), i ≠ j → Disjoint (rowSet i) (rowSet j) :=
  fun i _ j _ h => by rw [rowSet_eq, rowSet_eq]; exact Rect.part_disjoint hdiv h
omit rs tk sl ps in
theorem rows_cover : (Finset.univ : Finset (Fin 16)).biUnion rowSet = Finset.univ :=
  (Finset.biUnion_congr rfl fun i _ => rowSet_eq i).trans (Rect.biUnion_part hdiv)

omit rs tk sl ps in
/-- The partial sums whole are their sixteen rows. -/
theorem psPts_rows (d : Dev nD) (f : Buf (Elt F) (psLoc d)) :
    (psLoc d ↦{fullShare} f : sProp 𝕄) = bigSep Finset.univ fun i : Fin 16 => psLoc d ↦[rowSet i]{fullShare} f := by
  rw [← pointsTo_biUnion Finset.univ (ℓ := psLoc d) rowSet rows_disjoint, rows_cover]; try rfl

omit rs tk sl ps in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit rs tk sl ps in
/-- A row held at some contents. -/
theorem row_some (d : Dev nD) (f : Buf (Elt F) (psLoc d)) (i : Fin 16) :
    (psLoc d ↦[rowSet i]{fullShare} f : sProp 𝕄) ⊢ iprop(∃ f, psLoc d ↦[rowSet i]{fullShare} f) := by
  iintro H; iexists f; iexact H
omit rs tk sl ps in
theorem rows_some (d : Dev nD) (f : Buf (Elt F) (psLoc d)) :
    (bigSep Finset.univ fun i : Fin 16 => (psLoc d ↦[rowSet i]{fullShare} f : sProp 𝕄))
      ⊢ bigSep Finset.univ fun i : Fin 16 => iprop(∃ f, psLoc d ↦[rowSet i]{fullShare} f) :=
  bigSep_mono fun i _ => row_some d f i

/-! ## The operands dealt to the subcores, the results gathered from them -/

theorem vecSplit : (K (F := F)).VecSplit' (P rs tk sl ps) 0 := by
  intro d c
  show iprop(inPts rs tk sl d ∗ ∃ f, psLoc d ↦{fullShare} f) ⊢ |={Set.univ}=> iprop(
      (bigSep Finset.univ fun i : Fin ((K (F := F)).nSub 0) => goRes d (rs d) (tk d) (sl d) (Fin.cast nSub_zero i))
      ∗ ((bigSep Finset.univ fun i : Fin ((K (F := F)).nSub 0) => tdRes d (rs d) (tk d) (sl d) (ps d) (Fin.cast nSub_zero i))
          -∗ iprop(inPts rs tk sl d ∗ psLoc d ↦{fullShare} ps d)))
  rw [bigSep_tasks (F := F) (fun i => goRes d (rs d) (tk d) (sl d) i),
    bigSep_tasks (F := F) (fun i => tdRes d (rs d) (tk d) (sl d) (ps d) i)]
  unfold goRes tdRes inPts
  rw [bigSep_sep', bigSep_sep', bigSep_sep', bigSep_sep', bigSep_sep', bigSep_sep', psPts_rows d (ps d)]
  iintro ⟨⟨Hrs, Htk, Hsl⟩, %f, Hps⟩
  ihave Hrs' := ((Transfers.pointsTo_toks (ℓ := rsLoc d) (S := Finset.univ) (f := rs d) fullShare 16).1) $$ Hrs
  icases Hrs' with ⟨Hrs0, Hrst⟩
  ihave Htk' := ((Transfers.pointsTo_toks (ℓ := tkLoc d) (S := Finset.univ) (f := tk d) fullShare 16).1) $$ Htk
  icases Htk' with ⟨Htk0, Htkt⟩
  ihave Hsl' := ((Transfers.pointsTo_toks (ℓ := slLoc d) (S := Finset.univ) (f := sl d) fullShare 16).1) $$ Hsl
  icases Hsl' with ⟨Hsl0, Hslt⟩
  ihave Hps' := (Entails.of_eq (psPts_rows (F := F) d f)) $$ Hps
  imodintro
  isplitl [Hrst Htkt Hslt Hps']
  · isplitl [Hrst]; · iexact Hrst
    isplitl [Htkt]; · iexact Htkt
    isplitl [Hslt]; · iexact Hslt
    iapply (rows_some (F := F) d f)
    iexact Hps'
  iintro ⟨Hrst, Htkt, Hslt, Hps⟩
  isplitr [Hps]
  · isplitl [Hrs0 Hrst]
    · iapply ((Transfers.pointsTo_toks (ℓ := rsLoc d) (S := Finset.univ) (f := rs d) fullShare 16).2)
      isplitl [Hrs0] <;> iassumption
    isplitl [Htk0 Htkt]
    · iapply ((Transfers.pointsTo_toks (ℓ := tkLoc d) (S := Finset.univ) (f := tk d) fullShare 16).2)
      isplitl [Htk0] <;> iassumption
    · iapply ((Transfers.pointsTo_toks (ℓ := slLoc d) (S := Finset.univ) (f := sl d) fullShare 16).2)
      isplitl [Hsl0] <;> iassumption
  · iexact Hps

end Cert.KernelIdeal.Hand

end
-- ==== Proof.Ghost.lean ====
/-
  The launch element of the ghost state, and what it deals.

  The element has three parts: the launch handshakes' rounds at their launch state, the region's staging cells' rounds
  at theirs, and the transfers' counters at their unit. The first goes to the launch theorem; the second funds, for
  the device's TensorCore, the ghost state and the duty tokens of the one kernel region's staging cells, which the
  TensorCore keeps until it enters the region; the counters serve the subcores' local copies and their waits. No thread
  is dealt anything for a protocol of the kernel's own: it has none.
-/
import proofs.«212176_g79912161509532_cont_sun_c4_840_27_alg».proof.Proof.Launch
import Idealize.ShloMosaic.Lib.Pipeline.Sound

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The pipelines as the region rule sees them: no table, so each is its printed configuration. -/
abbrev cfgsP : Fin 1 → Pipeline.Cfg sig Λ₀ := Pipeline.pin (pcfgs (F := F)) adm

/-- The program's staging cells are pairwise distinct. -/
theorem cellInj : Function.Injective (Pipeline.cellOf (nD := nD) (τ := τ) (cfgsP (F := F))) := cellOf_inj

/-- The launch element. -/
def u₀ : UU :=
  (initOf (K (F := F)).hsCells (K (F := F)).hsToks,
    (initOf (Pipeline.cells (cfgsP (F := F)) cellInj) (Pipeline.launchToks (cfgsP (F := F)) cellInj), 1))

/-- What the TensorCore of `d` is dealt beside its handshake state: the region's staging cells' ghost state and the
    duty tokens of the transfers the region's loop issues. -/
def G (d : Dev nD) : sProp 𝕄 :=
  iprop(Pipeline.cellsGhost (cfgsP (F := F)) EP 0 d ∗ Pipeline.toksInit (cfgsP (F := F)) EP 0 d)

/-- The staging cells' factor of the algebra, reached through the right factor of the pair and then its left. -/
theorem own_EP (x : UP) :
    (BI.own (((Emb.inl : Emb UP (UP × Counters)).trans (embR : Emb (UP × Counters) 𝕄)) x) : sProp 𝕄) = BI.own ((EP (F := F)) x) := rfl

theorem bigSep_emp' {I : Type} (s : Finset I) : (bigSep s fun _ => iprop(emp)) = (iprop(emp) : sProp 𝕄) := bigSep_emp_const s

variable (rs : (d : Dev nD) → Buf (Elt F) (rsLoc d)) (tk : (d : Dev nD) → Buf (Elt F) (tkLoc d))
  (sl : (d : Dev nD) → Buf (Elt F) (slLoc d)) (ps : (d : Dev nD) → Buf (Elt F) (psLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P rs tk sl ps).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP0, -⟩
  ihave HP := (Entails.of_eq (own_EP (F := F) _)) $$ HP0
  imod (Pipeline.fund_ghost (cfgsP (F := F)) EP cellInj) $$ HP with ⟨Hg, Ht⟩
  imodintro
  isplitl [HH]; · iexact HH
  isplitl [Hg Ht]
  · unfold G
    rw [bigSep_sep']
    isplitl [Hg]
    · rw [bigSep_congr (fun (d : Dev nD) _ => bigSep_univ_of_subsingleton (Φ := fun p : Fin 1 => Pipeline.cellsGhost (cfgsP (F := F)) EP p d) (0 : Fin 1))]
      exact BI.Entails.refl _
    · rw [bigSep_congr (fun (d : Dev nD) _ => bigSep_univ_of_subsingleton (Φ := fun p : Fin 1 => Pipeline.toksInit (cfgsP (F := F)) EP p d) (0 : Fin 1))]
      exact BI.Entails.refl _
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.KernelIdeal.Hand

end
-- ==== Proof.MainOps.lean ====
/-
  The host program's vocabulary: the TensorCore's ten arrays as the device's references, its five host operations,
  and the finite facts about them — which arrays are held between the operations (all ten: none is scoped), that each
  operation touches only those, and which four the SparseCore call borrows.
-/
import proofs.«212176_g79912161509532_cont_sun_c4_840_27_alg».proof.Proof.Setup
import Idealize.ShloMosaic.Lib.Pipeline.Frame

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.Sem

variable {F : FTy → Type} [FloatOps F]

/-! ## The arrays, as the device's references -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev cst' : DevRef τ sig := Proc.devRef .tc (main_cst : Ref sig .tc)
abbrev v5' : DevRef τ sig := Proc.devRef .tc (main_v5 : Ref sig .tc)

/-! ## The host operations, in order -/

/-- The table as 250 blocks of 128 rows. -/
abbrev opBlocks : HloOp τ sig (Elt F) := StableHlo.reshape main_arg2 main_v0 rfl Facts₀.shapeCasts_S32000x1024_S250x128x1024
/-- The row sums, flat. -/
abbrev opFlatRows : HloOp τ sig (Elt F) := StableHlo.reshape main_v1 main_v2 rfl Facts₀.shapeCasts_S5x50x128_S32000
/-- The tokens, flat. -/
abbrev opFlatToks : HloOp τ sig (Elt F) := StableHlo.reshape main_arg0 main_v3 rfl Facts₀.shapeCasts_S16x4096_S65536
/-- The zero the final sum starts from. -/
abbrev opZero : HloOp τ sig (Elt F) := StableHlo.nullary main_cst (constant S_ .f32 0x00000000#32)
/-- The final sum of the partial sums. -/
abbrev opTotal : HloOp τ sig (Elt F) :=
  StableHlo.binary main_v4 main_cst main_v5 ((fun x v => Host.reduceAdd x v Facts₀.reducesTo_S16x16_S_d0_1 Facts₀.h_S_) :
    (⟨S16x16, .f32⟩ : BufTy).Contents (Elt F) → (⟨S_, .f32⟩ : BufTy).Contents (Elt F) → (⟨S_, .f32⟩ : BufTy).Contents (Elt F))

/-! ## The finite facts -/

omit [FloatOps F] in
/-- The arrays held between the host operations: the ten, none scoped. -/
theorem ucRefs_eq : Pipeline.ucRefs τ sig = {a0', a1', a2', v0', v1', v2', v3', v4', cst', v5'} := by decide

/-- The four the SparseCore call borrows: the flat row sums, the flat tokens, the lengths, the partial sums. -/
abbrev callRefs : Finset (DevRef τ sig) := {v2', v3', a1', v4'}
omit [FloatOps F] in
theorem callRefs_sub : callRefs ⊆ Pipeline.ucRefs τ sig := by decide

theorem opBlocks_sub : (opBlocks (F := F)).bufs ⊆ Pipeline.ucRefs τ sig :=
  show ({a2', v0'} : Finset (DevRef τ sig)) ⊆ Pipeline.ucRefs τ sig by decide
theorem opFlatRows_sub : (opFlatRows (F := F)).bufs ⊆ Pipeline.ucRefs τ sig :=
  show ({v1', v2'} : Finset (DevRef τ sig)) ⊆ Pipeline.ucRefs τ sig by decide
theorem opFlatToks_sub : (opFlatToks (F := F)).bufs ⊆ Pipeline.ucRefs τ sig :=
  show ({a0', v3'} : Finset (DevRef τ sig)) ⊆ Pipeline.ucRefs τ sig by decide
theorem opZero_sub : (opZero (F := F)).bufs ⊆ Pipeline.ucRefs τ sig :=
  show ({cst'} : Finset (DevRef τ sig)) ⊆ Pipeline.ucRefs τ sig by decide
theorem opTotal_sub : (opTotal (F := F)).bufs ⊆ Pipeline.ucRefs τ sig :=
  show ({v4', cst', v5'} : Finset (DevRef τ sig)) ⊆ Pipeline.ucRefs τ sig by decide

end Cert.KernelIdeal.Hand

end
-- ==== Proof.Spec.lean ====
/-
  The number both programs compute, as one function of the three argument arrays.

  Sixteen token sequences of 4096 positions each, a length per sequence, and a table of 32000 rows of 1024 reals.
  Position `l` of sequence `b` looks up the row named by its token when the position lies inside the sequence (the
  position, as a signed 32-bit word, is below the sequence's length) and row 0, the padding row, when it lies past the
  end. The result is the sum, over every sequence and every position, of the looked-up row's 1024 entries: a sum over
  16 · 4096 · 1024 extended reals, in which only commutativity and associativity of the sum are ever used, so that
  no entry need be finite.
-/
import Idealize.ShloMosaic.PureOps.Ideal
import Idealize.ShloMosaic.Lib.ValueIdx

noncomputable section

open scoped BigOperators

namespace Cert.Spec

open Idealize.ShloMosaic Idealize.ShloMosaic.ValueIdx

/-- The tokens: sixteen sequences of 4096 positions. -/
abbrev Toks : Shape := ⟨2, ![16, 4096]⟩
/-- The sequences' lengths. -/
abbrev Lens : Shape := ⟨1, ![16]⟩
/-- The table: 32000 rows of 1024 entries. -/
abbrev Table : Shape := ⟨2, ![32000, 1024]⟩

/-- Position `l` of sequence `b` lies inside the sequence: as signed 32-bit words, the position is below the length. -/
def live (sl : IVec Lens 32) (b : Fin 16) (l : Fin 4096) : Bool :=
  (BitVec.ofNat 32 l.val).slt (sl (ix1 b))

/-- The row looked up at position `l` of sequence `b`: the token there inside the sequence, the padding row 0 past its end. -/
def padTok (tok : IVec Toks 32) (sl : IVec Lens 32) (b : Fin 16) (l : Fin 4096) : Nat :=
  if live sl b l then (tok (ix2 b l)).toNat else 0

/-- The sum of the 1024 entries of row `n` of the table (zero for a number that names no row). -/
def rowSum (emb : FVec Ideal Table .f32) (n : Nat) : EReal :=
  if h : n < 32000 then ∑ d : Fin 1024, emb (ix2 (⟨n, h⟩ : Fin 32000) d) else 0

/-- The result: over every sequence and position, the looked-up row's sum. -/
def total (tok : IVec Toks 32) (sl : IVec Lens 32) (emb : FVec Ideal Table .f32) : EReal :=
  ∑ b : Fin 16, ∑ l : Fin 4096, rowSum emb (padTok tok sl b l)

/-- Every token names a row of the table. -/
def TokInRange (tok : IVec Toks 32) : Prop := ∀ (b : Fin 16) (l : Fin 4096), (tok (ix2 b l)).toNat < 32000

theorem padTok_lt {tok : IVec Toks 32} (h : TokInRange tok) (sl : IVec Lens 32) (b : Fin 16) (l : Fin 4096) :
    padTok tok sl b l < 32000 := by
  unfold padTok; split
  · exact h b l
  · decide

end Cert.Spec

end
-- ==== Proof.SpecFlat.lean ====
/-
  The same lookups read off the FLAT arrays a vector subcore is handed: the tokens as one list of 16 · 4096 words,
  sequence after sequence, and the table's row sums as one list of 32000 reals.
-/
import proofs.«212176_g79912161509532_cont_sun_c4_840_27_alg».proof.Proof.Spec

noncomputable section

open scoped BigOperators

namespace Cert.Spec

open Idealize.ShloMosaic Idealize.ShloMosaic.ValueIdx

/-- The flat token list and the flat row sums. -/
abbrev FlatToks : Shape := ⟨1, ![65536]⟩
abbrev FlatRows : Shape := ⟨1, ![32000]⟩

/-- The row looked up at position `l` of sequence `b`, read off the flat token list: word `4096 b + l` inside the
    sequence, the padding row 0 past its end. -/
def flatTok (tk : IVec FlatToks 32) (sl : IVec Lens 32) (b : Fin 16) (l : Fin 4096) : Nat :=
  if live sl b l then (tk (ix1 (⟨4096 * b.val + l.val, by omega⟩ : Fin 65536))).toNat else 0

/-- Entry `n` of the flat row sums (zero for a number that names no row). -/
def rsAt (rs : FVec Ideal FlatRows .f32) (n : Nat) : EReal :=
  if h : n < 32000 then rs (ix1 (⟨n, h⟩ : Fin 32000)) else 0

end Cert.Spec

end
-- ==== Proof.TileValue.lean ====
/-
  What one vector subcore computes, as a pure function of the three arrays it reads.

  Subcore `b` walks its own sequence of 4096 token words, sixteen at a time, in 256 trips. In trip `k` lane `x` looks at
  position `16 k + x`: when that position, as a signed 32-bit word, is below the sequence's length it takes the token
  word there (word `4096 b + 16 k + x` of the flat token list), otherwise the word 0; it reads the row sum that word
  names and adds it to its lane's accumulator, which starts at the zero word. After 256 trips the sixteen accumulators
  are row `b` of the sixteen by sixteen array of partial sums.
-/
import proofs.«212176_g79912161509532_cont_sun_c4_840_27_alg».proof.Proof.Gen.KernelIdeal
import proofs.«212176_g79912161509532_cont_sun_c4_840_27_alg».proof.Proof.SpecFlat
import Idealize.ShloMosaic.Lib.ValueIdx

noncomputable section

open scoped BigOperators

namespace Cert.KernelIdeal.Hand

open Cert.KernelIdeal Cert.KernelIdeal.Gen
open Idealize.ShloMosaic Idealize.ShloMosaic.ValueIdx

variable {F : FTy → Type} [FloatOps F]

/-- The sixteen positions trip `k` looks at, as 32-bit words: the trip's number times sixteen in every lane, plus the
    lane's own number. -/
def tripPos (k : Nat) : IVec S16 32 :=
  addi (broadcast S16 (Scalar.muli (Scf.iv 0#32 1#32 k) 16#32)) (iota .scVector S16 32 [0] iota_S16_d0_w32_scVector)

/-- The sixteen token words of sequence `b` at trip `k`: words `4096 b + 16 k` onwards of the flat token list. -/
def tripToks (tk : IVec S65536 32) (b : Fin 16) (k : Nat) : IVec S16 32 :=
  fun x => tk (ix1 (⟨4096 * b.val + 16 * (k % 256) + (x 0).val, by
    have hx : (x 0).val < 16 := (x 0).isLt
    omega⟩ : Fin 65536))

/-- The sixteen words trip `k` looks up: the token where the position is below the sequence's length (signed), else 0. -/
def tripSel (tk : IVec S65536 32) (sl : IVec S16 32) (b : Fin 16) (k : Nat) : IVec S16 32 :=
  select (cmpi .slt (tripPos k) (broadcast S16 (sl (ix1 b)))) (tripToks tk b k) (broadcast S16 0#32)

/-- The row sums sixteen words name (a word that names no row reads row 0; no such word arises from tokens in range). -/
def gatherRows (rs : FVec F S32000 .f32) (w : IVec S16 32) : FVec F S16 .f32 :=
  fun x => if h : (w x).toNat < 32000 then rs (ix1 (⟨(w x).toNat, h⟩ : Fin 32000)) else rs (ix1 (0 : Fin 32000))

/-- The sixteen lane accumulators of subcore `b` after `k` trips: the zero word in every lane, then per trip the
    looked-up row sums added lane by lane. -/
def laneAcc (rs : FVec F S32000 .f32) (tk : IVec S65536 32) (sl : IVec S16 32) (b : Fin 16) : Nat → FVec F S16 .f32
  | 0 => broadcast S16 (Scalar.ofBits .f32 0x00000000#32)
  | k + 1 => addf (laneAcc rs tk sl b k) (gatherRows rs (tripSel tk sl b k))

/-- The sixteen by sixteen array of partial sums: row `b` is subcore `b`'s accumulators after all 256 trips. -/
def partials (rs : FVec F S32000 .f32) (tk : IVec S65536 32) (sl : IVec S16 32) : FVec F S16x16 .f32 :=
  fun j => laneAcc rs tk sl (j 0 : Fin 16) 256 (ix1 (j 1 : Fin 16))

end Cert.KernelIdeal.Hand

end
-- ==== Proof.RegionBody.lean ====
/-
  The row-sum kernel's body, run on its two staging buffers.

  At each of its five grid points the body is handed a buffer holding one block of the table — 50 groups of 128 rows of
  1024 entries — and a buffer for that block's 50 × 128 row sums. It reads the whole block, sums each row along its
  1024 entries, and writes the 50 × 128 sums over the whole of the second buffer (which it also reads first, to no
  effect). So it leaves the first buffer as it was and the second holding the sums of the first one's rows, whatever
  the second held before.
-/
import proofs.«212176_g79912161509532_cont_sun_c4_840_27_alg».proof.Proof.Setup
import proofs.«212176_g79912161509532_cont_sun_c4_840_27_alg».proof.Proof.Gen.KernelIdeal.Launch
import proofs.«212176_g79912161509532_cont_sun_c4_840_27_alg».proof.Proof.Gen.KernelIdeal.Skeleton
import proofs.«212176_g79912161509532_cont_sun_c4_840_27_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Both of the body's accesses start at the first element of their buffer. -/
theorem origin3 : (![0, 0, 0] : Fin 3 → Nat) = fun _ => 0 := funext fun a => by fin_cases a <;> rfl

/-- The whole of the first buffer, as the body's load names it, and the whole of the second, as its store does. -/
abbrev blockRect : Rect S50x128x1024 := Rect.unit (s := S50x128x1024) ![0, 0, 0] S50x128x1024.size Gen.inb_S50x128x1024_S50x128x1024_0_0_0
abbrev sumsRect : Rect S1x50x128 := Rect.unit (s := S1x50x128) ![0, 0, 0] S1x50x128.size Gen.inb_S1x50x128_S1x50x128_0_0_0

/-- The 50 × 128 row sums of one block of the table, as the body computes them: what it stores. -/
abbrev blockSums (x : Vec F S50x128x1024 .f32) : Vec F S1x50x128 .f32 := k0_pay1 x

set_option maxHeartbeats 1000000 in
/-- The body on two whole staging buffers, the first reading `x` and the second anything, runs to a state where the
    first still reads `x` and the second reads the row sums of `x`. -/
theorem rowsum_body_run (c : Dev nD) (E : Set ℕ) (i : grid0.Coords)
    (arg1 : Memref sig .tc .vmem S50x128x1024 .f32) (harg1 : arg1.IsWhole)
    (arg2 : Memref sig .tc .vmem S1x50x128 .f32) (harg2 : arg2.IsWhole)
    (x : Vec F S50x128x1024 .f32) (Q : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (blockSums x)) -∗ Q ⟨⟩))
      ⊢ wp frame (wpE (defs₀ (F := F)) Variants.none c none) E (cc0__rowsum_body i arg1 harg1 arg2 harg2) Q := by
  simp only [cc0__rowsum_body_eq_skeleton]; unfold cc0__rowsum_body_skel
  unfold owns
  iintro ⟨⟨%f1, %hf1, H1⟩, ⟨%d2, %f2, -, H2⟩, HQ⟩
  subst hf1
  sl_exec
  sl_step
  iapply HQ
  isplitl [H1]
  · iexists f1; isplitr; · ipureintro; rfl
    iexact H1
  iexists _; isplitr
  swap; · iexact H2
  ipureintro
  -- the one store covers the second buffer, so the buffer reads as what was stored; the load read all of the first
  have hcov : ∀ y : S1x50x128.Idx, ∃ p ∈ ([⟨sumsRect, blockSums (View.ld (arg1.view.read (Elt F) f1) blockRect)⟩] :
      List (View.Piece (Elt F) S1x50x128 .f32)), y ∈ p.1.set :=
    fun y => ⟨⟨sumsRect, _⟩, List.mem_singleton_self _, View.mem_set_unit_zero origin3 Gen.inb_S1x50x128_S1x50x128_0_0_0 y⟩
  exact (View.read_writes_eq_canon arg2.view f2 _ hcov).trans
    ((View.canon_unit_zero origin3 _ _).trans (congrArg k0_pay1 (View.ld_unit_zero origin3 _ _)))

end Cert.KernelIdeal.Hand

end
-- ==== Proof.RegionDat.lean ====
/-
  The row-sum region as a whole: what the pipeline is told about the body, and what the region leaves.

  The region walks five grid points. At point `t` it fetches block `t` of the table — groups `50 t … 50 t + 49` of the
  250 groups of 128 rows — into a staging buffer, runs the body, and writes the body's 50 × 128 sums back as slab `t` of
  the 5 × 50 × 128 output. The input block at a point is read off the table as the region finds it; the body leaves it
  in place and leaves the output's buffer at the block's row sums. The five slabs are disjoint and fill the output, so
  after the region the output array is one function of the table: entry `(t, r, c)` is the sum of row `c` of group
  `50 t + r`. Every other array is as the region found it. While the region runs, the TensorCore still owes the later
  call its start signals: that debt rides through every point unchanged, and all the waits recorded are at the index
  of no call.
-/
import proofs.«212176_g79912161509532_cont_sun_c4_840_27_alg».proof.Proof.RegionBody
import Idealize.ShloMosaic.Lib.Pipeline.FrameSuffix
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The output array as one function of the table -/

/-- Block `t` of the table cut into 250 groups of 128 rows: its groups `50 t … 50 t + 49`. -/
def tableBlock (x : FVec F S250x128x1024 .f32) (t : Fin 5) : Vec F S50x128x1024 .f32 :=
  fun z => x (ix3 (⟨50 * t.val + (z 0).val, by have : (z 0).val < 50 := (z 0).isLt; omega⟩ : Fin 250)
    (⟨(z 1).val, (z 1).isLt⟩ : Fin 128) (⟨(z 2).val, (z 2).isLt⟩ : Fin 1024))

/-- The whole output of the region: slab `t` holds the row sums of block `t` of the table. -/
def rowsOut (x : FVec F S250x128x1024 .f32) : FVec F S5x50x128 .f32 :=
  fun j => blockSums (tableBlock x (⟨(j 0).val, (j 0).isLt⟩ : Fin 5))
    (ix3 (0 : Fin 1) (⟨(j 1).val, (j 1).isLt⟩ : Fin 50) (⟨(j 2).val, (j 2).isLt⟩ : Fin 128))

/-! ## The proof data -/

variable (W : Dev nD → Valuation τ sig (Elt F))

/-- The arrays as the region finds them, read at the TensorCore's references. -/
abbrev entryAt (c : Dev nD) (b : Ref sig .tc) : Buf (Elt F) ((c : Thread nD τ).loc b) := W c (Proc.devRef .tc b)

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt W c (Pipeline.arrRef spec0 w))

/-- What the body may use and need not describe: the scoped buffers that stage no window, and the generator register. -/
def regionInv (c : Dev nD) : sProp 𝕄 :=
  iprop(Pipeline.scopedRest (Ix := HIx 1) (Name := ℕ) (U := UU) (Lvl := ℕ) (Val := Elt F) spec0 c ∗ ∃ r, prngReg c r)

/-- The pipeline's proof data on core `c`: the arrays as found; after the body at point `t` the input's buffer at its
    block and the output's at the block's row sums; full shares; at every point the start signals of the later call
    still owed, and every recorded wait at the index of no call. -/
def dat0 (c : Dev nD) : Dat τ (Elt F) (HIx 1) ℕ UU ℕ cfg0 c where
  A w := entryAt W c (Pipeline.arrRef spec0 w)
  after w t := match w with
    | ⟨0, _⟩ => blockAt W c 0 t
    | ⟨1, _⟩ => blockSums (blockAt W c 0 t)
  Φ _ := regionInv c
  q _ := fullShare
  owed _ := (K (F := F)).Otc c 0
  recorded _ := {p | p.2 = none}

theorem dat0_A (c : Dev nD) (w : Fin cfg0.W) : (dat0 W c).A w = entryAt W c (Pipeline.arrRef spec0 w) := by
  dsimp only [dat0]
theorem dat0_after_in (c : Dev nD) (t : Fin cfg0.N) : (dat0 W c).after 0 t = blockAt W c 0 t := by dsimp only [dat0]
theorem dat0_after_out (c : Dev nD) (t : Fin cfg0.N) : (dat0 W c).after 1 t = blockSums (blockAt W c 0 t) := by
  dsimp only [dat0]

/-- The input is fetched at every point, so its buffer holds its block when the body runs. -/
theorem dat0_before_in (c : Dev nD) (t : Fin cfg0.N) (d) : (dat0 W c).before 0 t d = blockAt W c 0 t :=
  ((dat0 W c).before_fetched 0 t (fetch0_0 t) d).trans (by
    unfold Dat.fetched Dat.blockOf blockAt; rw [dat0_A]; try rfl)

/-! ## The body obligation -/

/-- The body at point `t`, on what the pipeline hands it there. -/
theorem rowsum_at_point (c : Dev nD) (t : Fin cfg0.N) :
    iprop((dat0 W c).Φ t.castSucc ∗ (dat0 W c).owesAt (none : HIx 1) t.castSucc
        ∗ (∃ d, owns (c : Thread nD τ) (st0_0 t) fullShare ((dat0 W c).before 0 t d))
        ∗ (∃ d, owns (c : Thread nD τ) (st0_1 t) fullShare ((dat0 W c).before 1 t d)))
      ⊢ wp frame (wpE (defs₀ (F := F)) Variants.none c none) Set.univ (bodyAt0 t) (fun _ =>
          iprop((dat0 W c).Φ t.succ ∗ (dat0 W c).owesAt (none : HIx 1) t.succ
            ∗ owns (c : Thread nD τ) (st0_0 t) fullShare ((dat0 W c).after 0 t)
            ∗ owns (c : Thread nD τ) (st0_1 t) fullShare ((dat0 W c).after 1 t))) := by
  unfold bodyAt0
  simp only [dat0_before_in]
  rw [show (dat0 W c).Φ t.succ = (dat0 W c).Φ t.castSucc from rfl,
    show (dat0 W c).owesAt (none : HIx 1) t.succ = (dat0 W c).owesAt (none : HIx 1) t.castSucc from rfl,
    dat0_after_in, dat0_after_out]
  iintro ⟨HΦ, Ho, ⟨%d0, H0⟩, ⟨%d1, H1⟩⟩
  iapply (rowsum_body_run c Set.univ _ _ _ _ _ (blockAt W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) :
    Pipeline.BodyObligation (dat0 (F := F) W c) (defs₀ (F := F)) Variants.none (none : HIx 1) Set.univ := fun t => by
  rw [bigSep_W0, bigSep_W0]
  exact rowsum_at_point W c t

/-! ## The arrays when the region is left -/

/-- Core `c`'s buffers when the region is left: the region's two arrays at what its write-backs leave, every other
    buffer as the region found it. -/
def afterRegion (c : Dev nD) : Valuation τ sig (Elt F) :=
  Pipeline.withArrays spec0 c (W c) fun w => (dat0 W c).arrAt w cfg0.N

theorem afterRegion_arr (c : Dev nD) (w : Fin cfg0.W) :
    afterRegion W c (Proc.devRef .tc (Pipeline.arrRef spec0 w)) = (dat0 W c).arrAt w cfg0.N := by
  unfold afterRegion; exact Pipeline.withArrays_arr spec0 launch0.win.arr_inj c _ _ w

theorem afterRegion_off (c : Dev nD) (b : Ref sig .tc) (hb : ∀ w, Pipeline.arrRef spec0 w ≠ b) :
    afterRegion W c (Proc.devRef .tc b) = W c (Proc.devRef .tc b) := by
  unfold afterRegion; exact Pipeline.withArrays_of_ne spec0 c _ _ b hb

end Cert.KernelIdeal.Hand

end
-- ==== Proof.MainVals.lean ====
/-
  The host program's arrays, stage by stage.

  Between the launch and the return the TensorCore's arrays pass through six stages: the launch contents; the table
  relabelled as 250 blocks of 128 rows; the kernel region's row sums written; the row sums and the tokens flattened;
  the partial sums written by the sixteen subcores; the zero constant and the final sum. Each stage is the one
  before it with one host operation's result, the region's output or the subcores' output put in place. What is read
  off the last stage: the three arguments are as launched, and the result is the host's sum of the partial sums that
  the subcores compute from the flattened row sums, the flattened tokens and the lengths.
-/
import proofs.«212176_g79912161509532_cont_sun_c4_840_27_alg».proof.Proof.MainOps
import proofs.«212176_g79912161509532_cont_sun_c4_840_27_alg».proof.Proof.TileValue
import proofs.«212176_g79912161509532_cont_sun_c4_840_27_alg».proof.Proof.RegionDat

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.Sem

variable {F : FTy → Type} [FloatOps F]

/-! ## The stages -/

variable (m : (ℓ : Loc nD τ sig) → Buf (Elt F) ℓ)

/-- The launch contents. -/
def W0 (d : Dev nD) : Valuation τ sig (Elt F) := fun b => m (d, b)
/-- The table relabelled. -/
def W1 (d : Dev nD) : Valuation τ sig (Elt F) := (opBlocks (F := F)).result (W0 m d)
/-- The region's row sums written. -/
def W2 : Dev nD → Valuation τ sig (Elt F) := afterRegion (W1 m)
/-- The row sums and the tokens flattened. -/
def W3 (d : Dev nD) : Valuation τ sig (Elt F) := (opFlatToks (F := F)).result ((opFlatRows (F := F)).result (W2 m d))

/-- What the subcores are handed: the flat row sums, the flat tokens, the lengths. -/
abbrev RS (d : Dev nD) : Buf (Elt F) (rsLoc d) := W3 m d v2'
abbrev TK (d : Dev nD) : Buf (Elt F) (tkLoc d) := W3 m d v3'
abbrev SL (d : Dev nD) : Buf (Elt F) (slLoc d) := W3 m d a1'
/-- What they leave. -/
abbrev PS (d : Dev nD) : Buf (Elt F) (psLoc d) := partials (RS m d) (TK m d) (SL m d)

/-- The partial sums written. -/
def W4 (d : Dev nD) : Valuation τ sig (Elt F) := Function.update (W3 m d) v4' (PS m d)
/-- The zero and the final sum. -/
def W5 (d : Dev nD) : Valuation τ sig (Elt F) := (opTotal (F := F)).result ((opZero (F := F)).result (W4 m d))

/-! ## Each stage is the one before it with one step's result in place -/

theorem W1_eq (d : Dev nD) : (opBlocks (F := F)).result (W0 m d) = W1 m d := rfl
theorem W2_eq (d : Dev nD) : afterRegion (W1 m) d = W2 m d := rfl
theorem W3_eq (d : Dev nD) : (opFlatToks (F := F)).result ((opFlatRows (F := F)).result (W2 m d)) = W3 m d := rfl
theorem W5_eq (d : Dev nD) : (opTotal (F := F)).result ((opZero (F := F)).result (W4 m d)) = W5 m d := rfl

end Cert.KernelIdeal.Hand

end
-- ==== Proof.Region.lean ====
/-
  The row-sum region as a segment of the host program.

  Around the region the TensorCore holds every unscoped array at known contents, its generator register, and its debt
  to the later call (the call's start signals), all its recorded waits being at the index of no call. Entering the
  region, the two arrays the region works on — the table cut into groups, and the 5 × 50 × 128 output — are taken out of
  the unscoped arrays; the register goes into the region's invariant; the debt is handed to the pipeline as it is.
  The pipeline's own waits, on its staging buffers' semaphores, are at the index of no call too, which sits below every
  index the debt is at: a wait may go ahead while a debt is open only if the debt sits strictly above it, and here it
  does. Leaving the region, the two arrays go back among the unscoped ones at what the region left in them, the
  register comes back, and the debt is unchanged; the waits the pipeline added are again at the index of no call.
-/
import proofs.«212176_g79912161509532_cont_sun_c4_840_27_alg».proof.Proof.RegionDat
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-- The TensorCore's debt to the later call is all at that call's index: at the index of no call it owes nothing. -/
theorem Otc_none (c : Dev nD) (g : GSem nD τ sig) : (K (F := F)).Otc c 0 g (none : HIx 1) = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun s _ => by rw [tallyAt_apply, if_neg (fun h => nomatch h.2)]
  · rfl

/-- A wait the pipeline records is on a staging buffer's semaphore, at the index it was told: here, of no call. -/
theorem waitPairs_none {p : SemLoc sig × HIx 1} (hp : p ∈ cfg0.waitPairs (none : HIx 1)) : p.2 = none := by
  obtain ⟨w, s, rfl⟩ := hp; rfl

variable (W : Dev nD → Valuation τ sig (Elt F))

/-- The one pipeline's proof data, at the contents the region is entered with. -/
def pdats : (p : Fin 1) → (c : Dev nD) → Dat τ (Elt F) (HIx 1) ℕ UU ℕ (Pipeline.pin (pcfgs (F := F)) adm p) c
  | ⟨0, _⟩ => fun c => dat0 W c

-- the library's entry and exit lemmas are stated over the pinned configuration; they unify with the printed one only
-- when plain definitions in a metavariable's type may be unfolded
set_option backward.isDefEq.respectTransparency.types false in
/-- The region over the TensorCore's thread state: entered holding every unscoped array at `W`, left holding them at
    `afterRegion W`; beside them, before and after, the generator register and the debt to the later call. -/
def reg0 : Pipeline.RegionSeg (pcfgs (F := F)) adm (pdats W) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 W c).loose
  hwaits c := Pipeline.cellsWaits_intro (Pipeline.pin (pcfgs (F := F)) adm) (pdats W) (none : HIx 1) 0 c
    fun w s t => (K (F := F)).mayWait_none _ (Otc_none c)
  pre c := iprop(StableHlo.held (c : Thread nD τ) (Pipeline.ucRefs τ sig) (W c) ∗ Rtc c)
  post c := iprop(StableHlo.held (c : Thread nD τ) (Pipeline.ucRefs τ sig) (afterRegion W c) ∗ Rtc c)
  X c := iprop(∃ r, prngReg c r)
  Y c := iprop(∃ r, prngReg c r)
  Z c := Pipeline.unscopedRest (Ix := HIx 1) (Name := ℕ) (U := UU) (Lvl := ℕ) spec0 c (entryAt W c)
  hentry c := by
    -- the two arrays out of the unscoped ones; the debt handed over with its recorded waits, all at the index of no call
    rw [Pipeline.ownSems0_none]
    have harrays := Pipeline.arrays_of_unscopedBufs (p := 0) (pcfgs (F := F)) adm (pdats W) launch0.win launch0.arr_whole c
      ((pdats W 0 c).share_full fun _ => rfl) (entryAt W c) fun _ => rfl
    rw [Pipeline.unscopedBufs_held] at harrays
    unfold Rtc
    iintro ⟨⟨Hbufs, Hreg, %Wt, %hWt, Howes⟩, -, -⟩
    ihave Hsplit := harrays $$ Hbufs
    icases Hsplit with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      iexists Wt; isplitr
      · ipureintro; exact fun p hp => Or.inl (hWt p (Finset.mem_coe.mp hp))
      iexact Howes
    isplitl [Hreg]; · iexact Hreg
    iexact Hrest
  hin c := by
    rw [show (pdats W 0 c).Φ 0 = regionInv c from rfl]; unfold regionInv
    iintro ⟨Hreg, -, Hsc⟩
    isplitl [Hsc]; · iexact Hsc
    iexact Hreg
  hout c := by
    rw [Pipeline.ownSems0_none, show (pdats W 0 c).Φ (Fin.last _) = regionInv c from rfl]; unfold regionInv
    iintro ⟨Hsc, Hreg⟩
    isplitl [Hreg]; · iexact Hreg
    isplitr; · iempintro
    iexact Hsc
  hexit c := by
    -- the two arrays back among the unscoped ones at what the region left; the waits added are the pipeline's own
    have hjoin := Pipeline.unscopedBufs_of_arrays (p := 0) (pcfgs (F := F)) adm (Ix := HIx 1) (Name := ℕ) (U := UU) (Lvl := ℕ)
      launch0.win launch0.arr_whole c (pdats W) ((pdats W 0 c).share_full fun _ => rfl)
      (entryAt W c) (entryAt (afterRegion W) c) ((pdats W 0 c).arrAt · cfg0.N)
      (fun w => (afterRegion_arr W c w).symm)
      (fun b hb => afterRegion_off W c b fun w e => hb (Finset.mem_image.mpr ⟨w, Finset.mem_univ _, e⟩))
    rw [Pipeline.unscopedBufs_held] at hjoin
    unfold Rtc
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%Wx, %hWx, Howes⟩
    iexists Wx; isplitr
    · ipureintro; exact fun p hp => (hWx (Finset.mem_coe.mpr hp)).elim id waitPairs_none
    iexact Howes

theorem reg0_pre (c : Dev nD) :
    (reg0 W).pre c = iprop(StableHlo.held (c : Thread nD τ) (Pipeline.ucRefs τ sig) (W c) ∗ Rtc c) := rfl

theorem reg0_post (c : Dev nD) :
    (reg0 W).post c = iprop(StableHlo.held (c : Thread nD τ) (Pipeline.ucRefs τ sig) (afterRegion W c) ∗ Rtc c) := rfl

end Cert.KernelIdeal.Hand

end
-- ==== Proof.LibRegionInSparseCore.lean ====
/-
  A TensorCore kernel region entered from @main of a program that also launches SparseCore kernels.

  In such a program @main runs in the signature extended by the SparseCore calls, and a TensorCore pallas_call stands
  there as the custom call of the INNER label `Pipeline.entry p`. The pipeline library proves a region's step
  (`Pipeline.RegionSeg.wp`) for the call in the pipelines' own signature, under the pipelines' body table; the
  SparseCore library carries any proof about a program of the inner signature to the lifted program under the
  extended body table (`SparseCore.Cfg.wp_liftProg`). The call of the inner label IS the lifted call, so the two
  compose: from the region boundary, the region record's entry state, the level facts and the pipeline's ghost state,
  the custom call runs to the boundary and the record's exit state, and @main goes on from there. Stated twice: for a
  region record over exact proof data, and for one over relational proof data.
-/
import Idealize.ShloMosaic.Lib.SparseCore.Launch
import Idealize.ShloMosaic.Lib.Pipeline.Regions

noncomputable section

namespace Idealize.ShloMosaic.SparseCore

open Idealize.SL
open Idealize.SL.BI (sProp)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type} {Λ₀ : Labels} {P : Type} [Fintype P] {Q : Nat}
variable {Name : Type} [DecidableEq Name] {U : Type} [URA U]

local notation "𝕄" => MT nD τ sig (Cfg.HIx Q) Val Name U ℕ

variable (pcs : P → Pipeline.PCfg sig Λ₀ Val) (a : (p : P) → (pcs p).Adm)
  (pdats : (p : P) → (c : Dev nD) → Pipeline.Dat τ Val (Cfg.HIx Q) Name U ℕ (Pipeline.pin pcs a p) c) (ι : Cfg.HIx Q)
  (phinj : Function.Injective (Pipeline.cellOf (nD := nD) (Pipeline.pin pcs a)))
  (EP : Emb (URounds (GSem nD τ sig) Unit) (MT nD τ sig (Cfg.HIx Q) Val Name U ℕ))
  (defs₀ : Defs nD τ sig Val Λ₀) (𝒱₀ : Variants)
  (L : GSem nD τ sig → Finset (Cfg.HIx Q)) (lv : GSem nD τ sig → Cfg.HIx Q → ℕ)
  (K : Cfg τ sig (Pipeline.Sig Λ₀ P fun p => (pcs p).Adm) Q)

include phinj in
/-- **A TensorCore region inside a SparseCore program.** On core `c`'s TensorCore, under the extended body table
    `K.defs (Pipeline.defs pcs defs₀)`: from the region boundary, the region record's `pre c`, the level facts and
    pipeline `p`'s ghost state, the custom call of the inner label `Pipeline.entry p` runs to the boundary and
    `post c`, from which the continuation `k` is run. It is `Pipeline.RegionSeg.wp` at the trivial continuation,
    lifted by `Cfg.wp_liftProg`, and bound to `k`. -/
theorem Cfg.wp_regionCall [∀ e, Nonempty (Val e)] [Infinite Name] [EP.LandsIn (upEmb : UEmb _ 𝕄)]
    {p : P} (R : Pipeline.RegionSeg pcs a pdats ι defs₀ 𝒱₀ L lv p) (c : Dev nD)
    {α : Type} (k : PUnit → Prog (TpuEff nD τ sig Val (Sig (Pipeline.Sig Λ₀ P fun p => (pcs p).Adm) Q) .tc) α) (Φ : α → sProp 𝕄) :
    iprop((iprop(boundary (c.tc : Thread nD τ) ∗ R.post c)
            -∗ wp frame (wpE (K.defs (Pipeline.defs pcs defs₀)) (Variants.lift 𝒱₀) (c.tc : Thread nD τ) none) Set.univ (k ⟨⟩) Φ)
        ∗ boundary (c.tc : Thread nD τ) ∗ R.pre c ∗ levAts L lv
        ∗ Pipeline.cellsGhost (Pipeline.pin pcs a) EP p c ∗ Pipeline.toksInit (Pipeline.pin pcs a) EP p c)
      ⊢ wp frame (wpE (K.defs (Pipeline.defs pcs defs₀)) (Variants.lift 𝒱₀) (c.tc : Thread nD τ) none) Set.univ
          (.op (.customCall (inner (Pipeline.entry p)) ()) k) Φ := by
  have hprog : (Prog.op (.customCall (inner (Pipeline.entry p)) ()) k
      : Prog (TpuEff nD τ sig Val (Sig (Pipeline.Sig Λ₀ P fun p => (pcs p).Adm) Q) .tc) α)
      = (liftProg (Q := Q) (Prog.op (.customCall (Pipeline.entry p) ()) fun _ => Prog.ret PUnit.unit)) >>= k := rfl
  rw [hprog, wp_bind]
  refine BI.Entails.trans ?_ (K.wp_liftProg (Pipeline.defs pcs defs₀) (Variants.lift 𝒱₀) (c.tc : Thread nD τ) Set.univ none _ _)
  refine BI.Entails.trans ?_ (Pipeline.RegionSeg.wp pcs a pdats ι phinj EP defs₀ 𝒱₀ L lv R c none (fun u hu => by cases hu)
    (fun _ => Prog.ret PUnit.unit) _)
  show (_ : sProp 𝕄) ⊢ (_ : sProp 𝕄)
  iintro ⟨Hk, Hrest⟩
  isplitl [Hk]
  · iintro Hb
    iapply le_wp_ret
    iapply Hk
    iexact Hb
  · iexact Hrest

variable (rdats : (p : P) → (c : Dev nD) → Pipeline.RDat τ Val (Cfg.HIx Q) Name U ℕ (Pipeline.pin pcs a p) c)

include phinj in
/-- **The same for a region over RELATIONAL proof data** (a window whose contents after a point are not a function of
    what the point found — a clipped block's filler reaching an output —, carried as a relation and forgotten at the
    exit): `Pipeline.RDat.RegionSeg.wp` at the trivial continuation, lifted and bound to `k` in the same way. -/
theorem Cfg.wp_regionCallR [∀ e, Nonempty (Val e)] [Infinite Name] [EP.LandsIn (upEmb : UEmb _ 𝕄)]
    {p : P} (R : Pipeline.RDat.RegionSeg pcs a rdats ι defs₀ 𝒱₀ L lv p) (c : Dev nD)
    {α : Type} (k : PUnit → Prog (TpuEff nD τ sig Val (Sig (Pipeline.Sig Λ₀ P fun p => (pcs p).Adm) Q) .tc) α) (Φ : α → sProp 𝕄) :
    iprop((iprop(boundary (c.tc : Thread nD τ) ∗ R.post c)
            -∗ wp frame (wpE (K.defs (Pipeline.defs pcs defs₀)) (Variants.lift 𝒱₀) (c.tc : Thread nD τ) none) Set.univ (k ⟨⟩) Φ)
        ∗ boundary (c.tc : Thread nD τ) ∗ R.pre c ∗ levAts L lv
        ∗ Pipeline.cellsGhost (Pipeline.pin pcs a) EP p c ∗ Pipeline.toksInit (Pipeline.pin pcs a) EP p c)
      ⊢ wp frame (wpE (K.defs (Pipeline.defs pcs defs₀)) (Variants.lift 𝒱₀) (c.tc : Thread nD τ) none) Set.univ
          (.op (.customCall (inner (Pipeline.entry p)) ()) k) Φ := by
  have hprog : (Prog.op (.customCall (inner (Pipeline.entry p)) ()) k
      : Prog (TpuEff nD τ sig Val (Sig (Pipeline.Sig Λ₀ P fun p => (pcs p).Adm) Q) .tc) α)
      = (liftProg (Q := Q) (Prog.op (.customCall (Pipeline.entry p) ()) fun _ => Prog.ret PUnit.unit)) >>= k := rfl
  rw [hprog, wp_bind]
  refine BI.Entails.trans ?_ (K.wp_liftProg (Pipeline.defs pcs defs₀) (Variants.lift 𝒱₀) (c.tc : Thread nD τ) Set.univ none _ _)
  refine BI.Entails.trans ?_ (Pipeline.RDat.RegionSeg.wp pcs a rdats ι phinj EP defs₀ 𝒱₀ L lv R c none (fun u hu => by cases hu)
    (fun _ => Prog.ret PUnit.unit) _)
  show (_ : sProp 𝕄) ⊢ (_ : sProp 𝕄)
  iintro ⟨Hk, Hrest⟩
  isplitl [Hk]
  · iintro Hb
    iapply le_wp_ret
    iapply Hk
    iexact Hb
  · iexact Hrest

end Idealize.ShloMosaic.SparseCore

end
-- ==== Proof.MainPrep.lean ====
/-
  What the host program's proof is made of.

  From the launch the TensorCore holds its ten arrays whole, at the launch contents, and what it owes the launch: the
  start signal of the one SparseCore call. It runs, in order: the relabelling of the table; the kernel region, entered
  with the staging cells' ghost state it was dealt and left with the row sums written; the two flattenings; the call,
  which borrows the flat row sums, the flat tokens, the lengths and the partial sums and brings them back with the
  partial sums written; the zero constant and the final sum. Through every step the arrays are held as ONE family at
  the stage's contents (MainVals.lean). Here: the family at the launch, at the four arrays the call borrows and after
  the call; the TensorCore's recorded waits; the call's payloads for the one SparseCore; the region record's states.
-/
import proofs.«212176_g79912161509532_cont_sun_c4_840_27_alg».proof.Proof.Ghost
import proofs.«212176_g79912161509532_cont_sun_c4_840_27_alg».proof.Proof.MainVals
import proofs.«212176_g79912161509532_cont_sun_c4_840_27_alg».proof.Proof.Region
import proofs.«212176_g79912161509532_cont_sun_c4_840_27_alg».proof.Proof.LibRegionInSparseCore

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The call's payloads at the contents the host program hands the subcores. -/
abbrev PP : (K (F := F)).Pay (nD := nD) (Val := Elt F) (Name := ℕ) (U := UU) := P (RS m) (TK m) (SL m) (PS m)

/-! ## The arrays as one family -/

/-- The launch's unscoped arrays are the ten, held at the launch contents. -/
theorem unscoped_held (d : Dev nD) :
    (unscopedBufs d (fun b => m ((SparseCore.T d).loc b)) : sProp 𝕄) = held (T d) (Pipeline.ucRefs τ sig) (W0 m d) :=
  Pipeline.unscopedBufs_held d (W0 m d)

omit [FloatOps F] in
/-- The four arrays the call borrows, one by one. -/
theorem held_call (d : Dev nD) (W : Valuation τ sig (Elt F)) :
    (held (T d) callRefs W : sProp 𝕄)
      = iprop((rsLoc d ↦{fullShare} W v2') ∗ (tkLoc d ↦{fullShare} W v3') ∗ (slLoc d ↦{fullShare} W a1') ∗ psLoc d ↦{fullShare} W v4') := by
  unfold held callRefs
  rw [SparseCore.bigSep_insert' (by decide), SparseCore.bigSep_insert' (by decide), SparseCore.bigSep_insert' (by decide), bigSep_singleton]

/-- The other six are untouched by the call. -/
theorem held_rest_call (d : Dev nD) :
    (held (T d) (Pipeline.ucRefs τ sig \ callRefs) (W4 m d) : sProp 𝕄) = held (T d) (Pipeline.ucRefs τ sig \ callRefs) (W3 m d) := by
  unfold held
  refine bigSep_congr fun b hb => ?_
  have hne : b ≠ v4' := fun e => (Finset.mem_sdiff.mp hb).2 (e ▸ by decide)
  rw [W4, Function.update_of_ne hne]

theorem W4_v2 (d : Dev nD) : W4 m d v2' = RS m d := Function.update_of_ne (show v2' ≠ v4' by decide) _ _
theorem W4_v3 (d : Dev nD) : W4 m d v3' = TK m d := Function.update_of_ne (show v3' ≠ v4' by decide) _ _
theorem W4_a1 (d : Dev nD) : W4 m d a1' = SL m d := Function.update_of_ne (show a1' ≠ v4' by decide) _ _
theorem W4_v4 (d : Dev nD) : W4 m d v4' = PS m d := Function.update_self _ _ _

/-! ## The TensorCore's recorded waits -/

omit [FloatOps F] in
/-- Recorded waits at the lowest level are waits at the index of no call, -/
theorem none_of_below {Wt : Waits sig (HIx 1)} {d : Dev nD} (h : (K (F := F)).WBelow (T d) Wt 0) : ∀ p ∈ Wt, p.2 = (none : HIx 1) := by
  intro p hp
  have := h p hp
  cases hq : p.2 with
  | none => rfl
  | some q =>
    rw [hq] at this
    exact absurd this (Nat.not_le.mpr ((K (F := F)).lev_some_pos (T d, p.1) q))
omit [FloatOps F] in
/-- and conversely. -/
theorem below_of_none {Wt : Waits sig (HIx 1)} {d : Dev nD} (h : ∀ p ∈ Wt, p.2 = (none : HIx 1)) : (K (F := F)).WBelow (T d) Wt 0 := by
  intro p hp; rw [h p hp]; exact le_rfl

/-! ## The call's payloads, for the one SparseCore -/

theorem st0_eq (d : Dev nD) :
    (bigSep Finset.univ fun c : Fin ((K (F := F)).nCore 0) => (PP m).st 0 d c)
      = iprop(inPts (RS m) (TK m) (SL m) d ∗ ∃ f, psLoc d ↦{fullShare} f) :=
  bigSep_univ_of_subsingleton (0 : Fin 1)
theorem dn0_eq (d : Dev nD) :
    (bigSep Finset.univ fun c : Fin ((K (F := F)).nCore 0) => (PP m).dn 0 d c)
      = iprop(inPts (RS m) (TK m) (SL m) d ∗ psLoc d ↦{fullShare} PS m d) :=
  bigSep_univ_of_subsingleton (0 : Fin 1)

/-- The family after the call: the four borrowed arrays at what the call brought back, the six others as before. -/
theorem held_W4 (d : Dev nD) :
    (held (T d) (Pipeline.ucRefs τ sig) (W4 m d) : sProp 𝕄)
      = iprop(((rsLoc d ↦{fullShare} RS m d) ∗ (tkLoc d ↦{fullShare} TK m d) ∗ (slLoc d ↦{fullShare} SL m d) ∗ psLoc d ↦{fullShare} PS m d)
          ∗ held (T d) (Pipeline.ucRefs τ sig \ callRefs) (W3 m d)) := by
  rw [held_sub_split (T d) callRefs_sub, held_call, held_rest_call, W4_v2, W4_v3, W4_a1, W4_v4]

/-- The region record's thread states, spelt out. -/
theorem reg0_pre' (W : Dev nD → Valuation τ sig (Elt F)) (d : Dev nD) :
    (reg0 W).pre d = iprop(held (T d) (Pipeline.ucRefs τ sig) (W d) ∗ (∃ r, prngReg d r)
      ∗ ∃ Wt : Waits sig (HIx 1), ⌜∀ p ∈ Wt, p.2 = (none : HIx 1)⌝ ∗ owes (T d) ((K (F := F)).Otc d 0) Wt) := by
  rw [reg0_pre]; rfl
theorem reg0_post' (W : Dev nD → Valuation τ sig (Elt F)) (d : Dev nD) :
    (reg0 W).post d = iprop(held (T d) (Pipeline.ucRefs τ sig) (afterRegion W d) ∗ (∃ r, prngReg d r)
      ∗ ∃ Wt : Waits sig (HIx 1), ⌜∀ p ∈ Wt, p.2 = (none : HIx 1)⌝ ∗ owes (T d) ((K (F := F)).Otc d 0) Wt) := by
  rw [reg0_post]; rfl

/-! ## The TensorCore's handshake state before the call -/

/-- All of it but what the TensorCore owes: its place on its `done` cell, the rounds the sequencers' `start` cells have
    reached, the start duty's token and a unit of credit on `done`. The host program carries it untouched to the call. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom (Q := 1) 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] m ρ in
theorem tcSt0_eq (d : Dev nD) :
    (K (F := F)).tcSt EH d 0
      = iprop((∃ W, ⌜(K (F := F)).WBelow (T d) W (8 * 0)⌝ ∗ owes (T d) ((K (F := F)).Otc d 0) W) ∗ tcRest (F := F) d) := rfl

end Cert.KernelIdeal.Hand

end
-- ==== Proof.Main.lean ====
/-
  The host program on the TensorCore.

  From the launch the TensorCore holds its ten arrays whole, at the launch contents, and what it owes the launch: the
  start signal of the one SparseCore call. It runs, in order: the relabelling of the table; the kernel region, entered
  with the staging cells' ghost state it was dealt and left with the row sums written; the two flattenings; the call,
  which borrows the flat row sums, the flat tokens, the lengths and the partial sums and brings them back with the
  partial sums written; the zero constant and the final sum. Through every step the arrays are held as ONE family at
  the stage's contents (MainVals.lean), so that each step is the library's rule for it at that family.
-/
import proofs.«212176_g79912161509532_cont_sun_c4_840_27_alg».proof.Proof.MainPrep

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main -/

/-- What @main leaves the claim: the ten arrays at the last stage. -/
abbrev FIN (d : Dev nD) : sProp 𝕄 := held (T d) (Pipeline.ucRefs τ sig) (W5 m d)

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held, tcSt0_eq]
  simp only [main, wp_bind, wp_pure, Prog.lift]
  iintro ⟨#Hctx, ⟨⟨%Wt, %hWt, HO⟩, Hrest⟩, ⟨Hb, Hheld, -, Hprng⟩, ⟨Hcg, Hti⟩⟩
  ihave Hlev := ((K (F := F)).ctx_levAts (EH := EH) (P := PP m) κ) $$ Hctx
  -- the table relabelled
  iapply (wp_hlo_within 𝒱 (T d) none Set.univ (op := opBlocks) (S := Pipeline.ucRefs τ sig) opBlocks_sub (V := W0 m d)) $$ [Hb Hheld]
  · isplitl [Hb]; · iexact Hb
    iexact Hheld
  iintro ⟨Hb, Hheld⟩
  rw [wp_ret]; imodintro
  -- the kernel region
  iapply (SparseCore.Cfg.wp_regionCall (pcfgs (F := F)) adm (pdats (W1 m)) (none : HIx 1) cellInj EP (defs₀ (F := F)) 𝒱₀
      (K (F := F)).L (K (F := F)).lev (K (F := F)) (reg0 (W1 m)) d Prog.ret _) $$ [Hb Hheld Hprng HO Hcg Hti Hrest]
  isplitl [Hrest]
  swap
  · isplitl [Hb]; · iexact Hb
    isplitl [Hheld Hprng HO]
    · rw [reg0_pre']
      isplitl [Hheld]; · iexact Hheld
      isplitl [Hprng]; · iexists _; iexact Hprng
      iexists Wt; isplitr; · ipureintro; exact none_of_below hWt
      iexact HO
    isplitr; · iexact Hlev
    isplitl [Hcg]; · iexact Hcg
    iexact Hti
  iintro ⟨Hb, Hpost⟩
  ihave Hpost' := (Entails.of_eq (reg0_post' (W1 m) d)) $$ Hpost
  icases Hpost' with ⟨Hheld, ⟨%r, Hprng⟩, %Wt', %hWt', HO⟩
  rw [wp_ret]; imodintro
  -- the row sums and the tokens flattened
  iapply (wp_hlo_within 𝒱 (T d) none Set.univ (op := opFlatRows) (S := Pipeline.ucRefs τ sig) opFlatRows_sub (V := W2 m d)) $$ [Hb Hheld]
  · isplitl [Hb]; · iexact Hb
    iexact Hheld
  iintro ⟨Hb, Hheld⟩
  rw [wp_ret]; imodintro
  iapply (wp_hlo_within 𝒱 (T d) none Set.univ (op := opFlatToks) (S := Pipeline.ucRefs τ sig) opFlatToks_sub (V := (opFlatRows (F := F)).result (W2 m d))) $$ [Hb Hheld]
  · isplitl [Hb]; · iexact Hb
    iexact Hheld
  iintro ⟨Hb, Hheld⟩
  rw [wp_ret]; imodintro
  -- the call: the four arrays out of the family, and back
  ihave Hheld3 := (Entails.of_eq (congrArg (held (T d) (Pipeline.ucRefs τ sig)) (W3_eq m d))) $$ Hheld
  ihave Hh := (Entails.of_eq (held_sub_split (T d) callRefs_sub (W3 m d))) $$ Hheld3
  icases Hh with ⟨Hcall, Hsix⟩
  ihave Hc := (Entails.of_eq (held_call d (W3 m d))) $$ Hcall
  icases Hc with ⟨Hrs, Htk, Hsl, Hps⟩
  iapply ((K (F := F)).wp_run (D (F := F)) 𝒱 (EH := EH) (P := PP m) κ d 0) $$ [Hb Hprng HO Hrest Hrs Htk Hsl Hps Hsix]
  isplitr; · iexact Hctx
  isplitl [HO Hrest]
  · iapply (Entails.of_eq (tcSt0_eq (F := F) d).symm)
    isplitl [HO]
    · iexists Wt'; isplitr; · ipureintro; exact below_of_none hWt'
      iexact HO
    iexact Hrest
  isplitl [Hrs Htk Hsl Hps]
  · rw [st0_eq]
    isplitl [Hrs Htk Hsl]
    · isplitl [Hrs]; · iexact Hrs
      isplitl [Htk]; · iexact Htk
      iexact Hsl
    iexists _; iexact Hps
  iintro ⟨Hst, Hdn⟩
  ihave Hdn' := (Entails.of_eq (dn0_eq m d)) $$ Hdn
  icases Hdn' with ⟨⟨Hrs, Htk, Hsl⟩, Hps⟩
  ihave Hheld := (Entails.of_eq (held_W4 m d).symm) $$ [Hrs Htk Hsl Hps Hsix]
  · isplitl [Hrs Htk Hsl Hps]
    · isplitl [Hrs]; · iexact Hrs
      isplitl [Htk]; · iexact Htk
      isplitl [Hsl]; · iexact Hsl
      iexact Hps
    iexact Hsix
  -- the zero and the final sum
  iapply (wp_hlo_within 𝒱 (T d) none Set.univ (op := opZero) (S := Pipeline.ucRefs τ sig) opZero_sub (V := W4 m d)) $$ [Hb Hheld]
  · isplitl [Hb]; · iexact Hb
    iexact Hheld
  iintro ⟨Hb, Hheld⟩
  rw [wp_ret]; imodintro
  iapply (wp_hlo_within 𝒱 (T d) none Set.univ (op := opTotal) (S := Pipeline.ucRefs τ sig) opTotal_sub (V := (opZero (F := F)).result (W4 m d))) $$ [Hb Hheld]
  · isplitl [Hb]; · iexact Hb
    iexact Hheld
  iintro ⟨Hb, Hheld⟩
  rw [wp_ret]; imodintro; imodintro
  isplitl [Hst]; · iexact Hst
  iexact Hheld

end Cert.KernelIdeal.Hand

end
-- ==== Proof.TileReads.lean ====
/-
  One vector subcore's task, in pieces: its four transfer semaphores and four scratch arrays among what it owns; the
  arrays it is lent, in the spelling its own memrefs give them; what its three fetches land (the row sums whole, its own
  sequence's 4096 token words, the sixteen lengths); what one trip of its loop reads and yields (the trip's sixteen
  token words, the words it looks up — each naming a row because every token does —, the accumulators after the trip
  from those before it); and that after its final copy its row of the sixteen by sixteen array holds the partial sums.
-/
import proofs.«212176_g79912161509532_cont_sun_c4_840_27_alg».proof.Proof.Setup
import proofs.«212176_g79912161509532_cont_sun_c4_840_27_alg».proof.Proof.TileValue
import proofs.«212176_g79912161509532_cont_sun_c4_840_27_alg».proof.Proof.Gen.KernelIdeal.Skeleton
import Idealize.ShloMosaic.Lib.SparseCore.Launch
import Idealize.ShloMosaic.Lib.SparseCore.Ops
import Idealize.ShloMosaic.Lib.Pipeline.Kit
import Idealize.ShloMosaic.Lib.Tactic

noncomputable section

namespace Cert.KernelIdeal.Hand.Tile

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rsW" => (Memref.whole Cert.KernelIdeal.main_v2_scv : Memref Cert.KernelIdeal.sig Kind.scVector Space.hbm Cert.KernelIdeal.S32000 EltTy.f32)
local notation "tkW" => (Memref.whole Cert.KernelIdeal.main_v3_scv : Memref Cert.KernelIdeal.sig Kind.scVector Space.hbm Cert.KernelIdeal.S65536 EltTy.i32)
local notation "slW" => (Memref.whole Cert.KernelIdeal.main_arg1_scv : Memref Cert.KernelIdeal.sig Kind.scVector Space.hbm Cert.KernelIdeal.S16 EltTy.i32)
local notation "psW" => (Memref.whole Cert.KernelIdeal.main_v4_scv : Memref Cert.KernelIdeal.sig Kind.scVector Space.hbm Cert.KernelIdeal.S16x16 EltTy.f32)
local notation "s0W" => (Memref.whole Cert.KernelIdeal.cc1_scratch0 : Memref Cert.KernelIdeal.sig Kind.scVector Space.vmem Cert.KernelIdeal.S32000 EltTy.f32)
local notation "s1W" => (Memref.whole Cert.KernelIdeal.cc1_scratch1 : Memref Cert.KernelIdeal.sig Kind.scVector Space.vmem Cert.KernelIdeal.S4096 EltTy.i32)
local notation "s2W" => (Memref.whole Cert.KernelIdeal.cc1_scratch2 : Memref Cert.KernelIdeal.sig Kind.scVector Space.vmem Cert.KernelIdeal.S16 EltTy.i32)
local notation "s3W" => (Memref.whole Cert.KernelIdeal.cc1_scratch3 : Memref Cert.KernelIdeal.sig Kind.scVector Space.vmem Cert.KernelIdeal.S16 EltTy.f32)

section Place

variable (d : Dev nD) (L : grid1.Coords)

/-- The four transfer semaphores of the subcore. -/
abbrev cell0 : GSem nD τ sig := (V d (cV L) (jV L), .dma cc1_scoped0.sem)
abbrev cell1 : GSem nD τ sig := (V d (cV L) (jV L), .dma cc1_scoped1.sem)
abbrev cell2 : GSem nD τ sig := (V d (cV L) (jV L), .dma cc1_scoped2.sem)
abbrev cell3 : GSem nD τ sig := (V d (cV L) (jV L), .dma cc1_scoped3.sem)

theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc1_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc1_scoped3.sem : SemLoc sig).isScoped .scVector = true; decide⟩⟩⟩⟩)]

/-- The four scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

/-! ## The arrays in the spelling the subcore's memrefs give them -/

theorem cond1_one (L : grid1.Coords) : k1_cond1 L = 1#1 := by decide +revert

theorem pts_rs (q : PosShare TreeShare) (f : Buf (Elt F) (rsLoc d)) :
    ((rsW).view.loc (V d (cV L) (jV L)) ↦{q} f : sProp 𝕄) = rsLoc d ↦{q} f := rfl
theorem pts_tk (q : PosShare TreeShare) (f : Buf (Elt F) (tkLoc d)) :
    ((tkW).view.loc (V d (cV L) (jV L)) ↦{q} f : sProp 𝕄) = tkLoc d ↦{q} f := rfl
theorem pts_sl (q : PosShare TreeShare) (f : Buf (Elt F) (slLoc d)) :
    ((slW).view.loc (V d (cV L) (jV L)) ↦{q} f : sProp 𝕄) = slLoc d ↦{q} f := rfl
theorem pts_s0 (f : Buf (Elt F) ((V d (cV L) (jV L)).loc cc1_scratch0)) :
    ((s0W).view.loc (V d (cV L) (jV L)) ↦{fullShare} f : sProp 𝕄) = (V d (cV L) (jV L)).loc cc1_scratch0 ↦{fullShare} f := rfl
theorem pts_s1 (f : Buf (Elt F) ((V d (cV L) (jV L)).loc cc1_scratch1)) :
    ((s1W).view.loc (V d (cV L) (jV L)) ↦{fullShare} f : sProp 𝕄) = (V d (cV L) (jV L)).loc cc1_scratch1 ↦{fullShare} f := rfl
theorem pts_s2 (f : Buf (Elt F) ((V d (cV L) (jV L)).loc cc1_scratch2)) :
    ((s2W).view.loc (V d (cV L) (jV L)) ↦{fullShare} f : sProp 𝕄) = (V d (cV L) (jV L)).loc cc1_scratch2 ↦{fullShare} f := rfl
theorem pts_s3 (f : Buf (Elt F) ((V d (cV L) (jV L)).loc cc1_scratch3)) :
    ((s3W).view.loc (V d (cV L) (jV L)) ↦{fullShare} f : sProp 𝕄) = (V d (cV L) (jV L)).loc cc1_scratch3 ↦{fullShare} f := rfl

/-- The subcore's row of the partial sums, as the final copy addresses it. -/
abbrev rowK (L : grid1.Coords) : Rect S16x16 := Rect.unit (s := S16x16) (k1_off3 L) S1x16.size (k1_off3_inb L (cond1_one L))
abbrev psRowK (L : grid1.Coords) : Memref sig .scVector .hbm S16 .f32 := ((psW).slice (rowK L) (fun _ => rfl)).squeeze S16 squeezes_S1x16_S16

theorem rowK_eq : rowK L = row (jL L) := by
  unfold rowK row Rect.part Rect.block
  congr 1 <;> funext a
  · rw [k1_off3_eq]
    match a with
    | 0 => simp [Shape.partIx, Shape.partSize]
    | 1 => simp [Shape.partIx, Shape.partSize]
  · match a with
    | 0 => simp [Shape.partSize]
    | 1 => simp [Shape.partSize]

theorem set_psRowK : (psRowK L).view.set = rowSet (jL L) := by
  show (((psW).view.slice (rowK L)).reshape S16 squeezes_S1x16_S16.numel_eq).set = ((psW).view.slice (row (jL L))).set
  rw [View.set_reshape]
  exact rowK_eq L ▸ rfl

theorem pts_psRowK (f : Buf (Elt F) (psLoc d)) :
    ((psRowK L).view.loc (V d (cV L) (jV L)) ↦[(psRowK L).view.set]{fullShare} f : sProp 𝕄) = psLoc d ↦[rowSet (jL L)]{fullShare} f := by
  rw [set_psRowK]

/-- The subcore's own number, in every lane, names an entry of the sixteen lengths. -/
theorem chk1_holds : k1_chk1 L (broadcast S16 (BitVec.ofNat 32 (L 1).val)) := by
  intro _ a x
  obtain rfl : a = 0 := Subsingleton.elim _ _
  show (BitVec.ofNat 32 (L 1).val).toNat < 16
  have h : (L 1).val < 16 := (L 1).isLt
  rw [BitVec.toNat_ofNat]; omega

/-! ## What the three fetches land, and what a trip reads -/

/-- Sequence `b`'s 4096 token words: words `4096 b` onwards of the flat token list. -/
def seqToks (tk : IVec S65536 32) (b : Fin 16) : IVec S4096 32 :=
  fun x => tk (ix1 (⟨4096 * b.val + (x 0).val, by
    have hx : (x 0).val < 4096 := (x 0).isLt
    omega⟩ : Fin 65536))

/-- The subcore's slice of the flat token list, as its fetch addresses it. -/
abbrev tkRowK (L : grid1.Coords) : Memref sig .scVector .hbm S4096 .i32 :=
  (tkW).slice (Rect.unit (s := S65536) (k1_off1 L) S4096.size (k1_off1_inb L (cond1_one L))) (fun _ => rfl)

theorem landed0 (f0 : Buf (Elt F) ((V d (cV L) (jV L)).loc cc1_scratch0)) (rs : Buf (Elt F) (rsLoc d)) :
    (s0W).view.write (Elt F) f0 (ReadAs.same.apply ((rsW).view.read (Elt F) rs)) Finset.univ = (rs : FVec F S32000 .f32) :=
  View.write_whole_univ _ _ _

theorem landed2 (f2 : Buf (Elt F) ((V d (cV L) (jV L)).loc cc1_scratch2)) (sl : Buf (Elt F) (slLoc d)) :
    (s2W).view.write (Elt F) f2 (ReadAs.same.apply ((slW).view.read (Elt F) sl)) Finset.univ = (sl : IVec S16 32) :=
  View.write_whole_univ _ _ _

theorem landed1 (f1 : Buf (Elt F) ((V d (cV L) (jV L)).loc cc1_scratch1)) (tk : Buf (Elt F) (tkLoc d)) :
    (s1W).view.write (Elt F) f1 (ReadAs.same.apply ((tkRowK L).view.read (Elt F) tk)) Finset.univ = seqToks (tk : IVec S65536 32) (jL L) := by
  refine (View.write_whole_univ _ _ _).trans ?_
  funext x
  show (tk : IVec S65536 32) ((tkRowK L).view.emb x) = (tk : IVec S65536 32) _
  rw [eq_ix1 ((tkRowK L).view.emb x)]
  congr 2
  apply Fin.ext
  show (k1_off1 L) 0 + 1 * (x 0).val = 4096 * (L 1).val + (x 0).val
  rw [k1_off1_eq]; simp

theorem pts_landed0 (f0 : Buf (Elt F) ((V d (cV L) (jV L)).loc cc1_scratch0)) (rs : Buf (Elt F) (rsLoc d)) :
    ((s0W).view.loc (V d (cV L) (jV L)) ↦{fullShare} (s0W).view.write (Elt F) f0 (ReadAs.same.apply ((rsW).view.read (Elt F) rs)) Finset.univ : sProp 𝕄)
      = (((s0W).access (.whole S32000)).loc (V d (cV L) (jV L)) ↦{fullShare} (rs : FVec F S32000 .f32)) := by
  rw [landed0]
theorem pts_landed1 (f1 : Buf (Elt F) ((V d (cV L) (jV L)).loc cc1_scratch1)) (tk : Buf (Elt F) (tkLoc d)) :
    ((s1W).view.loc (V d (cV L) (jV L)) ↦{fullShare} (s1W).view.write (Elt F) f1 (ReadAs.same.apply ((tkRowK L).view.read (Elt F) tk)) Finset.univ : sProp 𝕄)
      = ((s1W).view.loc (V d (cV L) (jV L)) ↦{fullShare} seqToks (tk : IVec S65536 32) (jL L)) := by
  rw [landed1]
theorem pts_landed2 (f2 : Buf (Elt F) ((V d (cV L) (jV L)).loc cc1_scratch2)) (sl : Buf (Elt F) (slLoc d)) :
    ((s2W).view.loc (V d (cV L) (jV L)) ↦{fullShare} (s2W).view.write (Elt F) f2 (ReadAs.same.apply ((slW).view.read (Elt F) sl)) Finset.univ : sProp 𝕄)
      = (((s2W).access (.whole S16)).loc (V d (cV L) (jV L)) ↦{fullShare} (sl : IVec S16 32)) := by
  rw [landed2]

/-! ## One trip's value -/

section Value
variable [FloatOps F]

/-- The indexed load of the row sums at sixteen words that all name rows reads the rows they name. -/
theorem loadIdx_rows (rs : FVec F S32000 .f32) (w : IVec S16 32) (h : ∀ a x, ((![w] : Fin 1 → IVec S16 32) a x).toNat < S32000.size a) :
    loadIdx (F := F) (e := .f32) rs ![w] h = gatherRows rs w := by
  funext x
  have hx : (w x).toNat < 32000 := h 0 x
  unfold gatherRows loadIdx
  rw [dif_pos hx]
  congr 1
  funext a; match a with | ⟨0, _⟩ => rfl

/-- Whatever the lengths read, the words a trip looks up name rows when the trip's token words do. -/
theorem chk2_holds (v5 : Vec F S16 .i32) (k : Fin k1_t1_loop.trips) (v13 : Vec F S16 .i32) (h13 : ∀ x, ((v13 : IVec S16 32) x).toNat < 32000) :
    k1_chk2 L (k1_pay2 (F := F) v5 k v13) := by
  intro _ a x
  obtain rfl : a = 0 := Subsingleton.elim _ _
  show ((k1_pay2 (F := F) v5 k v13 : IVec S16 32) x).toNat < 32000
  unfold k1_pay2
  rw [select_apply]; unfold Scalar.select; split
  · exact h13 x
  · show (0#32).toNat < 32000; decide

/-- A trip's yield from the accumulators before it: the next accumulators. -/
theorem trip_yield (rs : FVec F S32000 .f32) (tk : IVec S65536 32) (sl : IVec S16 32) (b : Fin 16) (k : Fin k1_t1_loop.trips)
    (rs' : FVec F S32000 .f32) (hrs : rs' = rs)
    (v5 v13 : Vec F S16 .i32) (hv5 : v5 = broadcast S16 (sl (ix1 b))) (hv13 : v13 = tripToks tk b k.val)
    (h : ∀ a x, ((![k1_pay2 (F := F) v5 k v13] : Fin 1 → IVec S16 32) a x).toNat < S32000.size a)
    (acc : FVec F S16 .f32) (hacc : acc = laneAcc rs tk sl b k.val) :
    k1_pay3 acc (loadIdx (F := F) (e := .f32) rs' ![k1_pay2 (F := F) v5 k v13] h) = laneAcc rs tk sl b (k.val + 1) := by
  subst hrs hv5 hv13 hacc
  rw [loadIdx_rows]; rfl

end Value

/-- The lengths scratch read at the subcore's own number in every lane: the subcore's length in every lane. -/
theorem len_lanes (sl : IVec S16 32) (h : ∀ a x, ((![broadcast S16 (BitVec.ofNat 32 (L 1).val)] : Fin 1 → IVec S16 32) a x).toNat < S16.size a) :
    loadIdx (F := F) (e := .i32) (((s2W).access (Rect.whole S16)).read (Elt F) sl) ![broadcast S16 (BitVec.ofNat 32 (L 1).val)] h
      = broadcast S16 (sl (ix1 (jL L))) := by
  funext x
  show sl (((s2W).access (Rect.whole S16)).emb (idxAt ![broadcast S16 (BitVec.ofNat 32 (L 1).val)] h x)) = sl (ix1 (jL L))
  congr 1
  show (Rect.whole S16).emb (idxAt ![broadcast S16 (BitVec.ofNat 32 (L 1).val)] h x) = _
  rw [Rect.emb_whole_apply]
  funext a; match a with
  | ⟨0, _⟩ =>
    apply Fin.ext
    show (BitVec.ofNat 32 (L 1).val).toNat = (L 1).val
    have hL : (L 1).val < 16 := (L 1).isLt
    rw [BitVec.toNat_ofNat]; omega

/-- The sixteen words a trip loads from the token scratch are the trip's words of the sequence. -/
theorem trip_toks (tk : IVec S65536 32) (b : Fin 16) (k : Fin k1_t1_loop.trips) :
    (s1W).view.readAt (Elt F) (Rect.unit (s := S4096) (k1_off2 k) S16.size (k1_off2_inb L k (cond1_one L))).toLoadRect (seqToks tk b) = tripToks tk b k.val := by
  funext x
  show seqToks tk b ((Rect.unit (s := S4096) (k1_off2 k) S16.size (k1_off2_inb L k (cond1_one L))).emb x) = tripToks tk b k.val x
  unfold seqToks tripToks
  congr 2
  apply Fin.ext
  show 4096 * b.val + ((k1_off2 k) 0 + 1 * (x 0).val) = 4096 * b.val + 16 * (k.val % 256) + (x 0).val
  have hk : k.val < 256 := Nat.lt_of_lt_of_le k.isLt k1_t1_abs.2.1
  have e : k1_off2 k 0 = 16 * k.val := by rw [k1_off2_eq]; rfl
  rw [Nat.mod_eq_of_lt hk]; omega

/-- The words a trip looks up, from the token words it loaded, name rows. -/
theorem chk2_run [FloatOps F] (tk : IVec S65536 32) (hpre : ∀ j, (tk j).toNat < 32000) (b : Fin 16) (v5 : Vec F S16 .i32) (k : Fin k1_t1_loop.trips) :
    k1_chk2 L (k1_pay2 (F := F) v5 k ((s1W).view.readAt (Elt F)
      (Rect.unit (s := S4096) (k1_off2 k) S16.size (k1_off2_inb L k (cond1_one L))).toLoadRect (seqToks tk b))) :=
  chk2_holds L v5 k _ (fun _ => hpre _)

/-- The loop's invariant: the row sums and the sequence's tokens still in their scratch arrays, and the carried
    accumulators those of the trips done. -/
def tripInv [FloatOps F] (rs : FVec F S32000 .f32) (tk : IVec S65536 32) (sl : IVec S16 32) (k : Nat) (acc : FVec F S16 .f32) : sProp 𝕄 :=
  iprop((((s0W).access (Rect.whole S32000)).loc (V d (cV L) (jV L)) ↦{fullShare} rs)
    ∗ ((s1W).view.loc (V d (cV L) (jV L)) ↦{fullShare} seqToks tk (jL L))
    ∗ ⌜acc = laneAcc rs tk sl (jL L) k⌝)

/-! ## The row of partial sums the final copy writes -/

theorem trips_eq : k1_t1_loop.trips = 256 := by decide

/-- A lane index matched with the one-row shape is that lane in row 0. -/
theorem squeeze_idx (h : S16.numel = S1x16.numel) (x : Fin 16) : Shape.reshapeEquiv h (ix1 x) = ix2 (0 : Fin 1) x :=
  Shape.reshapeEquiv_eq_of_rowMajor h (by
    rw [Shape.rowMajor_val_two, Shape.rowMajor_val_one]
    show 0 * 16 + x.val = x.val
    rw [Nat.zero_mul, Nat.zero_add])

/-- Lane `x` of the subcore's row memref is entry `(b, x)` of the array, `b` the subcore's number. -/
theorem emb_psRowK (x : Fin 16) : (psRowK L).view.emb (ix1 x) = ix2 (jL L) x := by
  show (rowK L).emb (Shape.reshapeEquiv squeezes_S1x16_S16.numel_eq (ix1 x)) = ix2 (jL L) x
  rw [squeeze_idx]
  funext a; match a with
  | ⟨0, _⟩ =>
    apply Fin.ext
    show (k1_off3 L) 0 + 1 * 0 = (L 1).val
    have e : k1_off3 L 0 = (L 1).val := by rw [k1_off3_eq]; rfl
    omega
  | ⟨1, _⟩ =>
    apply Fin.ext
    show (k1_off3 L) 1 + 1 * x.val = x.val
    have e : k1_off3 L 1 = 0 := by rw [k1_off3_eq]; rfl
    omega

/-- After the final copy the subcore's row of the array holds the partial sums. -/
theorem row_holds [FloatOps F] (fp : Buf (Elt F) (psLoc d)) (f3 : Buf (Elt F) ((V d (cV L) (jV L)).loc cc1_scratch3)) (acc : FVec F S16 .f32)
    (rs : FVec F S32000 .f32) (tk : IVec S65536 32) (sl : IVec S16 32) (hacc : acc = laneAcc rs tk sl (jL L) 256) :
    ((psRowK L).view.loc (V d (cV L) (jV L)) ↦[(psRowK L).view.set]{fullShare}
        (psRowK L).view.writes (Elt F) fp [⟨Rect.whole S16, ReadAs.same.apply ((s3W).view.read (Elt F)
          ((s3W).view.writes (Elt F) f3 [⟨Rect.unit (s := S16) ![0] S16.size inb_S16_S16_0, acc⟩]))⟩] : sProp 𝕄)
      = psLoc d ↦[rowSet (jL L)]{fullShare} (partials rs tk sl : FVec F S16x16 .f32) := by
  have hw : (s3W).view.writes (Elt F) f3 [⟨Rect.unit (s := S16) ![0] S16.size inb_S16_S16_0, acc⟩] = acc :=
    Memref.write_access_unit_zero_univ (Elt F) cc1_scratch3 (off := ![0]) (funext fun a => by match a with | ⟨0, _⟩ => rfl) inb_S16_S16_0 f3 acc
  rw [hw, pts_psRowK]
  refine pointsTo_congr fun i hi => ?_
  rw [← set_psRowK] at hi
  obtain ⟨x, -, rfl⟩ := Finset.mem_map.mp hi
  obtain ⟨x0, rfl⟩ : ∃ x0 : Fin 16, x = ix1 x0 := ⟨x 0, eq_ix1 x⟩
  have h1 := View.read_writes_cons_emb (psRowK L).view fp (Rect.whole S16) (acc : S16.Idx → Elt F .f32) [] (ix1 x0)
  rw [Rect.emb_whole_apply] at h1
  refine Eq.trans (show _ = (psRowK L).view.read (Elt F) ((psRowK L).view.writes (Elt F) fp [⟨Rect.whole S16, (acc : S16.Idx → Elt F .f32)⟩]) (ix1 x0) from rfl) (h1.trans ?_)
  rw [emb_psRowK, hacc]
  rfl

end Place

end Cert.KernelIdeal.Hand.Tile

end
-- ==== Proof.TileBody.lean ====
/-
  One vector subcore's task, run once at a symbolic place.

  Holding a read token of the row sums, of the flat token list and of the lengths, its own row of the partial sums,
  its scratch arrays and its semaphores at zero, the subcore fetches the row sums, its sequence's tokens and the
  lengths (each copy waited for before the next), reads its own length into every lane, runs its 256 trips — the
  accumulators after `k` trips being `laneAcc … k`, with both scratch arrays unchanged —, stores the accumulators and
  copies them to its row of the partial sums, which then holds the one whole-array function `partials`.
-/
import proofs.«212176_g79912161509532_cont_sun_c4_840_27_alg».proof.Proof.Setup
import proofs.«212176_g79912161509532_cont_sun_c4_840_27_alg».proof.Proof.TileValue
import proofs.«212176_g79912161509532_cont_sun_c4_840_27_alg».proof.Proof.Gen.KernelIdeal.Skeleton
import proofs.«212176_g79912161509532_cont_sun_c4_840_27_alg».proof.Proof.TileReads
import Idealize.ShloMosaic.Lib.SparseCore.Launch
import Idealize.ShloMosaic.Lib.SparseCore.Ops
import Idealize.ShloMosaic.Lib.Pipeline.Kit
import Idealize.ShloMosaic.Lib.Tactic

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.KernelIdeal.Hand.Tile

variable {F : FTy → Type}

local notation "𝕄" => MT nD τ sig (HIx 1) (Elt F) ℕ UU ℕ

local notation "rsW" => (Memref.whole Cert.KernelIdeal.main_v2_scv : Memref Cert.KernelIdeal.sig Kind.scVector Space.hbm Cert.KernelIdeal.S32000 EltTy.f32)
local notation "tkW" => (Memref.whole Cert.KernelIdeal.main_v3_scv : Memref Cert.KernelIdeal.sig Kind.scVector Space.hbm Cert.KernelIdeal.S65536 EltTy.i32)
local notation "slW" => (Memref.whole Cert.KernelIdeal.main_arg1_scv : Memref Cert.KernelIdeal.sig Kind.scVector Space.hbm Cert.KernelIdeal.S16 EltTy.i32)
local notation "psW" => (Memref.whole Cert.KernelIdeal.main_v4_scv : Memref Cert.KernelIdeal.sig Kind.scVector Space.hbm Cert.KernelIdeal.S16x16 EltTy.f32)
local notation "s0W" => (Memref.whole Cert.KernelIdeal.cc1_scratch0 : Memref Cert.KernelIdeal.sig Kind.scVector Space.vmem Cert.KernelIdeal.S32000 EltTy.f32)
local notation "s1W" => (Memref.whole Cert.KernelIdeal.cc1_scratch1 : Memref Cert.KernelIdeal.sig Kind.scVector Space.vmem Cert.KernelIdeal.S4096 EltTy.i32)
local notation "s2W" => (Memref.whole Cert.KernelIdeal.cc1_scratch2 : Memref Cert.KernelIdeal.sig Kind.scVector Space.vmem Cert.KernelIdeal.S16 EltTy.i32)
local notation "s3W" => (Memref.whole Cert.KernelIdeal.cc1_scratch3 : Memref Cert.KernelIdeal.sig Kind.scVector Space.vmem Cert.KernelIdeal.S16 EltTy.f32)

section Tile

variable (d : Dev nD) (L : grid1.Coords) [FloatOps F]

/-- The task of vector subcore `(L 0, L 1)` of device `d`. -/
theorem tile_body (hF : (K (F := F)).Facts)
    (rs : Buf (Elt F) (rsLoc d)) (tk : Buf (Elt F) (tkLoc d)) (sl : Buf (Elt F) (slLoc d)) (hpre : ∀ j, ((tk : IVec S65536 32) j).toNat < 32000)
    (O : CellTallies nD τ sig (HIx 1)) (W : Waits sig (HIx 1)) (hO : ∀ g, O g none = 0) :
    iprop(levAts (K (F := F)).L (K (F := F)).lev ∗ emp ∗ goRes d rs tk sl (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_sum L rsW (Memref.isWhole_whole _) tkW (Memref.isWhole_whole _) slW (Memref.isWhole_whole _) psW (Memref.isWhole_whole _)
            s0W (Memref.isWhole_whole _) s1W (Memref.isWhole_whole _) s2W (Memref.isWhole_whole _) s3W (Memref.isWhole_whole _)
            cc1_scoped0 cc1_scoped1 cc1_scoped2 cc1_scoped3)
          fun _ => iprop(tdRes d rs tk sl (partials (F := F) rs tk sl) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have k1_h1 : k1_cond1 L = 1#1 := cond1_one L
  have hchk1 : k1_chk1 L (broadcast S16 (BitVec.ofNat 32 (L 1).val)) := chk1_holds L
  simp only [cc1__sc_gather_sum_eq_skeleton]; unfold cc1__sc_gather_sum_skel
  rw [(K (F := F)).scopedBufs_V hF d (cV L) (jV L), SparseCore.Cfg.scopedSems0_V (Val := Elt F) d (cV L) (jV L), ownSems0_V, ownBufs_V]
  unfold goRes
  iintro ⟨#Hlv, -, ⟨Hrs, Htk, Hsl, %fp, Hps⟩, ⟨⟨%f0, Hs0⟩, ⟨%f1, Hs1⟩, ⟨%f2, Hs2⟩, ⟨%f3, Hs3⟩, Hbufs⟩, ⟨Hsem0, Hsem1, Hsem2, Hsem3, Hsems⟩, HO⟩
  ihave Hmw := ((K (F := F)).mayWaits_none (thr := V d (cV L) (jV L)) hO) $$ Hlv
  ihave Hrs' := (Entails.of_eq (pts_rs (F := F) d L _ _).symm) $$ Hrs
  ihave Htk' := (Entails.of_eq (pts_tk (F := F) d L _ _).symm) $$ Htk
  ihave Hsl' := (Entails.of_eq (pts_sl (F := F) d L _ _).symm) $$ Hsl
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hps' := (Entails.of_eq (pts_psRowK (F := F) d L _).symm) $$ Hps
  sl_exec
  sl_unfold_run_names
  ihave Hs0 := (Entails.of_eq (pts_landed0 (F := F) d L _ _)) $$ Hs0'
  ihave Hs1 := (Entails.of_eq (pts_landed1 (F := F) d L _ _)) $$ Hs1'
  ihave Hs2 := (Entails.of_eq (pts_landed2 (F := F) d L _ _)) $$ Hs2'
  iapply (SparseCore.wp_vectorLoadIdx 𝒱₀ (V d (cV L) (jV L)) none Set.univ (base := s2W) (S := Finset.univ) (q := fullShare) (Finset.subset_univ _)) $$ Hs2
  iintro Hs2
  sl_for (tripInv (F := F) d L rs tk sl) $$ [Hs0 Hs1]
  case region =>
    intro k acc
    unfold tripInv
    iintro ⟨Hs0, Hs1, %hacc⟩
    sl_exec
    sl_unfold_run_names
    rw [wp_assume_of _ _ _ _ (chk2_run (F := F) L tk hpre (jL L) _ k)]
    iapply (SparseCore.wp_vectorLoadIdx 𝒱₀ (V d (cV L) (jV L)) none Set.univ (base := s0W) (S := Finset.univ) (q := fullShare) (Finset.subset_univ _)) $$ Hs0
    iintro Hs0
    sl_step
    isplitl [Hs0]; · iexact Hs0
    isplitl [Hs1]; · iexact Hs1
    ipureintro
    exact trip_yield (F := F) rs tk sl (jL L) k _ (Memref.read_access_whole (Elt F) cc1_scratch0 rs) _ _ (len_lanes (F := F) L sl _) (trip_toks (F := F) L tk (jL L) k) _ acc hacc
  · unfold tripInv
    isplitl [Hs0]; · iexact Hs0
    isplitl [Hs1]; · iexact Hs1
    ipureintro; rfl
  iintro %acc HI
  unfold tripInv
  icases HI with ⟨Hs0, Hs1, %hacc⟩
  sl_exec
  sl_unfold_run_names
  sl_step
  unfold tdRes
  isplitl [Hrs' Htk' Hsl' Hps']
  · isplitl [Hrs']; · iexact Hrs'
    isplitl [Htk']; · iexact Htk'
    isplitl [Hsl']; · iexact Hsl'
    iapply (Entails.of_eq (row_holds (F := F) d L fp f3 acc rs tk sl (hacc.trans (congrArg _ trips_eq))))
    iexact Hps'
  isplitl [Hs0 Hs1 Hs2 Hs3' Hbufs]
  · isplitl [Hs0]; · iexists _; iexact Hs0
    isplitl [Hs1]; · iexists _; iexact Hs1
    isplitl [Hs2]; · iexists _; iexact Hs2
    isplitl [Hs3']; · iexists _; iexact Hs3'
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc1_scoped3.sem, (default : HIx 1)) (insert (SemLoc.dma cc1_scoped2.sem, (default : HIx 1))
    (insert (SemLoc.dma cc1_scoped1.sem, (default : HIx 1)) (insert (SemLoc.dma cc1_scoped0.sem, (default : HIx 1)) W)))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

end Cert.KernelIdeal.Hand

end
-- ==== Proof.TileObl.lean ====
/-
  The vector subcore's task as the launch theorem asks for it.

  The launch theorem states a subcore's obligation over the body table's row at the subcore and over the call's
  payloads; the body's own theorem is stated over the kernel function at the subcore's grid point and over the
  resources themselves. This module is the passage from the one to the other: the table's row is the kernel function
  at the point the subcore's numbers name, and the payloads are the resources by definition.
-/
import proofs.«212176_g79912161509532_cont_sun_c4_840_27_alg».proof.Proof.Launch
import proofs.«212176_g79912161509532_cont_sun_c4_840_27_alg».proof.Proof.TileBody

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (rs : (d : Dev nD) → Buf (Elt F) (rsLoc d)) (tk : (d : Dev nD) → Buf (Elt F) (tkLoc d))
  (sl : (d : Dev nD) → Buf (Elt F) (slLoc d))

/-- The partial sums the sixteen subcores leave, from the contents they are handed. -/
abbrev psOf (d : Dev nD) : Buf (Elt F) (psLoc d) := partials (rs d) (tk d) (sl d)

omit rs tk sl in
/-- The body table's row at a vector subcore is the kernel function at the grid point the subcore's numbers name. -/
theorem defs₀_vector (c : Fin τ.nSC) (s : Fin τ.nSub) :
    defs₀ (F := F) (.scVector c s) 1 ()
      = SparseCore.onTile Facts₀.hcore1 Facts₀.hsub1 (fun c s => cc1__sc_gather_sum (coordsV c s)
          (Memref.whole main_v2_scv) (Memref.isWhole_whole _) (Memref.whole main_v3_scv) (Memref.isWhole_whole _)
          (Memref.whole main_arg1_scv) (Memref.isWhole_whole _) (Memref.whole main_v4_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scoped0 cc1_scoped1 cc1_scoped2 cc1_scoped3) ⟨⟩ c s := rfl

omit [FloatOps F] rs tk sl in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task, from the tokens' range. -/
theorem tileObl (hF : (K (F := F)).Facts) (hpre : ∀ (d : Dev nD) j, (tk d j).toNat < 32000) :
    (K (F := F)).TileObl (D (F := F)) 𝒱 (P rs tk sl (psOf rs tk sl)) v₀ 0 := by
  intro d c i O W hO _ _
  simp only [show (P rs tk sl (psOf rs tk sl)).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) hF (rs d) (tk d) (sl d) (hpre d) O W hO).trans (wp_mono frame _ _ fun _ => obl_post)

end Cert.KernelIdeal.Hand

end
-- ==== Proof.Run.lean ====
/-
  The kernel program's run.

  Every weakly fair execution of the device's threads — the TensorCore's host program, the two sequencers, the
  thirty-two vector subcores — terminates without a fault, and in every final state the result holds the last
  stage's value of it and the three arguments hold what they held at the launch. It is the launch theorem at: the
  one call's payloads; the subcores' obligation from the body's theorem; the operands' split; the launch element;
  the host program's theorem; and the reading of the final state from the ten arrays at the last stage.
-/
import proofs.«212176_g79912161509532_cont_sun_c4_840_27_alg».proof.Proof.Main
import proofs.«212176_g79912161509532_cont_sun_c4_840_27_alg».proof.Proof.TileObl

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)

variable {F : FTy → Type} [FloatOps F]

local notation "𝕄" => MT nD τ sig (HIx 1) (Elt F) ℕ UU ℕ

variable (m : (ℓ : Loc nD τ sig) → Buf (Elt F) ℓ) (ρ : Dev nD → PrngReg)

/-! ## Reading the final state -/

/-- The four arrays the claim speaks of: the result and the three arguments. -/
abbrev claimRefs : Finset (DevRef τ sig) := {v5', a0', a1', a2'}
omit [FloatOps F] in
theorem claimRefs_sub : claimRefs ⊆ Pipeline.ucRefs τ sig := by decide

omit [FloatOps F] in
theorem held_claim (d : Dev nD) (W : Valuation τ sig (Elt F)) :
    (held (T d) claimRefs W : sProp 𝕄)
      = iprop((((d, v5') : Loc nD τ sig) ↦{fullShare} W v5') ∗ (((d, a0') : Loc nD τ sig) ↦{fullShare} W a0')
          ∗ (((d, a1') : Loc nD τ sig) ↦{fullShare} W a1') ∗ ((d, a2') : Loc nD τ sig) ↦{fullShare} W a2') := by
  unfold held claimRefs
  rw [SparseCore.bigSep_insert' (by decide), SparseCore.bigSep_insert' (by decide), SparseCore.bigSep_insert' (by decide), bigSep_singleton]

/-- What the claim reads of a final state: the four arrays at the last stage. -/
def fq (d : Dev nD) (s' : Phys nD τ sig (Elt F)) : Prop :=
  s'.mem.mem (d, v5') = W5 m d v5' ∧ s'.mem.mem (d, a0') = W5 m d a0' ∧ s'.mem.mem (d, a1') = W5 m d a1' ∧ s'.mem.mem (d, a2') = W5 m d a2'

theorem hfin (d : Dev nD) (s' : Phys nD τ sig (Elt F)) : iprop(FIN m d ∗ SI s') ⊢ (⌜fq m d s'⌝ : sProp 𝕄) := by
  iintro ⟨Hheld, HSI⟩
  ihave Hh := (Entails.of_eq (held_sub_split (T d) claimRefs_sub (W5 m d))) $$ Hheld
  icases Hh with ⟨Hc, -⟩
  ihave Hc' := (Entails.of_eq (held_claim d (W5 m d))) $$ Hc
  icases Hc' with ⟨H5, H0, H1, H2⟩
  ihave H := (persistent_entails_right (SI_pointsTo_agree (st := s') (ℓ := ((d, v5') : Loc nD τ sig)) (I := Finset.univ) (q := fullShare) (f := W5 m d v5'))) $$ [HSI H5]
  · isplitl [HSI] <;> iassumption
  icases H with ⟨%h5, HSI, -⟩
  ihave H := (persistent_entails_right (SI_pointsTo_agree (st := s') (ℓ := ((d, a0') : Loc nD τ sig)) (I := Finset.univ) (q := fullShare) (f := W5 m d a0'))) $$ [HSI H0]
  · isplitl [HSI] <;> iassumption
  icases H with ⟨%h0, HSI, -⟩
  ihave H := (persistent_entails_right (SI_pointsTo_agree (st := s') (ℓ := ((d, a1') : Loc nD τ sig)) (I := Finset.univ) (q := fullShare) (f := W5 m d a1'))) $$ [HSI H1]
  · isplitl [HSI] <;> iassumption
  icases H with ⟨%h1, HSI, -⟩
  ihave H := (SI_pointsTo_agree (st := s') (ℓ := ((d, a2') : Loc nD τ sig)) (I := Finset.univ) (q := fullShare) (f := W5 m d a2')) $$ [HSI H2]
  · isplitl [HSI] <;> iassumption
  icases H with %h2
  ipureintro
  exact ⟨funext fun i => h5 i (Finset.mem_univ i), funext fun i => h0 i (Finset.mem_univ i),
    funext fun i => h1 i (Finset.mem_univ i), funext fun i => h2 i (Finset.mem_univ i)⟩

/-! ## The run -/

/-- The post of the run: on every device the result at the last stage's value, the arguments at the last stage's. -/
def QC : PUnit × MemSt nD τ sig (Elt F) → Prop := fun r => ∀ c : Dev nD,
  r.2.mem (c, v5') = W5 m c v5' ∧ r.2.mem (c, a0') = W5 m c a0' ∧ r.2.mem (c, a1') = W5 m c a1' ∧ r.2.mem (c, a2') = W5 m c a2'

/-- Every word of the flat token list the subcores are handed names a row of the table. -/
def TokOK : Prop := ∀ (d : Dev nD) j, (TK m d j).toNat < 32000

theorem run_main [∀ e, Nonempty (Elt F e)] (hpre : TokOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (RS m) (TK m) (SL m) facts hpre)
    (fun q _ => match q with | 0 => SparseCore.Cfg.VecSplit.of_plain (vecSplit (RS m) (TK m) (SL m) (PS m)))
    m ρ main (G (F := F)) (FIN m) (u₀ (F := F)) (sep_elim_left.trans (hu₀ (RS m) (TK m) (SL m) (PS m))) (hmain m ρ) (fq m) (hfin m) (QC m) (fun _ h => h)

end Cert.KernelIdeal.Hand

end
-- ==== Proof.Word.Setup.lean ====
/-
  The program as the launch theorem sees it, and what its threads are handed.

  One device. Its TensorCore runs the host program: three relabelings of arrays, one kernel region that sums each of
  the table's 32000 rows, and one call that starts sixteen vector subcores of the first SparseCore, each summing the row
  sums its own token sequence looks up; then the host adds the sixteen by sixteen partial sums. This module fixes the
  names every other module of the proof speaks in: the configuration, the ghost state (the launch handshakes' rounds,
  the region's staging cells' rounds, the local transfers' counters), the arrays' locations, the sixteen rows of the
  partial sums' array, and the resources one vector subcore is handed (a read token of each of the three arrays it
  reads, and its own row of the partial sums) and hands back (the same, its row now holding its sums).
-/
import proofs.«212176_g79912161509532_cont_sun_c4_840_27_alg».proof.Kernel
import proofs.«212176_g79912161509532_cont_sun_c4_840_27_alg».proof.Proof.Gen.Kernel
import proofs.«212176_g79912161509532_cont_sun_c4_840_27_alg».proof.Proof.Gen.Kernel.Launch
import Idealize.ShloMosaic.Lib.SparseCore.Launch
import Idealize.ShloMosaic.Lib.Pipeline.Kit
import Idealize.ShloMosaic.Lib.Pipeline.Regions
import Idealize.ShloMosaic.Lib.Transfers
import Idealize.ShloMosaic.Lib.StableHlo.Run

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- No pipeline has a prefetched table. -/
abbrev adm : (p : Fin 1) → (pcfgs (F := F) p).Adm := fun p => (cfgs p).toPCfg_adm

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the region's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the middle factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-! ## The arrays -/

/-- The row sums (flat), the tokens (flat), the lengths and the partial sums, as locations of device `d`. -/
abbrev rsLoc (d : Dev nD) : Loc nD τ sig := (SparseCore.T d).loc main_v2
abbrev tkLoc (d : Dev nD) : Loc nD τ sig := (SparseCore.T d).loc main_v3
abbrev slLoc (d : Dev nD) : Loc nD τ sig := (SparseCore.T d).loc main_arg1
abbrev psLoc (d : Dev nD) : Loc nD τ sig := (SparseCore.T d).loc main_v4

theorem hdiv : 16 ∣ S16x16.size 0 := ⟨1, rfl⟩
/-- Row `i` of the partial sums. -/
abbrev row (i : Fin 16) : Rect S16x16 := Rect.part (s := S16x16) (a₀ := 0) hdiv i
abbrev rowSet (i : Fin 16) : Finset S16x16.Idx := ((Memref.whole main_v4_scv : Memref sig .scVector .hbm S16x16 .f32).view.slice (row i)).set

/-- The read token of vector subcore `i`: the sixteenth part of the full share it is lent. -/
abbrev tok (i : Fin 16) : PosShare TreeShare := Transfers.shareTok fullShare 16 i

/-! ## A vector subcore's place, from its grid coordinates -/

/-- The SparseCore and the vector subcore a grid point names, and the row of the partial sums that is the subcore's. -/
abbrev cV (L : grid1.Coords) : Fin τ.nSC := (L 0).castLE Facts₀.hcore1
abbrev jV (L : grid1.Coords) : Fin τ.nSub := (L 1).castLE Facts₀.hsub1
theorem bound_one : grid1.bound 1 = 16 := rfl
abbrev jL (L : grid1.Coords) : Fin 16 := Fin.cast bound_one (L 1)
/-- The grid point of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- What vector subcore `i` is handed: a read token of the row sums at `rs`, of the tokens at `tk` and of the lengths at
    `sl`, and row `i` of the partial sums at whatever it holds. -/
def goRes (d : Dev nD) (rs : Buf (Elt F) (rsLoc d)) (tk : Buf (Elt F) (tkLoc d)) (sl : Buf (Elt F) (slLoc d)) (i : Fin 16) : sProp 𝕄 :=
  iprop((rsLoc d ↦{tok i} rs) ∗ (tkLoc d ↦{tok i} tk) ∗ (slLoc d ↦{tok i} sl) ∗ ∃ f, psLoc d ↦[rowSet i]{fullShare} f)

/-- What it hands back: the three tokens, and its row of the partial sums at the array `ps`. -/
def tdRes (d : Dev nD) (rs : Buf (Elt F) (rsLoc d)) (tk : Buf (Elt F) (tkLoc d)) (sl : Buf (Elt F) (slLoc d)) (ps : Buf (Elt F) (psLoc d)) (i : Fin 16) : sProp 𝕄 :=
  iprop((rsLoc d ↦{tok i} rs) ∗ (tkLoc d ↦{tok i} tk) ∗ (slLoc d ↦{tok i} sl) ∗ psLoc d ↦[rowSet i]{fullShare} ps)

/-- What rides beside the TensorCore's arrays through the host program before the SparseCore call: the generator
    register at some state, and what the TensorCore owes the launch (the start signals of the call to come), its recorded
    waits all at the index of no call (the lowest level). -/
def Rtc (d : Dev nD) : sProp 𝕄 :=
  iprop((∃ r, prngReg d r) ∗ ∃ Wt : Waits sig (HIx 1), ⌜∀ p ∈ Wt, p.2 = (none : HIx 1)⌝ ∗ owes (T d) ((K (F := F)).Otc d 0) Wt)

end Cert.Kernel.Hand

end
-- ==== Proof.Word.Launch.lean ====
/-
  What the one SparseCore call carries, and how its operands are dealt to the sixteen vector subcores.

  The call takes the three arrays the subcores read (the flat row sums, the flat tokens, the lengths), each whole at
  the contents the host program has given it, and the array of partial sums at whatever it holds; it brings the
  three back unchanged and the partial sums at the ONE array `ps` whose row `i` is what subcore `i` computed. Each
  array that every subcore reads is split into sixteen read tokens and a remainder that stays with the sequencer;
  the partial sums are split into their sixteen rows, and joined again from the rows once every row holds `ps`.
-/
import proofs.«212176_g79912161509532_cont_sun_c4_840_27_alg».proof.Proof.Word.Setup

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (rs : (d : Dev nD) → Buf (Elt F) (rsLoc d)) (tk : (d : Dev nD) → Buf (Elt F) (tkLoc d))
  (sl : (d : Dev nD) → Buf (Elt F) (slLoc d)) (ps : (d : Dev nD) → Buf (Elt F) (psLoc d))

/-- The three arrays the subcores read, whole, at their contents. -/
abbrev inPts (d : Dev nD) : sProp 𝕄 :=
  iprop((rsLoc d ↦{fullShare} rs d) ∗ (tkLoc d ↦{fullShare} tk d) ∗ (slLoc d ↦{fullShare} sl d))

/-- The call's payloads. -/
def P : (K (F := F)).Pay (nD := nD) (Val := Elt F) (Name := ℕ) (U := UU) where
  st := fun _ d _ => iprop(inPts rs tk sl d ∗ ∃ f, psLoc d ↦{fullShare} f)
  dn := fun _ d _ => iprop(inPts rs tk sl d ∗ psLoc d ↦{fullShare} ps d)
  go := fun q d _ i => match q with | 0 => goRes d (rs d) (tk d) (sl d) (Fin.cast nSub_zero i)
  td := fun q d _ i => match q with | 0 => tdRes d (rs d) (tk d) (sl d) (ps d) (Fin.cast nSub_zero i)
  x := fun _ _ => iprop(emp)

instance P_storable : (P (F := F) rs tk sl ps).IsStorable where
  st _ d _ := by unfold P; infer_instance
  dn _ d _ := by unfold P; infer_instance
  go q d _ i := match q with | 0 => by unfold P goRes; infer_instance
  td q d _ i := match q with | 0 => by unfold P tdRes; infer_instance

/-! ## The sixteen rows of the partial sums -/

omit rs tk sl ps in
theorem rowSet_eq (i : Fin 16) : rowSet i = (row i).set := by
  show ((View.whole (main_v4_scv : Ref sig .scVector)).slice (row i)).set = _
  rw [View.set_slice]; exact Finset.map_refl
omit rs tk sl ps in
theorem rows_disjoint : ∀ i ∈ (Finset.univ : Finset (Fin 16)), ∀ j ∈ (Finset.univ : Finset (Fin 16)), i ≠ j → Disjoint (rowSet i) (rowSet j) :=
  fun i _ j _ h => by rw [rowSet_eq, rowSet_eq]; exact Rect.part_disjoint hdiv h
omit rs tk sl ps in
theorem rows_cover : (Finset.univ : Finset (Fin 16)).biUnion rowSet = Finset.univ :=
  (Finset.biUnion_congr rfl fun i _ => rowSet_eq i).trans (Rect.biUnion_part hdiv)

omit rs tk sl ps in
/-- The partial sums whole are their sixteen rows. -/
theorem psPts_rows (d : Dev nD) (f : Buf (Elt F) (psLoc d)) :
    (psLoc d ↦{fullShare} f : sProp 𝕄) = bigSep Finset.univ fun i : Fin 16 => psLoc d ↦[rowSet i]{fullShare} f := by
  rw [← pointsTo_biUnion Finset.univ (ℓ := psLoc d) rowSet rows_disjoint, rows_cover]; try rfl

omit rs tk sl ps in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit rs tk sl ps in
/-- A row held at some contents. -/
theorem row_some (d : Dev nD) (f : Buf (Elt F) (psLoc d)) (i : Fin 16) :
    (psLoc d ↦[rowSet i]{fullShare} f : sProp 𝕄) ⊢ iprop(∃ f, psLoc d ↦[rowSet i]{fullShare} f) := by
  iintro H; iexists f; iexact H
omit rs tk sl ps in
theorem rows_some (d : Dev nD) (f : Buf (Elt F) (psLoc d)) :
    (bigSep Finset.univ fun i : Fin 16 => (psLoc d ↦[rowSet i]{fullShare} f : sProp 𝕄))
      ⊢ bigSep Finset.univ fun i : Fin 16 => iprop(∃ f, psLoc d ↦[rowSet i]{fullShare} f) :=
  bigSep_mono fun i _ => row_some d f i

/-! ## The operands dealt to the subcores, the results gathered from them -/

theorem vecSplit : (K (F := F)).VecSplit' (P rs tk sl ps) 0 := by
  intro d c
  show iprop(inPts rs tk sl d ∗ ∃ f, psLoc d ↦{fullShare} f) ⊢ |={Set.univ}=> iprop(
      (bigSep Finset.univ fun i : Fin ((K (F := F)).nSub 0) => goRes d (rs d) (tk d) (sl d) (Fin.cast nSub_zero i))
      ∗ ((bigSep Finset.univ fun i : Fin ((K (F := F)).nSub 0) => tdRes d (rs d) (tk d) (sl d) (ps d) (Fin.cast nSub_zero i))
          -∗ iprop(inPts rs tk sl d ∗ psLoc d ↦{fullShare} ps d)))
  rw [bigSep_tasks (F := F) (fun i => goRes d (rs d) (tk d) (sl d) i),
    bigSep_tasks (F := F) (fun i => tdRes d (rs d) (tk d) (sl d) (ps d) i)]
  unfold goRes tdRes inPts
  rw [bigSep_sep', bigSep_sep', bigSep_sep', bigSep_sep', bigSep_sep', bigSep_sep', psPts_rows d (ps d)]
  iintro ⟨⟨Hrs, Htk, Hsl⟩, %f, Hps⟩
  ihave Hrs' := ((Transfers.pointsTo_toks (ℓ := rsLoc d) (S := Finset.univ) (f := rs d) fullShare 16).1) $$ Hrs
  icases Hrs' with ⟨Hrs0, Hrst⟩
  ihave Htk' := ((Transfers.pointsTo_toks (ℓ := tkLoc d) (S := Finset.univ) (f := tk d) fullShare 16).1) $$ Htk
  icases Htk' with ⟨Htk0, Htkt⟩
  ihave Hsl' := ((Transfers.pointsTo_toks (ℓ := slLoc d) (S := Finset.univ) (f := sl d) fullShare 16).1) $$ Hsl
  icases Hsl' with ⟨Hsl0, Hslt⟩
  ihave Hps' := (Entails.of_eq (psPts_rows (F := F) d f)) $$ Hps
  imodintro
  isplitl [Hrst Htkt Hslt Hps']
  · isplitl [Hrst]; · iexact Hrst
    isplitl [Htkt]; · iexact Htkt
    isplitl [Hslt]; · iexact Hslt
    iapply (rows_some (F := F) d f)
    iexact Hps'
  iintro ⟨Hrst, Htkt, Hslt, Hps⟩
  isplitr [Hps]
  · isplitl [Hrs0 Hrst]
    · iapply ((Transfers.pointsTo_toks (ℓ := rsLoc d) (S := Finset.univ) (f := rs d) fullShare 16).2)
      isplitl [Hrs0] <;> iassumption
    isplitl [Htk0 Htkt]
    · iapply ((Transfers.pointsTo_toks (ℓ := tkLoc d) (S := Finset.univ) (f := tk d) fullShare 16).2)
      isplitl [Htk0] <;> iassumption
    · iapply ((Transfers.pointsTo_toks (ℓ := slLoc d) (S := Finset.univ) (f := sl d) fullShare 16).2)
      isplitl [Hsl0] <;> iassumption
  · iexact Hps

end Cert.Kernel.Hand

end
-- ==== Proof.Word.Ghost.lean ====
/-
  The launch element of the ghost state, and what it deals.

  The element has three parts: the launch handshakes' rounds at their launch state, the region's staging cells' rounds
  at theirs, and the transfers' counters at their unit. The first goes to the launch theorem; the second funds, for
  the device's TensorCore, the ghost state and the duty tokens of the one kernel region's staging cells, which the
  TensorCore keeps until it enters the region; the counters serve the subcores' local copies and their waits. No thread
  is dealt anything for a protocol of the kernel's own: it has none.
-/
import proofs.«212176_g79912161509532_cont_sun_c4_840_27_alg».proof.Proof.Word.Launch
import Idealize.ShloMosaic.Lib.Pipeline.Sound

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The pipelines as the region rule sees them: no table, so each is its printed configuration. -/
abbrev cfgsP : Fin 1 → Pipeline.Cfg sig Λ₀ := Pipeline.pin (pcfgs (F := F)) adm

/-- The program's staging cells are pairwise distinct. -/
theorem cellInj : Function.Injective (Pipeline.cellOf (nD := nD) (τ := τ) (cfgsP (F := F))) := cellOf_inj

/-- The launch element. -/
def u₀ : UU :=
  (initOf (K (F := F)).hsCells (K (F := F)).hsToks,
    (initOf (Pipeline.cells (cfgsP (F := F)) cellInj) (Pipeline.launchToks (cfgsP (F := F)) cellInj), 1))

/-- What the TensorCore of `d` is dealt beside its handshake state: the region's staging cells' ghost state and the
    duty tokens of the transfers the region's loop issues. -/
def G (d : Dev nD) : sProp 𝕄 :=
  iprop(Pipeline.cellsGhost (cfgsP (F := F)) EP 0 d ∗ Pipeline.toksInit (cfgsP (F := F)) EP 0 d)

/-- The staging cells' factor of the algebra, reached through the right factor of the pair and then its left. -/
theorem own_EP (x : UP) :
    (BI.own (((Emb.inl : Emb UP (UP × Counters)).trans (embR : Emb (UP × Counters) 𝕄)) x) : sProp 𝕄) = BI.own ((EP (F := F)) x) := rfl

theorem bigSep_emp' {I : Type} (s : Finset I) : (bigSep s fun _ => iprop(emp)) = (iprop(emp) : sProp 𝕄) := bigSep_emp_const s

variable (rs : (d : Dev nD) → Buf (Elt F) (rsLoc d)) (tk : (d : Dev nD) → Buf (Elt F) (tkLoc d))
  (sl : (d : Dev nD) → Buf (Elt F) (slLoc d)) (ps : (d : Dev nD) → Buf (Elt F) (psLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P rs tk sl ps).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP0, -⟩
  ihave HP := (Entails.of_eq (own_EP (F := F) _)) $$ HP0
  imod (Pipeline.fund_ghost (cfgsP (F := F)) EP cellInj) $$ HP with ⟨Hg, Ht⟩
  imodintro
  isplitl [HH]; · iexact HH
  isplitl [Hg Ht]
  · unfold G
    rw [bigSep_sep']
    isplitl [Hg]
    · rw [bigSep_congr (fun (d : Dev nD) _ => bigSep_univ_of_subsingleton (Φ := fun p : Fin 1 => Pipeline.cellsGhost (cfgsP (F := F)) EP p d) (0 : Fin 1))]
      exact BI.Entails.refl _
    · rw [bigSep_congr (fun (d : Dev nD) _ => bigSep_univ_of_subsingleton (Φ := fun p : Fin 1 => Pipeline.toksInit (cfgsP (F := F)) EP p d) (0 : Fin 1))]
      exact BI.Entails.refl _
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Kernel.Hand

end
-- ==== Proof.Word.MainOps.lean ====
/-
  The host program's vocabulary: the TensorCore's ten arrays as the device's references, its five host operations,
  and the finite facts about them — which arrays are held between the operations (all ten: none is scoped), that each
  operation touches only those, and which four the SparseCore call borrows.
-/
import proofs.«212176_g79912161509532_cont_sun_c4_840_27_alg».proof.Proof.Word.Setup
import Idealize.ShloMosaic.Lib.Pipeline.Frame

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.Sem

variable {F : FTy → Type} [FloatOps F]

/-! ## The arrays, as the device's references -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev cst' : DevRef τ sig := Proc.devRef .tc (main_cst : Ref sig .tc)
abbrev v5' : DevRef τ sig := Proc.devRef .tc (main_v5 : Ref sig .tc)

/-! ## The host operations, in order -/

/-- The table as 250 blocks of 128 rows. -/
abbrev opBlocks : HloOp τ sig (Elt F) := StableHlo.reshape main_arg2 main_v0 rfl Facts₀.shapeCasts_S32000x1024_S250x128x1024
/-- The row sums, flat. -/
abbrev opFlatRows : HloOp τ sig (Elt F) := StableHlo.reshape main_v1 main_v2 rfl Facts₀.shapeCasts_S5x50x128_S32000
/-- The tokens, flat. -/
abbrev opFlatToks : HloOp τ sig (Elt F) := StableHlo.reshape main_arg0 main_v3 rfl Facts₀.shapeCasts_S16x4096_S65536
/-- The zero the final sum starts from. -/
abbrev opZero : HloOp τ sig (Elt F) := StableHlo.nullary main_cst (constant S_ .f32 0x00000000#32)
/-- The final sum of the partial sums. -/
abbrev opTotal : HloOp τ sig (Elt F) :=
  StableHlo.binary main_v4 main_cst main_v5 ((fun x v => Host.reduceAdd x v Facts₀.reducesTo_S16x16_S_d0_1 Facts₀.h_S_) :
    (⟨S16x16, .f32⟩ : BufTy).Contents (Elt F) → (⟨S_, .f32⟩ : BufTy).Contents (Elt F) → (⟨S_, .f32⟩ : BufTy).Contents (Elt F))

/-! ## The finite facts -/

omit [FloatOps F] in
/-- The arrays held between the host operations: the ten, none scoped. -/
theorem ucRefs_eq : Pipeline.ucRefs τ sig = {a0', a1', a2', v0', v1', v2', v3', v4', cst', v5'} := by decide

/-- The four the SparseCore call borrows: the flat row sums, the flat tokens, the lengths, the partial sums. -/
abbrev callRefs : Finset (DevRef τ sig) := {v2', v3', a1', v4'}
omit [FloatOps F] in
theorem callRefs_sub : callRefs ⊆ Pipeline.ucRefs τ sig := by decide

theorem opBlocks_sub : (opBlocks (F := F)).bufs ⊆ Pipeline.ucRefs τ sig :=
  show ({a2', v0'} : Finset (DevRef τ sig)) ⊆ Pipeline.ucRefs τ sig by decide
theorem opFlatRows_sub : (opFlatRows (F := F)).bufs ⊆ Pipeline.ucRefs τ sig :=
  show ({v1', v2'} : Finset (DevRef τ sig)) ⊆ Pipeline.ucRefs τ sig by decide
theorem opFlatToks_sub : (opFlatToks (F := F)).bufs ⊆ Pipeline.ucRefs τ sig :=
  show ({a0', v3'} : Finset (DevRef τ sig)) ⊆ Pipeline.ucRefs τ sig by decide
theorem opZero_sub : (opZero (F := F)).bufs ⊆ Pipeline.ucRefs τ sig :=
  show ({cst'} : Finset (DevRef τ sig)) ⊆ Pipeline.ucRefs τ sig by decide
theorem opTotal_sub : (opTotal (F := F)).bufs ⊆ Pipeline.ucRefs τ sig :=
  show ({v4', cst', v5'} : Finset (DevRef τ sig)) ⊆ Pipeline.ucRefs τ sig by decide

end Cert.Kernel.Hand

end
-- ==== Proof.Word.TileValue.lean ====
/-
  What one vector subcore computes, as a pure function of the three arrays it reads.

  Subcore `b` walks its own sequence of 4096 token words, sixteen at a time, in 256 trips. In trip `k` lane `x` looks at
  position `16 k + x`: when that position, as a signed 32-bit word, is below the sequence's length it takes the token
  word there (word `4096 b + 16 k + x` of the flat token list), otherwise the word 0; it reads the row sum that word
  names and adds it to its lane's accumulator, which starts at the zero word. After 256 trips the sixteen accumulators
  are row `b` of the sixteen by sixteen array of partial sums.
-/
import proofs.«212176_g79912161509532_cont_sun_c4_840_27_alg».proof.Proof.Gen.Kernel
import proofs.«212176_g79912161509532_cont_sun_c4_840_27_alg».proof.Proof.SpecFlat
import Idealize.ShloMosaic.Lib.ValueIdx

noncomputable section

open scoped BigOperators

namespace Cert.Kernel.Hand

open Cert.Kernel Cert.Kernel.Gen
open Idealize.ShloMosaic Idealize.ShloMosaic.ValueIdx

variable {F : FTy → Type} [FloatOps F]

/-- The sixteen positions trip `k` looks at, as 32-bit words: the trip's number times sixteen in every lane, plus the
    lane's own number. -/
def tripPos (k : Nat) : IVec S16 32 :=
  addi (broadcast S16 (Scalar.muli (Scf.iv 0#32 1#32 k) 16#32)) (iota .scVector S16 32 [0] iota_S16_d0_w32_scVector)

/-- The sixteen token words of sequence `b` at trip `k`: words `4096 b + 16 k` onwards of the flat token list. -/
def tripToks (tk : IVec S65536 32) (b : Fin 16) (k : Nat) : IVec S16 32 :=
  fun x => tk (ix1 (⟨4096 * b.val + 16 * (k % 256) + (x 0).val, by
    have hx : (x 0).val < 16 := (x 0).isLt
    omega⟩ : Fin 65536))

/-- The sixteen words trip `k` looks up: the token where the position is below the sequence's length (signed), else 0. -/
def tripSel (tk : IVec S65536 32) (sl : IVec S16 32) (b : Fin 16) (k : Nat) : IVec S16 32 :=
  select (cmpi .slt (tripPos k) (broadcast S16 (sl (ix1 b)))) (tripToks tk b k) (broadcast S16 0#32)

/-- The row sums sixteen words name (a word that names no row reads row 0; no such word arises from tokens in range). -/
def gatherRows (rs : FVec F S32000 .f32) (w : IVec S16 32) : FVec F S16 .f32 :=
  fun x => if h : (w x).toNat < 32000 then rs (ix1 (⟨(w x).toNat, h⟩ : Fin 32000)) else rs (ix1 (0 : Fin 32000))

/-- The sixteen lane accumulators of subcore `b` after `k` trips: the zero word in every lane, then per trip the
    looked-up row sums added lane by lane. -/
def laneAcc (rs : FVec F S32000 .f32) (tk : IVec S65536 32) (sl : IVec S16 32) (b : Fin 16) : Nat → FVec F S16 .f32
  | 0 => broadcast S16 (Scalar.ofBits .f32 0x00000000#32)
  | k + 1 => addf (laneAcc rs tk sl b k) (gatherRows rs (tripSel tk sl b k))

/-- The sixteen by sixteen array of partial sums: row `b` is subcore `b`'s accumulators after all 256 trips. -/
def partials (rs : FVec F S32000 .f32) (tk : IVec S65536 32) (sl : IVec S16 32) : FVec F S16x16 .f32 :=
  fun j => laneAcc rs tk sl (j 0 : Fin 16) 256 (ix1 (j 1 : Fin 16))

end Cert.Kernel.Hand

end
-- ==== Proof.Word.RegionBody.lean ====
/-
  The row-sum kernel's body, run on its two staging buffers.

  At each of its five grid points the body is handed a buffer holding one block of the table — 50 groups of 128 rows of
  1024 entries — and a buffer for that block's 50 × 128 row sums. It reads the whole block, sums each row along its
  1024 entries, and writes the 50 × 128 sums over the whole of the second buffer (which it also reads first, to no
  effect). So it leaves the first buffer as it was and the second holding the sums of the first one's rows, whatever
  the second held before.
-/
import proofs.«212176_g79912161509532_cont_sun_c4_840_27_alg».proof.Proof.Word.Setup
import proofs.«212176_g79912161509532_cont_sun_c4_840_27_alg».proof.Proof.Gen.Kernel.Launch
import proofs.«212176_g79912161509532_cont_sun_c4_840_27_alg».proof.Proof.Gen.Kernel.Skeleton
import proofs.«212176_g79912161509532_cont_sun_c4_840_27_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Both of the body's accesses start at the first element of their buffer. -/
theorem origin3 : (![0, 0, 0] : Fin 3 → Nat) = fun _ => 0 := funext fun a => by fin_cases a <;> rfl

/-- The whole of the first buffer, as the body's load names it, and the whole of the second, as its store does. -/
abbrev blockRect : Rect S50x128x1024 := Rect.unit (s := S50x128x1024) ![0, 0, 0] S50x128x1024.size Gen.inb_S50x128x1024_S50x128x1024_0_0_0
abbrev sumsRect : Rect S1x50x128 := Rect.unit (s := S1x50x128) ![0, 0, 0] S1x50x128.size Gen.inb_S1x50x128_S1x50x128_0_0_0

/-- The 50 × 128 row sums of one block of the table, as the body computes them: what it stores. -/
abbrev blockSums (x : Vec F S50x128x1024 .f32) : Vec F S1x50x128 .f32 := k0_pay1 x

set_option maxHeartbeats 1000000 in
/-- The body on two whole staging buffers, the first reading `x` and the second anything, runs to a state where the
    first still reads `x` and the second reads the row sums of `x`. -/
theorem rowsum_body_run (c : Dev nD) (E : Set ℕ) (i : grid0.Coords)
    (arg1 : Memref sig .tc .vmem S50x128x1024 .f32) (harg1 : arg1.IsWhole)
    (arg2 : Memref sig .tc .vmem S1x50x128 .f32) (harg2 : arg2.IsWhole)
    (x : Vec F S50x128x1024 .f32) (Q : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (blockSums x)) -∗ Q ⟨⟩))
      ⊢ wp frame (wpE (defs₀ (F := F)) Variants.none c none) E (cc0__rowsum_body i arg1 harg1 arg2 harg2) Q := by
  simp only [cc0__rowsum_body_eq_skeleton]; unfold cc0__rowsum_body_skel
  unfold owns
  iintro ⟨⟨%f1, %hf1, H1⟩, ⟨%d2, %f2, -, H2⟩, HQ⟩
  subst hf1
  sl_exec
  sl_step
  iapply HQ
  isplitl [H1]
  · iexists f1; isplitr; · ipureintro; rfl
    iexact H1
  iexists _; isplitr
  swap; · iexact H2
  ipureintro
  -- the one store covers the second buffer, so the buffer reads as what was stored; the load read all of the first
  have hcov : ∀ y : S1x50x128.Idx, ∃ p ∈ ([⟨sumsRect, blockSums (View.ld (arg1.view.read (Elt F) f1) blockRect)⟩] :
      List (View.Piece (Elt F) S1x50x128 .f32)), y ∈ p.1.set :=
    fun y => ⟨⟨sumsRect, _⟩, List.mem_singleton_self _, View.mem_set_unit_zero origin3 Gen.inb_S1x50x128_S1x50x128_0_0_0 y⟩
  exact (View.read_writes_eq_canon arg2.view f2 _ hcov).trans
    ((View.canon_unit_zero origin3 _ _).trans (congrArg k0_pay1 (View.ld_unit_zero origin3 _ _)))

end Cert.Kernel.Hand

end
-- ==== Proof.Word.RegionDat.lean ====
/-
  The row-sum region as a whole: what the pipeline is told about the body, and what the region leaves.

  The region walks five grid points. At point `t` it fetches block `t` of the table — groups `50 t … 50 t + 49` of the
  250 groups of 128 rows — into a staging buffer, runs the body, and writes the body's 50 × 128 sums back as slab `t` of
  the 5 × 50 × 128 output. The input block at a point is read off the table as the region finds it; the body leaves it
  in place and leaves the output's buffer at the block's row sums. The five slabs are disjoint and fill the output, so
  after the region the output array is one function of the table: entry `(t, r, c)` is the sum of row `c` of group
  `50 t + r`. Every other array is as the region found it. While the region runs, the TensorCore still owes the later
  call its start signals: that debt rides through every point unchanged, and all the waits recorded are at the index
  of no call.
-/
import proofs.«212176_g79912161509532_cont_sun_c4_840_27_alg».proof.Proof.Word.RegionBody
import Idealize.ShloMosaic.Lib.Pipeline.FrameSuffix
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The output array as one function of the table -/

/-- Block `t` of the table cut into 250 groups of 128 rows: its groups `50 t … 50 t + 49`. -/
def tableBlock (x : FVec F S250x128x1024 .f32) (t : Fin 5) : Vec F S50x128x1024 .f32 :=
  fun z => x (ix3 (⟨50 * t.val + (z 0).val, by have : (z 0).val < 50 := (z 0).isLt; omega⟩ : Fin 250)
    (⟨(z 1).val, (z 1).isLt⟩ : Fin 128) (⟨(z 2).val, (z 2).isLt⟩ : Fin 1024))

/-- The whole output of the region: slab `t` holds the row sums of block `t` of the table. -/
def rowsOut (x : FVec F S250x128x1024 .f32) : FVec F S5x50x128 .f32 :=
  fun j => blockSums (tableBlock x (⟨(j 0).val, (j 0).isLt⟩ : Fin 5))
    (ix3 (0 : Fin 1) (⟨(j 1).val, (j 1).isLt⟩ : Fin 50) (⟨(j 2).val, (j 2).isLt⟩ : Fin 128))

/-! ## The proof data -/

variable (W : Dev nD → Valuation τ sig (Elt F))

/-- The arrays as the region finds them, read at the TensorCore's references. -/
abbrev entryAt (c : Dev nD) (b : Ref sig .tc) : Buf (Elt F) ((c : Thread nD τ).loc b) := W c (Proc.devRef .tc b)

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt W c (Pipeline.arrRef spec0 w))

/-- What the body may use and need not describe: the scoped buffers that stage no window, and the generator register. -/
def regionInv (c : Dev nD) : sProp 𝕄 :=
  iprop(Pipeline.scopedRest (Ix := HIx 1) (Name := ℕ) (U := UU) (Lvl := ℕ) (Val := Elt F) spec0 c ∗ ∃ r, prngReg c r)

/-- The pipeline's proof data on core `c`: the arrays as found; after the body at point `t` the input's buffer at its
    block and the output's at the block's row sums; full shares; at every point the start signals of the later call
    still owed, and every recorded wait at the index of no call. -/
def dat0 (c : Dev nD) : Dat τ (Elt F) (HIx 1) ℕ UU ℕ cfg0 c where
  A w := entryAt W c (Pipeline.arrRef spec0 w)
  after w t := match w with
    | ⟨0, _⟩ => blockAt W c 0 t
    | ⟨1, _⟩ => blockSums (blockAt W c 0 t)
  Φ _ := regionInv c
  q _ := fullShare
  owed _ := (K (F := F)).Otc c 0
  recorded _ := {p | p.2 = none}

theorem dat0_A (c : Dev nD) (w : Fin cfg0.W) : (dat0 W c).A w = entryAt W c (Pipeline.arrRef spec0 w) := by
  dsimp only [dat0]
theorem dat0_after_in (c : Dev nD) (t : Fin cfg0.N) : (dat0 W c).after 0 t = blockAt W c 0 t := by dsimp only [dat0]
theorem dat0_after_out (c : Dev nD) (t : Fin cfg0.N) : (dat0 W c).after 1 t = blockSums (blockAt W c 0 t) := by
  dsimp only [dat0]

/-- The input is fetched at every point, so its buffer holds its block when the body runs. -/
theorem dat0_before_in (c : Dev nD) (t : Fin cfg0.N) (d) : (dat0 W c).before 0 t d = blockAt W c 0 t :=
  ((dat0 W c).before_fetched 0 t (fetch0_0 t) d).trans (by
    unfold Dat.fetched Dat.blockOf blockAt; rw [dat0_A]; try rfl)

/-! ## The body obligation -/

/-- The body at point `t`, on what the pipeline hands it there. -/
theorem rowsum_at_point (c : Dev nD) (t : Fin cfg0.N) :
    iprop((dat0 W c).Φ t.castSucc ∗ (dat0 W c).owesAt (none : HIx 1) t.castSucc
        ∗ (∃ d, owns (c : Thread nD τ) (st0_0 t) fullShare ((dat0 W c).before 0 t d))
        ∗ (∃ d, owns (c : Thread nD τ) (st0_1 t) fullShare ((dat0 W c).before 1 t d)))
      ⊢ wp frame (wpE (defs₀ (F := F)) Variants.none c none) Set.univ (bodyAt0 t) (fun _ =>
          iprop((dat0 W c).Φ t.succ ∗ (dat0 W c).owesAt (none : HIx 1) t.succ
            ∗ owns (c : Thread nD τ) (st0_0 t) fullShare ((dat0 W c).after 0 t)
            ∗ owns (c : Thread nD τ) (st0_1 t) fullShare ((dat0 W c).after 1 t))) := by
  unfold bodyAt0
  simp only [dat0_before_in]
  rw [show (dat0 W c).Φ t.succ = (dat0 W c).Φ t.castSucc from rfl,
    show (dat0 W c).owesAt (none : HIx 1) t.succ = (dat0 W c).owesAt (none : HIx 1) t.castSucc from rfl,
    dat0_after_in, dat0_after_out]
  iintro ⟨HΦ, Ho, ⟨%d0, H0⟩, ⟨%d1, H1⟩⟩
  iapply (rowsum_body_run c Set.univ _ _ _ _ _ (blockAt W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) :
    Pipeline.BodyObligation (dat0 (F := F) W c) (defs₀ (F := F)) Variants.none (none : HIx 1) Set.univ := fun t => by
  rw [bigSep_W0, bigSep_W0]
  exact rowsum_at_point W c t

/-! ## The arrays when the region is left -/

/-- Core `c`'s buffers when the region is left: the region's two arrays at what its write-backs leave, every other
    buffer as the region found it. -/
def afterRegion (c : Dev nD) : Valuation τ sig (Elt F) :=
  Pipeline.withArrays spec0 c (W c) fun w => (dat0 W c).arrAt w cfg0.N

theorem afterRegion_arr (c : Dev nD) (w : Fin cfg0.W) :
    afterRegion W c (Proc.devRef .tc (Pipeline.arrRef spec0 w)) = (dat0 W c).arrAt w cfg0.N := by
  unfold afterRegion; exact Pipeline.withArrays_arr spec0 launch0.win.arr_inj c _ _ w

theorem afterRegion_off (c : Dev nD) (b : Ref sig .tc) (hb : ∀ w, Pipeline.arrRef spec0 w ≠ b) :
    afterRegion W c (Proc.devRef .tc b) = W c (Proc.devRef .tc b) := by
  unfold afterRegion; exact Pipeline.withArrays_of_ne spec0 c _ _ b hb

end Cert.Kernel.Hand

end
-- ==== Proof.Word.MainVals.lean ====
/-
  The host program's arrays, stage by stage.

  Between the launch and the return the TensorCore's arrays pass through six stages: the launch contents; the table
  relabelled as 250 blocks of 128 rows; the kernel region's row sums written; the row sums and the tokens flattened;
  the partial sums written by the sixteen subcores; the zero constant and the final sum. Each stage is the one
  before it with one host operation's result, the region's output or the subcores' output put in place. What is read
  off the last stage: the three arguments are as launched, and the result is the host's sum of the partial sums that
  the subcores compute from the flattened row sums, the flattened tokens and the lengths.
-/
import proofs.«212176_g79912161509532_cont_sun_c4_840_27_alg».proof.Proof.Word.MainOps
import proofs.«212176_g79912161509532_cont_sun_c4_840_27_alg».proof.Proof.Word.TileValue
import proofs.«212176_g79912161509532_cont_sun_c4_840_27_alg».proof.Proof.Word.RegionDat

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.Sem

variable {F : FTy → Type} [FloatOps F]

/-! ## The stages -/

variable (m : (ℓ : Loc nD τ sig) → Buf (Elt F) ℓ)

/-- The launch contents. -/
def W0 (d : Dev nD) : Valuation τ sig (Elt F) := fun b => m (d, b)
/-- The table relabelled. -/
def W1 (d : Dev nD) : Valuation τ sig (Elt F) := (opBlocks (F := F)).result (W0 m d)
/-- The region's row sums written. -/
def W2 : Dev nD → Valuation τ sig (Elt F) := afterRegion (W1 m)
/-- The row sums and the tokens flattened. -/
def W3 (d : Dev nD) : Valuation τ sig (Elt F) := (opFlatToks (F := F)).result ((opFlatRows (F := F)).result (W2 m d))

/-- What the subcores are handed: the flat row sums, the flat tokens, the lengths. -/
abbrev RS (d : Dev nD) : Buf (Elt F) (rsLoc d) := W3 m d v2'
abbrev TK (d : Dev nD) : Buf (Elt F) (tkLoc d) := W3 m d v3'
abbrev SL (d : Dev nD) : Buf (Elt F) (slLoc d) := W3 m d a1'
/-- What they leave. -/
abbrev PS (d : Dev nD) : Buf (Elt F) (psLoc d) := partials (RS m d) (TK m d) (SL m d)

/-- The partial sums written. -/
def W4 (d : Dev nD) : Valuation τ sig (Elt F) := Function.update (W3 m d) v4' (PS m d)
/-- The zero and the final sum. -/
def W5 (d : Dev nD) : Valuation τ sig (Elt F) := (opTotal (F := F)).result ((opZero (F := F)).result (W4 m d))

/-! ## Each stage is the one before it with one step's result in place -/

theorem W1_eq (d : Dev nD) : (opBlocks (F := F)).result (W0 m d) = W1 m d := rfl
theorem W2_eq (d : Dev nD) : afterRegion (W1 m) d = W2 m d := rfl
theorem W3_eq (d : Dev nD) : (opFlatToks (F := F)).result ((opFlatRows (F := F)).result (W2 m d)) = W3 m d := rfl
theorem W5_eq (d : Dev nD) : (opTotal (F := F)).result ((opZero (F := F)).result (W4 m d)) = W5 m d := rfl

end Cert.Kernel.Hand

end
-- ==== Proof.Word.Region.lean ====
/-
  The row-sum region as a segment of the host program.

  Around the region the TensorCore holds every unscoped array at known contents, its generator register, and its debt
  to the later call (the call's start signals), all its recorded waits being at the index of no call. Entering the
  region, the two arrays the region works on — the table cut into groups, and the 5 × 50 × 128 output — are taken out of
  the unscoped arrays; the register goes into the region's invariant; the debt is handed to the pipeline as it is.
  The pipeline's own waits, on its staging buffers' semaphores, are at the index of no call too, which sits below every
  index the debt is at: a wait may go ahead while a debt is open only if the debt sits strictly above it, and here it
  does. Leaving the region, the two arrays go back among the unscoped ones at what the region left in them, the
  register comes back, and the debt is unchanged; the waits the pipeline added are again at the index of no call.
-/
import proofs.«212176_g79912161509532_cont_sun_c4_840_27_alg».proof.Proof.Word.RegionDat
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-- The TensorCore's debt to the later call is all at that call's index: at the index of no call it owes nothing. -/
theorem Otc_none (c : Dev nD) (g : GSem nD τ sig) : (K (F := F)).Otc c 0 g (none : HIx 1) = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun s _ => by rw [tallyAt_apply, if_neg (fun h => nomatch h.2)]
  · rfl

/-- A wait the pipeline records is on a staging buffer's semaphore, at the index it was told: here, of no call. -/
theorem waitPairs_none {p : SemLoc sig × HIx 1} (hp : p ∈ cfg0.waitPairs (none : HIx 1)) : p.2 = none := by
  obtain ⟨w, s, rfl⟩ := hp; rfl

variable (W : Dev nD → Valuation τ sig (Elt F))

/-- The one pipeline's proof data, at the contents the region is entered with. -/
def pdats : (p : Fin 1) → (c : Dev nD) → Dat τ (Elt F) (HIx 1) ℕ UU ℕ (Pipeline.pin (pcfgs (F := F)) adm p) c
  | ⟨0, _⟩ => fun c => dat0 W c

-- the library's entry and exit lemmas are stated over the pinned configuration; they unify with the printed one only
-- when plain definitions in a metavariable's type may be unfolded
set_option backward.isDefEq.respectTransparency.types false in
/-- The region over the TensorCore's thread state: entered holding every unscoped array at `W`, left holding them at
    `afterRegion W`; beside them, before and after, the generator register and the debt to the later call. -/
def reg0 : Pipeline.RegionSeg (pcfgs (F := F)) adm (pdats W) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 W c).loose
  hwaits c := Pipeline.cellsWaits_intro (Pipeline.pin (pcfgs (F := F)) adm) (pdats W) (none : HIx 1) 0 c
    fun w s t => (K (F := F)).mayWait_none _ (Otc_none c)
  pre c := iprop(StableHlo.held (c : Thread nD τ) (Pipeline.ucRefs τ sig) (W c) ∗ Rtc c)
  post c := iprop(StableHlo.held (c : Thread nD τ) (Pipeline.ucRefs τ sig) (afterRegion W c) ∗ Rtc c)
  X c := iprop(∃ r, prngReg c r)
  Y c := iprop(∃ r, prngReg c r)
  Z c := Pipeline.unscopedRest (Ix := HIx 1) (Name := ℕ) (U := UU) (Lvl := ℕ) spec0 c (entryAt W c)
  hentry c := by
    -- the two arrays out of the unscoped ones; the debt handed over with its recorded waits, all at the index of no call
    rw [Pipeline.ownSems0_none]
    have harrays := Pipeline.arrays_of_unscopedBufs (p := 0) (pcfgs (F := F)) adm (pdats W) launch0.win launch0.arr_whole c
      ((pdats W 0 c).share_full fun _ => rfl) (entryAt W c) fun _ => rfl
    rw [Pipeline.unscopedBufs_held] at harrays
    unfold Rtc
    iintro ⟨⟨Hbufs, Hreg, %Wt, %hWt, Howes⟩, -, -⟩
    ihave Hsplit := harrays $$ Hbufs
    icases Hsplit with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      iexists Wt; isplitr
      · ipureintro; exact fun p hp => Or.inl (hWt p (Finset.mem_coe.mp hp))
      iexact Howes
    isplitl [Hreg]; · iexact Hreg
    iexact Hrest
  hin c := by
    rw [show (pdats W 0 c).Φ 0 = regionInv c from rfl]; unfold regionInv
    iintro ⟨Hreg, -, Hsc⟩
    isplitl [Hsc]; · iexact Hsc
    iexact Hreg
  hout c := by
    rw [Pipeline.ownSems0_none, show (pdats W 0 c).Φ (Fin.last _) = regionInv c from rfl]; unfold regionInv
    iintro ⟨Hsc, Hreg⟩
    isplitl [Hreg]; · iexact Hreg
    isplitr; · iempintro
    iexact Hsc
  hexit c := by
    -- the two arrays back among the unscoped ones at what the region left; the waits added are the pipeline's own
    have hjoin := Pipeline.unscopedBufs_of_arrays (p := 0) (pcfgs (F := F)) adm (Ix := HIx 1) (Name := ℕ) (U := UU) (Lvl := ℕ)
      launch0.win launch0.arr_whole c (pdats W) ((pdats W 0 c).share_full fun _ => rfl)
      (entryAt W c) (entryAt (afterRegion W) c) ((pdats W 0 c).arrAt · cfg0.N)
      (fun w => (afterRegion_arr W c w).symm)
      (fun b hb => afterRegion_off W c b fun w e => hb (Finset.mem_image.mpr ⟨w, Finset.mem_univ _, e⟩))
    rw [Pipeline.unscopedBufs_held] at hjoin
    unfold Rtc
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%Wx, %hWx, Howes⟩
    iexists Wx; isplitr
    · ipureintro; exact fun p hp => (hWx (Finset.mem_coe.mpr hp)).elim id waitPairs_none
    iexact Howes

theorem reg0_pre (c : Dev nD) :
    (reg0 W).pre c = iprop(StableHlo.held (c : Thread nD τ) (Pipeline.ucRefs τ sig) (W c) ∗ Rtc c) := rfl

theorem reg0_post (c : Dev nD) :
    (reg0 W).post c = iprop(StableHlo.held (c : Thread nD τ) (Pipeline.ucRefs τ sig) (afterRegion W c) ∗ Rtc c) := rfl

end Cert.Kernel.Hand

end
-- ==== Proof.Word.MainPrep.lean ====
/-
  What the host program's proof is made of.

  From the launch the TensorCore holds its ten arrays whole, at the launch contents, and what it owes the launch: the
  start signal of the one SparseCore call. It runs, in order: the relabelling of the table; the kernel region, entered
  with the staging cells' ghost state it was dealt and left with the row sums written; the two flattenings; the call,
  which borrows the flat row sums, the flat tokens, the lengths and the partial sums and brings them back with the
  partial sums written; the zero constant and the final sum. Through every step the arrays are held as ONE family at
  the stage's contents (MainVals.lean). Here: the family at the launch, at the four arrays the call borrows and after
  the call; the TensorCore's recorded waits; the call's payloads for the one SparseCore; the region record's states.
-/
import proofs.«212176_g79912161509532_cont_sun_c4_840_27_alg».proof.Proof.Word.Ghost
import proofs.«212176_g79912161509532_cont_sun_c4_840_27_alg».proof.Proof.Word.MainVals
import proofs.«212176_g79912161509532_cont_sun_c4_840_27_alg».proof.Proof.Word.Region
import proofs.«212176_g79912161509532_cont_sun_c4_840_27_alg».proof.Proof.LibRegionInSparseCore

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The call's payloads at the contents the host program hands the subcores. -/
abbrev PP : (K (F := F)).Pay (nD := nD) (Val := Elt F) (Name := ℕ) (U := UU) := P (RS m) (TK m) (SL m) (PS m)

/-! ## The arrays as one family -/

/-- The launch's unscoped arrays are the ten, held at the launch contents. -/
theorem unscoped_held (d : Dev nD) :
    (unscopedBufs d (fun b => m ((SparseCore.T d).loc b)) : sProp 𝕄) = held (T d) (Pipeline.ucRefs τ sig) (W0 m d) :=
  Pipeline.unscopedBufs_held d (W0 m d)

omit [FloatOps F] in
/-- The four arrays the call borrows, one by one. -/
theorem held_call (d : Dev nD) (W : Valuation τ sig (Elt F)) :
    (held (T d) callRefs W : sProp 𝕄)
      = iprop((rsLoc d ↦{fullShare} W v2') ∗ (tkLoc d ↦{fullShare} W v3') ∗ (slLoc d ↦{fullShare} W a1') ∗ psLoc d ↦{fullShare} W v4') := by
  unfold held callRefs
  rw [SparseCore.bigSep_insert' (by decide), SparseCore.bigSep_insert' (by decide), SparseCore.bigSep_insert' (by decide), bigSep_singleton]

/-- The other six are untouched by the call. -/
theorem held_rest_call (d : Dev nD) :
    (held (T d) (Pipeline.ucRefs τ sig \ callRefs) (W4 m d) : sProp 𝕄) = held (T d) (Pipeline.ucRefs τ sig \ callRefs) (W3 m d) := by
  unfold held
  refine bigSep_congr fun b hb => ?_
  have hne : b ≠ v4' := fun e => (Finset.mem_sdiff.mp hb).2 (e ▸ by decide)
  rw [W4, Function.update_of_ne hne]

theorem W4_v2 (d : Dev nD) : W4 m d v2' = RS m d := Function.update_of_ne (show v2' ≠ v4' by decide) _ _
theorem W4_v3 (d : Dev nD) : W4 m d v3' = TK m d := Function.update_of_ne (show v3' ≠ v4' by decide) _ _
theorem W4_a1 (d : Dev nD) : W4 m d a1' = SL m d := Function.update_of_ne (show a1' ≠ v4' by decide) _ _
theorem W4_v4 (d : Dev nD) : W4 m d v4' = PS m d := Function.update_self _ _ _

/-! ## The TensorCore's recorded waits -/

omit [FloatOps F] in
/-- Recorded waits at the lowest level are waits at the index of no call, -/
theorem none_of_below {Wt : Waits sig (HIx 1)} {d : Dev nD} (h : (K (F := F)).WBelow (T d) Wt 0) : ∀ p ∈ Wt, p.2 = (none : HIx 1) := by
  intro p hp
  have := h p hp
  cases hq : p.2 with
  | none => rfl
  | some q =>
    rw [hq] at this
    exact absurd this (Nat.not_le.mpr ((K (F := F)).lev_some_pos (T d, p.1) q))
omit [FloatOps F] in
/-- and conversely. -/
theorem below_of_none {Wt : Waits sig (HIx 1)} {d : Dev nD} (h : ∀ p ∈ Wt, p.2 = (none : HIx 1)) : (K (F := F)).WBelow (T d) Wt 0 := by
  intro p hp; rw [h p hp]; exact le_rfl

/-! ## The call's payloads, for the one SparseCore -/

theorem st0_eq (d : Dev nD) :
    (bigSep Finset.univ fun c : Fin ((K (F := F)).nCore 0) => (PP m).st 0 d c)
      = iprop(inPts (RS m) (TK m) (SL m) d ∗ ∃ f, psLoc d ↦{fullShare} f) :=
  bigSep_univ_of_subsingleton (0 : Fin 1)
theorem dn0_eq (d : Dev nD) :
    (bigSep Finset.univ fun c : Fin ((K (F := F)).nCore 0) => (PP m).dn 0 d c)
      = iprop(inPts (RS m) (TK m) (SL m) d ∗ psLoc d ↦{fullShare} PS m d) :=
  bigSep_univ_of_subsingleton (0 : Fin 1)

/-- The family after the call: the four borrowed arrays at what the call brought back, the six others as before. -/
theorem held_W4 (d : Dev nD) :
    (held (T d) (Pipeline.ucRefs τ sig) (W4 m d) : sProp 𝕄)
      = iprop(((rsLoc d ↦{fullShare} RS m d) ∗ (tkLoc d ↦{fullShare} TK m d) ∗ (slLoc d ↦{fullShare} SL m d) ∗ psLoc d ↦{fullShare} PS m d)
          ∗ held (T d) (Pipeline.ucRefs τ sig \ callRefs) (W3 m d)) := by
  rw [held_sub_split (T d) callRefs_sub, held_call, held_rest_call, W4_v2, W4_v3, W4_a1, W4_v4]

/-- The region record's thread states, spelt out. -/
theorem reg0_pre' (W : Dev nD → Valuation τ sig (Elt F)) (d : Dev nD) :
    (reg0 W).pre d = iprop(held (T d) (Pipeline.ucRefs τ sig) (W d) ∗ (∃ r, prngReg d r)
      ∗ ∃ Wt : Waits sig (HIx 1), ⌜∀ p ∈ Wt, p.2 = (none : HIx 1)⌝ ∗ owes (T d) ((K (F := F)).Otc d 0) Wt) := by
  rw [reg0_pre]; rfl
theorem reg0_post' (W : Dev nD → Valuation τ sig (Elt F)) (d : Dev nD) :
    (reg0 W).post d = iprop(held (T d) (Pipeline.ucRefs τ sig) (afterRegion W d) ∗ (∃ r, prngReg d r)
      ∗ ∃ Wt : Waits sig (HIx 1), ⌜∀ p ∈ Wt, p.2 = (none : HIx 1)⌝ ∗ owes (T d) ((K (F := F)).Otc d 0) Wt) := by
  rw [reg0_post]; rfl

/-! ## The TensorCore's handshake state before the call -/

/-- All of it but what the TensorCore owes: its place on its `done` cell, the rounds the sequencers' `start` cells have
    reached, the start duty's token and a unit of credit on `done`. The host program carries it untouched to the call. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom (Q := 1) 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] m ρ in
theorem tcSt0_eq (d : Dev nD) :
    (K (F := F)).tcSt EH d 0
      = iprop((∃ W, ⌜(K (F := F)).WBelow (T d) W (8 * 0)⌝ ∗ owes (T d) ((K (F := F)).Otc d 0) W) ∗ tcRest (F := F) d) := rfl

end Cert.Kernel.Hand

end
-- ==== Proof.Word.Main.lean ====
/-
  The host program on the TensorCore.

  From the launch the TensorCore holds its ten arrays whole, at the launch contents, and what it owes the launch: the
  start signal of the one SparseCore call. It runs, in order: the relabelling of the table; the kernel region, entered
  with the staging cells' ghost state it was dealt and left with the row sums written; the two flattenings; the call,
  which borrows the flat row sums, the flat tokens, the lengths and the partial sums and brings them back with the
  partial sums written; the zero constant and the final sum. Through every step the arrays are held as ONE family at
  the stage's contents (MainVals.lean), so that each step is the library's rule for it at that family.
-/
import proofs.«212176_g79912161509532_cont_sun_c4_840_27_alg».proof.Proof.Word.MainPrep

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main -/

/-- What @main leaves the claim: the ten arrays at the last stage. -/
abbrev FIN (d : Dev nD) : sProp 𝕄 := held (T d) (Pipeline.ucRefs τ sig) (W5 m d)

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held, tcSt0_eq]
  simp only [main, wp_bind, wp_pure, Prog.lift]
  iintro ⟨#Hctx, ⟨⟨%Wt, %hWt, HO⟩, Hrest⟩, ⟨Hb, Hheld, -, Hprng⟩, ⟨Hcg, Hti⟩⟩
  ihave Hlev := ((K (F := F)).ctx_levAts (EH := EH) (P := PP m) κ) $$ Hctx
  -- the table relabelled
  iapply (wp_hlo_within 𝒱 (T d) none Set.univ (op := opBlocks) (S := Pipeline.ucRefs τ sig) opBlocks_sub (V := W0 m d)) $$ [Hb Hheld]
  · isplitl [Hb]; · iexact Hb
    iexact Hheld
  iintro ⟨Hb, Hheld⟩
  rw [wp_ret]; imodintro
  -- the kernel region
  iapply (SparseCore.Cfg.wp_regionCall (pcfgs (F := F)) adm (pdats (W1 m)) (none : HIx 1) cellInj EP (defs₀ (F := F)) 𝒱₀
      (K (F := F)).L (K (F := F)).lev (K (F := F)) (reg0 (W1 m)) d Prog.ret _) $$ [Hb Hheld Hprng HO Hcg Hti Hrest]
  isplitl [Hrest]
  swap
  · isplitl [Hb]; · iexact Hb
    isplitl [Hheld Hprng HO]
    · rw [reg0_pre']
      isplitl [Hheld]; · iexact Hheld
      isplitl [Hprng]; · iexists _; iexact Hprng
      iexists Wt; isplitr; · ipureintro; exact none_of_below hWt
      iexact HO
    isplitr; · iexact Hlev
    isplitl [Hcg]; · iexact Hcg
    iexact Hti
  iintro ⟨Hb, Hpost⟩
  ihave Hpost' := (Entails.of_eq (reg0_post' (W1 m) d)) $$ Hpost
  icases Hpost' with ⟨Hheld, ⟨%r, Hprng⟩, %Wt', %hWt', HO⟩
  rw [wp_ret]; imodintro
  -- the row sums and the tokens flattened
  iapply (wp_hlo_within 𝒱 (T d) none Set.univ (op := opFlatRows) (S := Pipeline.ucRefs τ sig) opFlatRows_sub (V := W2 m d)) $$ [Hb Hheld]
  · isplitl [Hb]; · iexact Hb
    iexact Hheld
  iintro ⟨Hb, Hheld⟩
  rw [wp_ret]; imodintro
  iapply (wp_hlo_within 𝒱 (T d) none Set.univ (op := opFlatToks) (S := Pipeline.ucRefs τ sig) opFlatToks_sub (V := (opFlatRows (F := F)).result (W2 m d))) $$ [Hb Hheld]
  · isplitl [Hb]; · iexact Hb
    iexact Hheld
  iintro ⟨Hb, Hheld⟩
  rw [wp_ret]; imodintro
  -- the call: the four arrays out of the family, and back
  ihave Hheld3 := (Entails.of_eq (congrArg (held (T d) (Pipeline.ucRefs τ sig)) (W3_eq m d))) $$ Hheld
  ihave Hh := (Entails.of_eq (held_sub_split (T d) callRefs_sub (W3 m d))) $$ Hheld3
  icases Hh with ⟨Hcall, Hsix⟩
  ihave Hc := (Entails.of_eq (held_call d (W3 m d))) $$ Hcall
  icases Hc with ⟨Hrs, Htk, Hsl, Hps⟩
  iapply ((K (F := F)).wp_run (D (F := F)) 𝒱 (EH := EH) (P := PP m) κ d 0) $$ [Hb Hprng HO Hrest Hrs Htk Hsl Hps Hsix]
  isplitr; · iexact Hctx
  isplitl [HO Hrest]
  · iapply (Entails.of_eq (tcSt0_eq (F := F) d).symm)
    isplitl [HO]
    · iexists Wt'; isplitr; · ipureintro; exact below_of_none hWt'
      iexact HO
    iexact Hrest
  isplitl [Hrs Htk Hsl Hps]
  · rw [st0_eq]
    isplitl [Hrs Htk Hsl]
    · isplitl [Hrs]; · iexact Hrs
      isplitl [Htk]; · iexact Htk
      iexact Hsl
    iexists _; iexact Hps
  iintro ⟨Hst, Hdn⟩
  ihave Hdn' := (Entails.of_eq (dn0_eq m d)) $$ Hdn
  icases Hdn' with ⟨⟨Hrs, Htk, Hsl⟩, Hps⟩
  ihave Hheld := (Entails.of_eq (held_W4 m d).symm) $$ [Hrs Htk Hsl Hps Hsix]
  · isplitl [Hrs Htk Hsl Hps]
    · isplitl [Hrs]; · iexact Hrs
      isplitl [Htk]; · iexact Htk
      isplitl [Hsl]; · iexact Hsl
      iexact Hps
    iexact Hsix
  -- the zero and the final sum
  iapply (wp_hlo_within 𝒱 (T d) none Set.univ (op := opZero) (S := Pipeline.ucRefs τ sig) opZero_sub (V := W4 m d)) $$ [Hb Hheld]
  · isplitl [Hb]; · iexact Hb
    iexact Hheld
  iintro ⟨Hb, Hheld⟩
  rw [wp_ret]; imodintro
  iapply (wp_hlo_within 𝒱 (T d) none Set.univ (op := opTotal) (S := Pipeline.ucRefs τ sig) opTotal_sub (V := (opZero (F := F)).result (W4 m d))) $$ [Hb Hheld]
  · isplitl [Hb]; · iexact Hb
    iexact Hheld
  iintro ⟨Hb, Hheld⟩
  rw [wp_ret]; imodintro; imodintro
  isplitl [Hst]; · iexact Hst
  iexact Hheld

end Cert.Kernel.Hand

end
-- ==== Proof.Word.TileReads.lean ====
/-
  One vector subcore's task, in pieces: its four transfer semaphores and four scratch arrays among what it owns; the
  arrays it is lent, in the spelling its own memrefs give them; what its three fetches land (the row sums whole, its own
  sequence's 4096 token words, the sixteen lengths); what one trip of its loop reads and yields (the trip's sixteen
  token words, the words it looks up — each naming a row because every token does —, the accumulators after the trip
  from those before it); and that after its final copy its row of the sixteen by sixteen array holds the partial sums.
-/
import proofs.«212176_g79912161509532_cont_sun_c4_840_27_alg».proof.Proof.Word.Setup
import proofs.«212176_g79912161509532_cont_sun_c4_840_27_alg».proof.Proof.Word.TileValue
import proofs.«212176_g79912161509532_cont_sun_c4_840_27_alg».proof.Proof.Gen.Kernel.Skeleton
import Idealize.ShloMosaic.Lib.SparseCore.Launch
import Idealize.ShloMosaic.Lib.SparseCore.Ops
import Idealize.ShloMosaic.Lib.Pipeline.Kit
import Idealize.ShloMosaic.Lib.Tactic

noncomputable section

namespace Cert.Kernel.Hand.Tile

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "rsW" => (Memref.whole Cert.Kernel.main_v2_scv : Memref Cert.Kernel.sig Kind.scVector Space.hbm Cert.Kernel.S32000 EltTy.f32)
local notation "tkW" => (Memref.whole Cert.Kernel.main_v3_scv : Memref Cert.Kernel.sig Kind.scVector Space.hbm Cert.Kernel.S65536 EltTy.i32)
local notation "slW" => (Memref.whole Cert.Kernel.main_arg1_scv : Memref Cert.Kernel.sig Kind.scVector Space.hbm Cert.Kernel.S16 EltTy.i32)
local notation "psW" => (Memref.whole Cert.Kernel.main_v4_scv : Memref Cert.Kernel.sig Kind.scVector Space.hbm Cert.Kernel.S16x16 EltTy.f32)
local notation "s0W" => (Memref.whole Cert.Kernel.cc1_scratch0 : Memref Cert.Kernel.sig Kind.scVector Space.vmem Cert.Kernel.S32000 EltTy.f32)
local notation "s1W" => (Memref.whole Cert.Kernel.cc1_scratch1 : Memref Cert.Kernel.sig Kind.scVector Space.vmem Cert.Kernel.S4096 EltTy.i32)
local notation "s2W" => (Memref.whole Cert.Kernel.cc1_scratch2 : Memref Cert.Kernel.sig Kind.scVector Space.vmem Cert.Kernel.S16 EltTy.i32)
local notation "s3W" => (Memref.whole Cert.Kernel.cc1_scratch3 : Memref Cert.Kernel.sig Kind.scVector Space.vmem Cert.Kernel.S16 EltTy.f32)

section Place

variable (d : Dev nD) (L : grid1.Coords)

/-- The four transfer semaphores of the subcore. -/
abbrev cell0 : GSem nD τ sig := (V d (cV L) (jV L), .dma cc1_scoped0.sem)
abbrev cell1 : GSem nD τ sig := (V d (cV L) (jV L), .dma cc1_scoped1.sem)
abbrev cell2 : GSem nD τ sig := (V d (cV L) (jV L), .dma cc1_scoped2.sem)
abbrev cell3 : GSem nD τ sig := (V d (cV L) (jV L), .dma cc1_scoped3.sem)

theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc1_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc1_scoped3.sem : SemLoc sig).isScoped .scVector = true; decide⟩⟩⟩⟩)]

/-- The four scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

/-! ## The arrays in the spelling the subcore's memrefs give them -/

theorem cond1_one (L : grid1.Coords) : k1_cond1 L = 1#1 := by decide +revert

theorem pts_rs (q : PosShare TreeShare) (f : Buf (Elt F) (rsLoc d)) :
    ((rsW).view.loc (V d (cV L) (jV L)) ↦{q} f : sProp 𝕄) = rsLoc d ↦{q} f := rfl
theorem pts_tk (q : PosShare TreeShare) (f : Buf (Elt F) (tkLoc d)) :
    ((tkW).view.loc (V d (cV L) (jV L)) ↦{q} f : sProp 𝕄) = tkLoc d ↦{q} f := rfl
theorem pts_sl (q : PosShare TreeShare) (f : Buf (Elt F) (slLoc d)) :
    ((slW).view.loc (V d (cV L) (jV L)) ↦{q} f : sProp 𝕄) = slLoc d ↦{q} f := rfl
theorem pts_s0 (f : Buf (Elt F) ((V d (cV L) (jV L)).loc cc1_scratch0)) :
    ((s0W).view.loc (V d (cV L) (jV L)) ↦{fullShare} f : sProp 𝕄) = (V d (cV L) (jV L)).loc cc1_scratch0 ↦{fullShare} f := rfl
theorem pts_s1 (f : Buf (Elt F) ((V d (cV L) (jV L)).loc cc1_scratch1)) :
    ((s1W).view.loc (V d (cV L) (jV L)) ↦{fullShare} f : sProp 𝕄) = (V d (cV L) (jV L)).loc cc1_scratch1 ↦{fullShare} f := rfl
theorem pts_s2 (f : Buf (Elt F) ((V d (cV L) (jV L)).loc cc1_scratch2)) :
    ((s2W).view.loc (V d (cV L) (jV L)) ↦{fullShare} f : sProp 𝕄) = (V d (cV L) (jV L)).loc cc1_scratch2 ↦{fullShare} f := rfl
theorem pts_s3 (f : Buf (Elt F) ((V d (cV L) (jV L)).loc cc1_scratch3)) :
    ((s3W).view.loc (V d (cV L) (jV L)) ↦{fullShare} f : sProp 𝕄) = (V d (cV L) (jV L)).loc cc1_scratch3 ↦{fullShare} f := rfl

/-- The subcore's row of the partial sums, as the final copy addresses it. -/
abbrev rowK (L : grid1.Coords) : Rect S16x16 := Rect.unit (s := S16x16) (k1_off3 L) S1x16.size (k1_off3_inb L (cond1_one L))
abbrev psRowK (L : grid1.Coords) : Memref sig .scVector .hbm S16 .f32 := ((psW).slice (rowK L) (fun _ => rfl)).squeeze S16 squeezes_S1x16_S16

theorem rowK_eq : rowK L = row (jL L) := by
  unfold rowK row Rect.part Rect.block
  congr 1 <;> funext a
  · rw [k1_off3_eq]
    match a with
    | 0 => simp [Shape.partIx, Shape.partSize]
    | 1 => simp [Shape.partIx, Shape.partSize]
  · match a with
    | 0 => simp [Shape.partSize]
    | 1 => simp [Shape.partSize]

theorem set_psRowK : (psRowK L).view.set = rowSet (jL L) := by
  show (((psW).view.slice (rowK L)).reshape S16 squeezes_S1x16_S16.numel_eq).set = ((psW).view.slice (row (jL L))).set
  rw [View.set_reshape]
  exact rowK_eq L ▸ rfl

theorem pts_psRowK (f : Buf (Elt F) (psLoc d)) :
    ((psRowK L).view.loc (V d (cV L) (jV L)) ↦[(psRowK L).view.set]{fullShare} f : sProp 𝕄) = psLoc d ↦[rowSet (jL L)]{fullShare} f := by
  rw [set_psRowK]

/-- The subcore's own number, in every lane, names an entry of the sixteen lengths. -/
theorem chk1_holds : k1_chk1 L (broadcast S16 (BitVec.ofNat 32 (L 1).val)) := by
  intro _ a x
  obtain rfl : a = 0 := Subsingleton.elim _ _
  show (BitVec.ofNat 32 (L 1).val).toNat < 16
  have h : (L 1).val < 16 := (L 1).isLt
  rw [BitVec.toNat_ofNat]; omega

/-! ## What the three fetches land, and what a trip reads -/

/-- Sequence `b`'s 4096 token words: words `4096 b` onwards of the flat token list. -/
def seqToks (tk : IVec S65536 32) (b : Fin 16) : IVec S4096 32 :=
  fun x => tk (ix1 (⟨4096 * b.val + (x 0).val, by
    have hx : (x 0).val < 4096 := (x 0).isLt
    omega⟩ : Fin 65536))

/-- The subcore's slice of the flat token list, as its fetch addresses it. -/
abbrev tkRowK (L : grid1.Coords) : Memref sig .scVector .hbm S4096 .i32 :=
  (tkW).slice (Rect.unit (s := S65536) (k1_off1 L) S4096.size (k1_off1_inb L (cond1_one L))) (fun _ => rfl)

theorem landed0 (f0 : Buf (Elt F) ((V d (cV L) (jV L)).loc cc1_scratch0)) (rs : Buf (Elt F) (rsLoc d)) :
    (s0W).view.write (Elt F) f0 (ReadAs.same.apply ((rsW).view.read (Elt F) rs)) Finset.univ = (rs : FVec F S32000 .f32) :=
  View.write_whole_univ _ _ _

theorem landed2 (f2 : Buf (Elt F) ((V d (cV L) (jV L)).loc cc1_scratch2)) (sl : Buf (Elt F) (slLoc d)) :
    (s2W).view.write (Elt F) f2 (ReadAs.same.apply ((slW).view.read (Elt F) sl)) Finset.univ = (sl : IVec S16 32) :=
  View.write_whole_univ _ _ _

theorem landed1 (f1 : Buf (Elt F) ((V d (cV L) (jV L)).loc cc1_scratch1)) (tk : Buf (Elt F) (tkLoc d)) :
    (s1W).view.write (Elt F) f1 (ReadAs.same.apply ((tkRowK L).view.read (Elt F) tk)) Finset.univ = seqToks (tk : IVec S65536 32) (jL L) := by
  refine (View.write_whole_univ _ _ _).trans ?_
  funext x
  show (tk : IVec S65536 32) ((tkRowK L).view.emb x) = (tk : IVec S65536 32) _
  rw [eq_ix1 ((tkRowK L).view.emb x)]
  congr 2
  apply Fin.ext
  show (k1_off1 L) 0 + 1 * (x 0).val = 4096 * (L 1).val + (x 0).val
  rw [k1_off1_eq]; simp

theorem pts_landed0 (f0 : Buf (Elt F) ((V d (cV L) (jV L)).loc cc1_scratch0)) (rs : Buf (Elt F) (rsLoc d)) :
    ((s0W).view.loc (V d (cV L) (jV L)) ↦{fullShare} (s0W).view.write (Elt F) f0 (ReadAs.same.apply ((rsW).view.read (Elt F) rs)) Finset.univ : sProp 𝕄)
      = (((s0W).access (.whole S32000)).loc (V d (cV L) (jV L)) ↦{fullShare} (rs : FVec F S32000 .f32)) := by
  rw [landed0]
theorem pts_landed1 (f1 : Buf (Elt F) ((V d (cV L) (jV L)).loc cc1_scratch1)) (tk : Buf (Elt F) (tkLoc d)) :
    ((s1W).view.loc (V d (cV L) (jV L)) ↦{fullShare} (s1W).view.write (Elt F) f1 (ReadAs.same.apply ((tkRowK L).view.read (Elt F) tk)) Finset.univ : sProp 𝕄)
      = ((s1W).view.loc (V d (cV L) (jV L)) ↦{fullShare} seqToks (tk : IVec S65536 32) (jL L)) := by
  rw [landed1]
theorem pts_landed2 (f2 : Buf (Elt F) ((V d (cV L) (jV L)).loc cc1_scratch2)) (sl : Buf (Elt F) (slLoc d)) :
    ((s2W).view.loc (V d (cV L) (jV L)) ↦{fullShare} (s2W).view.write (Elt F) f2 (ReadAs.same.apply ((slW).view.read (Elt F) sl)) Finset.univ : sProp 𝕄)
      = (((s2W).access (.whole S16)).loc (V d (cV L) (jV L)) ↦{fullShare} (sl : IVec S16 32)) := by
  rw [landed2]

/-! ## One trip's value -/

section Value
variable [FloatOps F]

/-- The indexed load of the row sums at sixteen words that all name rows reads the rows they name. -/
theorem loadIdx_rows (rs : FVec F S32000 .f32) (w : IVec S16 32) (h : ∀ a x, ((![w] : Fin 1 → IVec S16 32) a x).toNat < S32000.size a) :
    loadIdx (F := F) (e := .f32) rs ![w] h = gatherRows rs w := by
  funext x
  have hx : (w x).toNat < 32000 := h 0 x
  unfold gatherRows loadIdx
  rw [dif_pos hx]
  congr 1
  funext a; match a with | ⟨0, _⟩ => rfl

/-- Whatever the lengths read, the words a trip looks up name rows when the trip's token words do. -/
theorem chk2_holds (v5 : Vec F S16 .i32) (k : Fin k1_t1_loop.trips) (v13 : Vec F S16 .i32) (h13 : ∀ x, ((v13 : IVec S16 32) x).toNat < 32000) :
    k1_chk2 L (k1_pay2 (F := F) v5 k v13) := by
  intro _ a x
  obtain rfl : a = 0 := Subsingleton.elim _ _
  show ((k1_pay2 (F := F) v5 k v13 : IVec S16 32) x).toNat < 32000
  unfold k1_pay2
  rw [select_apply]; unfold Scalar.select; split
  · exact h13 x
  · show (0#32).toNat < 32000; decide

/-- A trip's yield from the accumulators before it: the next accumulators. -/
theorem trip_yield (rs : FVec F S32000 .f32) (tk : IVec S65536 32) (sl : IVec S16 32) (b : Fin 16) (k : Fin k1_t1_loop.trips)
    (rs' : FVec F S32000 .f32) (hrs : rs' = rs)
    (v5 v13 : Vec F S16 .i32) (hv5 : v5 = broadcast S16 (sl (ix1 b))) (hv13 : v13 = tripToks tk b k.val)
    (h : ∀ a x, ((![k1_pay2 (F := F) v5 k v13] : Fin 1 → IVec S16 32) a x).toNat < S32000.size a)
    (acc : FVec F S16 .f32) (hacc : acc = laneAcc rs tk sl b k.val) :
    k1_pay3 acc (loadIdx (F := F) (e := .f32) rs' ![k1_pay2 (F := F) v5 k v13] h) = laneAcc rs tk sl b (k.val + 1) := by
  subst hrs hv5 hv13 hacc
  rw [loadIdx_rows]; rfl

end Value

/-- The lengths scratch read at the subcore's own number in every lane: the subcore's length in every lane. -/
theorem len_lanes (sl : IVec S16 32) (h : ∀ a x, ((![broadcast S16 (BitVec.ofNat 32 (L 1).val)] : Fin 1 → IVec S16 32) a x).toNat < S16.size a) :
    loadIdx (F := F) (e := .i32) (((s2W).access (Rect.whole S16)).read (Elt F) sl) ![broadcast S16 (BitVec.ofNat 32 (L 1).val)] h
      = broadcast S16 (sl (ix1 (jL L))) := by
  funext x
  show sl (((s2W).access (Rect.whole S16)).emb (idxAt ![broadcast S16 (BitVec.ofNat 32 (L 1).val)] h x)) = sl (ix1 (jL L))
  congr 1
  show (Rect.whole S16).emb (idxAt ![broadcast S16 (BitVec.ofNat 32 (L 1).val)] h x) = _
  rw [Rect.emb_whole_apply]
  funext a; match a with
  | ⟨0, _⟩ =>
    apply Fin.ext
    show (BitVec.ofNat 32 (L 1).val).toNat = (L 1).val
    have hL : (L 1).val < 16 := (L 1).isLt
    rw [BitVec.toNat_ofNat]; omega

/-- The sixteen words a trip loads from the token scratch are the trip's words of the sequence. -/
theorem trip_toks (tk : IVec S65536 32) (b : Fin 16) (k : Fin k1_t1_loop.trips) :
    (s1W).view.readAt (Elt F) (Rect.unit (s := S4096) (k1_off2 k) S16.size (k1_off2_inb L k (cond1_one L))).toLoadRect (seqToks tk b) = tripToks tk b k.val := by
  funext x
  show seqToks tk b ((Rect.unit (s := S4096) (k1_off2 k) S16.size (k1_off2_inb L k (cond1_one L))).emb x) = tripToks tk b k.val x
  unfold seqToks tripToks
  congr 2
  apply Fin.ext
  show 4096 * b.val + ((k1_off2 k) 0 + 1 * (x 0).val) = 4096 * b.val + 16 * (k.val % 256) + (x 0).val
  have hk : k.val < 256 := Nat.lt_of_lt_of_le k.isLt k1_t1_abs.2.1
  have e : k1_off2 k 0 = 16 * k.val := by rw [k1_off2_eq]; rfl
  rw [Nat.mod_eq_of_lt hk]; omega

/-- The words a trip looks up, from the token words it loaded, name rows. -/
theorem chk2_run [FloatOps F] (tk : IVec S65536 32) (hpre : ∀ j, (tk j).toNat < 32000) (b : Fin 16) (v5 : Vec F S16 .i32) (k : Fin k1_t1_loop.trips) :
    k1_chk2 L (k1_pay2 (F := F) v5 k ((s1W).view.readAt (Elt F)
      (Rect.unit (s := S4096) (k1_off2 k) S16.size (k1_off2_inb L k (cond1_one L))).toLoadRect (seqToks tk b))) :=
  chk2_holds L v5 k _ (fun _ => hpre _)

/-- The loop's invariant: the row sums and the sequence's tokens still in their scratch arrays, and the carried
    accumulators those of the trips done. -/
def tripInv [FloatOps F] (rs : FVec F S32000 .f32) (tk : IVec S65536 32) (sl : IVec S16 32) (k : Nat) (acc : FVec F S16 .f32) : sProp 𝕄 :=
  iprop((((s0W).access (Rect.whole S32000)).loc (V d (cV L) (jV L)) ↦{fullShare} rs)
    ∗ ((s1W).view.loc (V d (cV L) (jV L)) ↦{fullShare} seqToks tk (jL L))
    ∗ ⌜acc = laneAcc rs tk sl (jL L) k⌝)

/-! ## The row of partial sums the final copy writes -/

theorem trips_eq : k1_t1_loop.trips = 256 := by decide

/-- A lane index matched with the one-row shape is that lane in row 0. -/
theorem squeeze_idx (h : S16.numel = S1x16.numel) (x : Fin 16) : Shape.reshapeEquiv h (ix1 x) = ix2 (0 : Fin 1) x :=
  Shape.reshapeEquiv_eq_of_rowMajor h (by
    rw [Shape.rowMajor_val_two, Shape.rowMajor_val_one]
    show 0 * 16 + x.val = x.val
    rw [Nat.zero_mul, Nat.zero_add])

/-- Lane `x` of the subcore's row memref is entry `(b, x)` of the array, `b` the subcore's number. -/
theorem emb_psRowK (x : Fin 16) : (psRowK L).view.emb (ix1 x) = ix2 (jL L) x := by
  show (rowK L).emb (Shape.reshapeEquiv squeezes_S1x16_S16.numel_eq (ix1 x)) = ix2 (jL L) x
  rw [squeeze_idx]
  funext a; match a with
  | ⟨0, _⟩ =>
    apply Fin.ext
    show (k1_off3 L) 0 + 1 * 0 = (L 1).val
    have e : k1_off3 L 0 = (L 1).val := by rw [k1_off3_eq]; rfl
    omega
  | ⟨1, _⟩ =>
    apply Fin.ext
    show (k1_off3 L) 1 + 1 * x.val = x.val
    have e : k1_off3 L 1 = 0 := by rw [k1_off3_eq]; rfl
    omega

/-- After the final copy the subcore's row of the array holds the partial sums. -/
theorem row_holds [FloatOps F] (fp : Buf (Elt F) (psLoc d)) (f3 : Buf (Elt F) ((V d (cV L) (jV L)).loc cc1_scratch3)) (acc : FVec F S16 .f32)
    (rs : FVec F S32000 .f32) (tk : IVec S65536 32) (sl : IVec S16 32) (hacc : acc = laneAcc rs tk sl (jL L) 256) :
    ((psRowK L).view.loc (V d (cV L) (jV L)) ↦[(psRowK L).view.set]{fullShare}
        (psRowK L).view.writes (Elt F) fp [⟨Rect.whole S16, ReadAs.same.apply ((s3W).view.read (Elt F)
          ((s3W).view.writes (Elt F) f3 [⟨Rect.unit (s := S16) ![0] S16.size inb_S16_S16_0, acc⟩]))⟩] : sProp 𝕄)
      = psLoc d ↦[rowSet (jL L)]{fullShare} (partials rs tk sl : FVec F S16x16 .f32) := by
  have hw : (s3W).view.writes (Elt F) f3 [⟨Rect.unit (s := S16) ![0] S16.size inb_S16_S16_0, acc⟩] = acc :=
    Memref.write_access_unit_zero_univ (Elt F) cc1_scratch3 (off := ![0]) (funext fun a => by match a with | ⟨0, _⟩ => rfl) inb_S16_S16_0 f3 acc
  rw [hw, pts_psRowK]
  refine pointsTo_congr fun i hi => ?_
  rw [← set_psRowK] at hi
  obtain ⟨x, -, rfl⟩ := Finset.mem_map.mp hi
  obtain ⟨x0, rfl⟩ : ∃ x0 : Fin 16, x = ix1 x0 := ⟨x 0, eq_ix1 x⟩
  have h1 := View.read_writes_cons_emb (psRowK L).view fp (Rect.whole S16) (acc : S16.Idx → Elt F .f32) [] (ix1 x0)
  rw [Rect.emb_whole_apply] at h1
  refine Eq.trans (show _ = (psRowK L).view.read (Elt F) ((psRowK L).view.writes (Elt F) fp [⟨Rect.whole S16, (acc : S16.Idx → Elt F .f32)⟩]) (ix1 x0) from rfl) (h1.trans ?_)
  rw [emb_psRowK, hacc]
  rfl

end Place

end Cert.Kernel.Hand.Tile

end
-- ==== Proof.Word.TileBody.lean ====
/-
  One vector subcore's task, run once at a symbolic place.

  Holding a read token of the row sums, of the flat token list and of the lengths, its own row of the partial sums,
  its scratch arrays and its semaphores at zero, the subcore fetches the row sums, its sequence's tokens and the
  lengths (each copy waited for before the next), reads its own length into every lane, runs its 256 trips — the
  accumulators after `k` trips being `laneAcc … k`, with both scratch arrays unchanged —, stores the accumulators and
  copies them to its row of the partial sums, which then holds the one whole-array function `partials`.
-/
import proofs.«212176_g79912161509532_cont_sun_c4_840_27_alg».proof.Proof.Word.Setup
import proofs.«212176_g79912161509532_cont_sun_c4_840_27_alg».proof.Proof.Word.TileValue
import proofs.«212176_g79912161509532_cont_sun_c4_840_27_alg».proof.Proof.Gen.Kernel.Skeleton
import proofs.«212176_g79912161509532_cont_sun_c4_840_27_alg».proof.Proof.Word.TileReads
import Idealize.ShloMosaic.Lib.SparseCore.Launch
import Idealize.ShloMosaic.Lib.SparseCore.Ops
import Idealize.ShloMosaic.Lib.Pipeline.Kit
import Idealize.ShloMosaic.Lib.Tactic

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Kernel.Hand.Tile

variable {F : FTy → Type}

local notation "𝕄" => MT nD τ sig (HIx 1) (Elt F) ℕ UU ℕ

local notation "rsW" => (Memref.whole Cert.Kernel.main_v2_scv : Memref Cert.Kernel.sig Kind.scVector Space.hbm Cert.Kernel.S32000 EltTy.f32)
local notation "tkW" => (Memref.whole Cert.Kernel.main_v3_scv : Memref Cert.Kernel.sig Kind.scVector Space.hbm Cert.Kernel.S65536 EltTy.i32)
local notation "slW" => (Memref.whole Cert.Kernel.main_arg1_scv : Memref Cert.Kernel.sig Kind.scVector Space.hbm Cert.Kernel.S16 EltTy.i32)
local notation "psW" => (Memref.whole Cert.Kernel.main_v4_scv : Memref Cert.Kernel.sig Kind.scVector Space.hbm Cert.Kernel.S16x16 EltTy.f32)
local notation "s0W" => (Memref.whole Cert.Kernel.cc1_scratch0 : Memref Cert.Kernel.sig Kind.scVector Space.vmem Cert.Kernel.S32000 EltTy.f32)
local notation "s1W" => (Memref.whole Cert.Kernel.cc1_scratch1 : Memref Cert.Kernel.sig Kind.scVector Space.vmem Cert.Kernel.S4096 EltTy.i32)
local notation "s2W" => (Memref.whole Cert.Kernel.cc1_scratch2 : Memref Cert.Kernel.sig Kind.scVector Space.vmem Cert.Kernel.S16 EltTy.i32)
local notation "s3W" => (Memref.whole Cert.Kernel.cc1_scratch3 : Memref Cert.Kernel.sig Kind.scVector Space.vmem Cert.Kernel.S16 EltTy.f32)

section Tile

variable (d : Dev nD) (L : grid1.Coords) [FloatOps F]

/-- The task of vector subcore `(L 0, L 1)` of device `d`. -/
theorem tile_body (hF : (K (F := F)).Facts)
    (rs : Buf (Elt F) (rsLoc d)) (tk : Buf (Elt F) (tkLoc d)) (sl : Buf (Elt F) (slLoc d)) (hpre : ∀ j, ((tk : IVec S65536 32) j).toNat < 32000)
    (O : CellTallies nD τ sig (HIx 1)) (W : Waits sig (HIx 1)) (hO : ∀ g, O g none = 0) :
    iprop(levAts (K (F := F)).L (K (F := F)).lev ∗ emp ∗ goRes d rs tk sl (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_sum L rsW (Memref.isWhole_whole _) tkW (Memref.isWhole_whole _) slW (Memref.isWhole_whole _) psW (Memref.isWhole_whole _)
            s0W (Memref.isWhole_whole _) s1W (Memref.isWhole_whole _) s2W (Memref.isWhole_whole _) s3W (Memref.isWhole_whole _)
            cc1_scoped0 cc1_scoped1 cc1_scoped2 cc1_scoped3)
          fun _ => iprop(tdRes d rs tk sl (partials (F := F) rs tk sl) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have k1_h1 : k1_cond1 L = 1#1 := cond1_one L
  have hchk1 : k1_chk1 L (broadcast S16 (BitVec.ofNat 32 (L 1).val)) := chk1_holds L
  simp only [cc1__sc_gather_sum_eq_skeleton]; unfold cc1__sc_gather_sum_skel
  rw [(K (F := F)).scopedBufs_V hF d (cV L) (jV L), SparseCore.Cfg.scopedSems0_V (Val := Elt F) d (cV L) (jV L), ownSems0_V, ownBufs_V]
  unfold goRes
  iintro ⟨#Hlv, -, ⟨Hrs, Htk, Hsl, %fp, Hps⟩, ⟨⟨%f0, Hs0⟩, ⟨%f1, Hs1⟩, ⟨%f2, Hs2⟩, ⟨%f3, Hs3⟩, Hbufs⟩, ⟨Hsem0, Hsem1, Hsem2, Hsem3, Hsems⟩, HO⟩
  ihave Hmw := ((K (F := F)).mayWaits_none (thr := V d (cV L) (jV L)) hO) $$ Hlv
  ihave Hrs' := (Entails.of_eq (pts_rs (F := F) d L _ _).symm) $$ Hrs
  ihave Htk' := (Entails.of_eq (pts_tk (F := F) d L _ _).symm) $$ Htk
  ihave Hsl' := (Entails.of_eq (pts_sl (F := F) d L _ _).symm) $$ Hsl
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hps' := (Entails.of_eq (pts_psRowK (F := F) d L _).symm) $$ Hps
  sl_exec
  sl_unfold_run_names
  ihave Hs0 := (Entails.of_eq (pts_landed0 (F := F) d L _ _)) $$ Hs0'
  ihave Hs1 := (Entails.of_eq (pts_landed1 (F := F) d L _ _)) $$ Hs1'
  ihave Hs2 := (Entails.of_eq (pts_landed2 (F := F) d L _ _)) $$ Hs2'
  iapply (SparseCore.wp_vectorLoadIdx 𝒱₀ (V d (cV L) (jV L)) none Set.univ (base := s2W) (S := Finset.univ) (q := fullShare) (Finset.subset_univ _)) $$ Hs2
  iintro Hs2
  sl_for (tripInv (F := F) d L rs tk sl) $$ [Hs0 Hs1]
  case region =>
    intro k acc
    unfold tripInv
    iintro ⟨Hs0, Hs1, %hacc⟩
    sl_exec
    sl_unfold_run_names
    rw [wp_assume_of _ _ _ _ (chk2_run (F := F) L tk hpre (jL L) _ k)]
    iapply (SparseCore.wp_vectorLoadIdx 𝒱₀ (V d (cV L) (jV L)) none Set.univ (base := s0W) (S := Finset.univ) (q := fullShare) (Finset.subset_univ _)) $$ Hs0
    iintro Hs0
    sl_step
    isplitl [Hs0]; · iexact Hs0
    isplitl [Hs1]; · iexact Hs1
    ipureintro
    exact trip_yield (F := F) rs tk sl (jL L) k _ (Memref.read_access_whole (Elt F) cc1_scratch0 rs) _ _ (len_lanes (F := F) L sl _) (trip_toks (F := F) L tk (jL L) k) _ acc hacc
  · unfold tripInv
    isplitl [Hs0]; · iexact Hs0
    isplitl [Hs1]; · iexact Hs1
    ipureintro; rfl
  iintro %acc HI
  unfold tripInv
  icases HI with ⟨Hs0, Hs1, %hacc⟩
  sl_exec
  sl_unfold_run_names
  sl_step
  unfold tdRes
  isplitl [Hrs' Htk' Hsl' Hps']
  · isplitl [Hrs']; · iexact Hrs'
    isplitl [Htk']; · iexact Htk'
    isplitl [Hsl']; · iexact Hsl'
    iapply (Entails.of_eq (row_holds (F := F) d L fp f3 acc rs tk sl (hacc.trans (congrArg _ trips_eq))))
    iexact Hps'
  isplitl [Hs0 Hs1 Hs2 Hs3' Hbufs]
  · isplitl [Hs0]; · iexists _; iexact Hs0
    isplitl [Hs1]; · iexists _; iexact Hs1
    isplitl [Hs2]; · iexists _; iexact Hs2
    isplitl [Hs3']; · iexists _; iexact Hs3'
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc1_scoped3.sem, (default : HIx 1)) (insert (SemLoc.dma cc1_scoped2.sem, (default : HIx 1))
    (insert (SemLoc.dma cc1_scoped1.sem, (default : HIx 1)) (insert (SemLoc.dma cc1_scoped0.sem, (default : HIx 1)) W)))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

end Cert.Kernel.Hand

end
-- ==== Proof.Word.TileObl.lean ====
/-
  The vector subcore's task as the launch theorem asks for it.

  The launch theorem states a subcore's obligation over the body table's row at the subcore and over the call's
  payloads; the body's own theorem is stated over the kernel function at the subcore's grid point and over the
  resources themselves. This module is the passage from the one to the other: the table's row is the kernel function
  at the point the subcore's numbers name, and the payloads are the resources by definition.
-/
import proofs.«212176_g79912161509532_cont_sun_c4_840_27_alg».proof.Proof.Word.Launch
import proofs.«212176_g79912161509532_cont_sun_c4_840_27_alg».proof.Proof.Word.TileBody

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (rs : (d : Dev nD) → Buf (Elt F) (rsLoc d)) (tk : (d : Dev nD) → Buf (Elt F) (tkLoc d))
  (sl : (d : Dev nD) → Buf (Elt F) (slLoc d))

/-- The partial sums the sixteen subcores leave, from the contents they are handed. -/
abbrev psOf (d : Dev nD) : Buf (Elt F) (psLoc d) := partials (rs d) (tk d) (sl d)

omit rs tk sl in
/-- The body table's row at a vector subcore is the kernel function at the grid point the subcore's numbers name. -/
theorem defs₀_vector (c : Fin τ.nSC) (s : Fin τ.nSub) :
    defs₀ (F := F) (.scVector c s) 1 ()
      = SparseCore.onTile Facts₀.hcore1 Facts₀.hsub1 (fun c s => cc1__sc_gather_sum (coordsV c s)
          (Memref.whole main_v2_scv) (Memref.isWhole_whole _) (Memref.whole main_v3_scv) (Memref.isWhole_whole _)
          (Memref.whole main_arg1_scv) (Memref.isWhole_whole _) (Memref.whole main_v4_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scoped0 cc1_scoped1 cc1_scoped2 cc1_scoped3) ⟨⟩ c s := rfl

omit [FloatOps F] rs tk sl in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task, from the tokens' range. -/
theorem tileObl (hF : (K (F := F)).Facts) (hpre : ∀ (d : Dev nD) j, (tk d j).toNat < 32000) :
    (K (F := F)).TileObl (D (F := F)) 𝒱 (P rs tk sl (psOf rs tk sl)) v₀ 0 := by
  intro d c i O W hO _ _
  simp only [show (P rs tk sl (psOf rs tk sl)).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) hF (rs d) (tk d) (sl d) (hpre d) O W hO).trans (wp_mono frame _ _ fun _ => obl_post)

end Cert.Kernel.Hand

end
-- ==== Proof.Word.Run.lean ====
/-
  The kernel program's run.

  Every weakly fair execution of the device's threads — the TensorCore's host program, the two sequencers, the
  thirty-two vector subcores — terminates without a fault, and in every final state the result holds the last
  stage's value of it and the three arguments hold what they held at the launch. It is the launch theorem at: the
  one call's payloads; the subcores' obligation from the body's theorem; the operands' split; the launch element;
  the host program's theorem; and the reading of the final state from the ten arrays at the last stage.
-/
import proofs.«212176_g79912161509532_cont_sun_c4_840_27_alg».proof.Proof.Word.Main
import proofs.«212176_g79912161509532_cont_sun_c4_840_27_alg».proof.Proof.Word.TileObl

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)

variable {F : FTy → Type} [FloatOps F]

local notation "𝕄" => MT nD τ sig (HIx 1) (Elt F) ℕ UU ℕ

variable (m : (ℓ : Loc nD τ sig) → Buf (Elt F) ℓ) (ρ : Dev nD → PrngReg)

/-! ## Reading the final state -/

/-- The four arrays the claim speaks of: the result and the three arguments. -/
abbrev claimRefs : Finset (DevRef τ sig) := {v5', a0', a1', a2'}
omit [FloatOps F] in
theorem claimRefs_sub : claimRefs ⊆ Pipeline.ucRefs τ sig := by decide

omit [FloatOps F] in
theorem held_claim (d : Dev nD) (W : Valuation τ sig (Elt F)) :
    (held (T d) claimRefs W : sProp 𝕄)
      = iprop((((d, v5') : Loc nD τ sig) ↦{fullShare} W v5') ∗ (((d, a0') : Loc nD τ sig) ↦{fullShare} W a0')
          ∗ (((d, a1') : Loc nD τ sig) ↦{fullShare} W a1') ∗ ((d, a2') : Loc nD τ sig) ↦{fullShare} W a2') := by
  unfold held claimRefs
  rw [SparseCore.bigSep_insert' (by decide), SparseCore.bigSep_insert' (by decide), SparseCore.bigSep_insert' (by decide), bigSep_singleton]

/-- What the claim reads of a final state: the four arrays at the last stage. -/
def fq (d : Dev nD) (s' : Phys nD τ sig (Elt F)) : Prop :=
  s'.mem.mem (d, v5') = W5 m d v5' ∧ s'.mem.mem (d, a0') = W5 m d a0' ∧ s'.mem.mem (d, a1') = W5 m d a1' ∧ s'.mem.mem (d, a2') = W5 m d a2'

theorem hfin (d : Dev nD) (s' : Phys nD τ sig (Elt F)) : iprop(FIN m d ∗ SI s') ⊢ (⌜fq m d s'⌝ : sProp 𝕄) := by
  iintro ⟨Hheld, HSI⟩
  ihave Hh := (Entails.of_eq (held_sub_split (T d) claimRefs_sub (W5 m d))) $$ Hheld
  icases Hh with ⟨Hc, -⟩
  ihave Hc' := (Entails.of_eq (held_claim d (W5 m d))) $$ Hc
  icases Hc' with ⟨H5, H0, H1, H2⟩
  ihave H := (persistent_entails_right (SI_pointsTo_agree (st := s') (ℓ := ((d, v5') : Loc nD τ sig)) (I := Finset.univ) (q := fullShare) (f := W5 m d v5'))) $$ [HSI H5]
  · isplitl [HSI] <;> iassumption
  icases H with ⟨%h5, HSI, -⟩
  ihave H := (persistent_entails_right (SI_pointsTo_agree (st := s') (ℓ := ((d, a0') : Loc nD τ sig)) (I := Finset.univ) (q := fullShare) (f := W5 m d a0'))) $$ [HSI H0]
  · isplitl [HSI] <;> iassumption
  icases H with ⟨%h0, HSI, -⟩
  ihave H := (persistent_entails_right (SI_pointsTo_agree (st := s') (ℓ := ((d, a1') : Loc nD τ sig)) (I := Finset.univ) (q := fullShare) (f := W5 m d a1'))) $$ [HSI H1]
  · isplitl [HSI] <;> iassumption
  icases H with ⟨%h1, HSI, -⟩
  ihave H := (SI_pointsTo_agree (st := s') (ℓ := ((d, a2') : Loc nD τ sig)) (I := Finset.univ) (q := fullShare) (f := W5 m d a2')) $$ [HSI H2]
  · isplitl [HSI] <;> iassumption
  icases H with %h2
  ipureintro
  exact ⟨funext fun i => h5 i (Finset.mem_univ i), funext fun i => h0 i (Finset.mem_univ i),
    funext fun i => h1 i (Finset.mem_univ i), funext fun i => h2 i (Finset.mem_univ i)⟩

/-! ## The run -/

/-- The post of the run: on every device the result at the last stage's value, the arguments at the last stage's. -/
def QC : PUnit × MemSt nD τ sig (Elt F) → Prop := fun r => ∀ c : Dev nD,
  r.2.mem (c, v5') = W5 m c v5' ∧ r.2.mem (c, a0') = W5 m c a0' ∧ r.2.mem (c, a1') = W5 m c a1' ∧ r.2.mem (c, a2') = W5 m c a2'

/-- Every word of the flat token list the subcores are handed names a row of the table. -/
def TokOK : Prop := ∀ (d : Dev nD) j, (TK m d j).toNat < 32000

theorem run_main [∀ e, Nonempty (Elt F e)] (hpre : TokOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (RS m) (TK m) (SL m) facts hpre)
    (fun q _ => match q with | 0 => SparseCore.Cfg.VecSplit.of_plain (vecSplit (RS m) (TK m) (SL m) (PS m)))
    m ρ main (G (F := F)) (FIN m) (u₀ (F := F)) (sep_elim_left.trans (hu₀ (RS m) (TK m) (SL m) (PS m))) (hmain m ρ) (fq m) (hfin m) (QC m) (fun _ h => h)

end Cert.Kernel.Hand

end
-- ==== Proof.RegionAfter.lean ====
/-
  What the row-sum region leaves, array by array.

  The region's output has five slabs of 50 × 128 numbers. Point `t` of the grid reads block `t` of the table (the index
  map of the input is `(t, 0, 0)` over blocks of 50 × 128 × 1024) and writes slab `t` of the output (the output's index
  map is `(t, 0, 0)` over blocks of 1 × 50 × 128). So what point `t` writes back is slab `t` of one function of the
  table, the slabs are pairwise disjoint and together are the whole output, and after the five points the output array
  is that function of the table. The table itself is only read, and no other array is touched.
-/
import proofs.«212176_g79912161509532_cont_sun_c4_840_27_alg».proof.Proof.RegionDat

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.Sem
open Idealize.ShloMosaic.Pipeline (Dat)

variable {F : FTy → Type} [FloatOps F]

variable (W : Dev nD → Valuation τ sig (Elt F))

/-- The printed index maps, decided over the five points: at point `t` both windows are at block `(t, 0, 0)`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- What point `t` writes back is slab `t` of the row sums of the table as the region finds it. -/
theorem flushed_out (c : Dev nD) (t : Fin cfg0.N) :
    (dat0 W c).flushed 1 t = ((cfg0.win 1).blk t).view.read (Elt F) (rowsOut (entryAt W c main_v0)) := by
  show (cfg0.win 1).cut (grid0.coords t) ((dat0 W c).after 1 t) = _
  rw [dat0_after_out]
  obtain ⟨e0, e1, e2, e3, e4, e5⟩ := index_facts t
  funext y
  show blockSums (blockAt W c 0 t) y = rowsOut (entryAt W c main_v0) (((cfg0.win 1).blk t).view.emb y)
  unfold rowsOut
  have hy0 : (y 0).val < 1 := (y 0).isLt
  -- the input block at point `t` is block `t` of the table
  have hblock : ∀ T : Fin 5, T.val = t.val → tableBlock (entryAt W c main_v0) T = blockAt W c 0 t := by
    intro T hT
    funext z
    unfold tableBlock blockAt
    show entryAt W c main_v0 _ = entryAt W c main_v0 (((cfg0.win 0).blk t).view.emb z)
    refine congrArg _ (funext fun a => Fin.ext ?_)
    match a with
    | ⟨0, _⟩ => show 50 * T.val + (z 0).val = win0_0.index t (0 : Fin 3) * 50 + 1 * (z 0).val; omega
    | ⟨1, _⟩ => show (z 1).val = win0_0.index t (1 : Fin 3) * 128 + 1 * (z 1).val; omega
    | ⟨2, _⟩ => show (z 2).val = win0_0.index t (2 : Fin 3) * 1024 + 1 * (z 2).val; omega
  -- an index of slab `t` is the slab's own index with first coordinate `t`
  have hidx : ∀ (a : Fin 1) (b : Fin 50) (d : Fin 128), b.val = (y 1).val → d.val = (y 2).val → ix3 a b d = y := by
    intro a b d hb hd
    funext k; apply Fin.ext
    match k with
    | ⟨0, _⟩ => show a.val = (y 0).val; omega
    | ⟨1, _⟩ => exact hb
    | ⟨2, _⟩ => exact hd
  refine congr (congrArg blockSums (hblock _ ?_).symm) (hidx _ _ _ ?_ ?_).symm
  · show win0_1.index t (0 : Fin 3) * 1 + 1 * (y 0).val = t.val; omega
  · show win0_1.index t (1 : Fin 3) * 50 + 1 * (y 1).val = (y 1).val; omega
  · show win0_1.index t (2 : Fin 3) * 128 + 1 * (y 2).val = (y 2).val; omega

/-- An index of the output is in point `t`'s slab iff each coordinate is in the slab's range on its axis. -/
theorem mem_slab (t : Fin cfg0.N) (i : S5x50x128.Idx) :
    i ∈ ((cfg0.win 1).blk t).view.set ↔ ∀ a : Fin 3, win0_1.index t a * S1x50x128.size a ≤ (i a).val
      ∧ (i a).val < win0_1.index t a * S1x50x128.size a + S1x50x128.size a := by
  show i ∈ ((View.whole main_v1).slice (win0_1.rect t)).set ↔ _
  rw [View.set_slice_whole, Rect.mem_set_unit]
  exact Iff.rfl

/-- Every index of the output is in the slab of the point its first coordinate names. -/
theorem slabs_cover (i : S5x50x128.Idx) :
    ∃ t : Fin cfg0.N, (cfg0.win 1).flush t = true ∧ i ∈ ((cfg0.win 1).blk t).view.set := by
  have hi0 : (i 0).val < 5 := (i 0).isLt
  have hi1 : (i 1).val < 50 := (i 1).isLt
  have hi2 : (i 2).val < 128 := (i 2).isLt
  obtain ⟨t, ht⟩ : ∃ t : Fin cfg0.N, t.val = (i 0).val := ⟨⟨(i 0).val, by rw [show cfg0.N = 5 from N_0]; exact hi0⟩, rfl⟩
  obtain ⟨-, -, -, e3, e4, e5⟩ := index_facts t
  refine ⟨t, flush0_1 t, (mem_slab t i).mpr fun a => ?_⟩
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 50 ≤ (i 1).val ∧ (i 1).val < win0_1.index t (1 : Fin 3) * 50 + 50; omega
  | ⟨2, _⟩ => show win0_1.index t (2 : Fin 3) * 128 ≤ (i 2).val ∧ (i 2).val < win0_1.index t (2 : Fin 3) * 128 + 128; omega

/-- After the five points the output array holds the row sums of the table as the region found it. -/
theorem arrAt_out (c : Dev nD) : (dat0 W c).arrAt 1 cfg0.N = rowsOut (entryAt W c main_v0) :=
  (dat0 W c).arrAt_eq_of_cover 1 (rowsOut (entryAt W c main_v0)) (fun t _ => flushed_out W c t) slabs_cover

/-- The table is only read. -/
theorem arrAt_in (c : Dev nD) : (dat0 W c).arrAt 0 cfg0.N = entryAt W c main_v0 :=
  ((dat0 W c).arrAt_in 0 rfl cfg0.N).trans (dat0_A W c 0)

/-- The output array when the region is left: one function of the table as the region found it. -/
theorem afterRegion_v1 (c : Dev nD) :
    afterRegion W c (Proc.devRef .tc main_v1) = rowsOut (W c (Proc.devRef .tc main_v0)) :=
  (afterRegion_arr W c 1).trans (arrAt_out W c)

/-- Every other array when the region is left: as the region found it. -/
theorem afterRegion_of_ne (c : Dev nD) (b : DevRef τ sig) (hb : b ≠ Proc.devRef .tc main_v1) :
    afterRegion W c b = W c b := by
  by_cases h : ∃ w, Proc.devRef .tc (Pipeline.arrRef spec0 w) = b
  · obtain ⟨w, rfl⟩ := h
    rcases w with ⟨_ | _ | n, hw⟩
    · exact (afterRegion_arr W c 0).trans (arrAt_in W c)
    · exact absurd rfl hb
    · exact absurd hw (by omega)
  · unfold afterRegion Pipeline.withArrays
    rw [dif_neg h]

end Cert.KernelIdeal.Hand

end
-- ==== Proof.HostReads.lean ====
/-
  The host's three reshapes, read at an index.

  A reshape keeps the elements in row-major order and only renames their positions: element `(i, j)` of an `m × n` array
  sits at position `i · n + j`, element `(i, j, k)` of an `m × n × p` array at `(i · n + j) · p + k`, and the reshaped
  array holds at each index the element of the same position. Three relabelings occur. The 16 × 4096 tokens are
  flattened to 65536 words: word `4096 · b + l` is token `l` of sequence `b`. The 32000 × 1024 table is cut into 250
  blocks of 128 rows: row `c` of block `r` is row `128 · r + c`. The 5 × 50 × 128 array of row sums is flattened to
  32000 numbers: number `128 · (50 · t + r) + c` is entry `(t, r, c)`, and conversely row `v` is entry
  `(v / 6400, (v / 128) % 50, v % 128)`. None of this looks at the elements, so it holds for any element type.
-/
import Idealize.ShloMosaic.Lib.ValueIdx
import Idealize.ShloMosaic.Lib.Pipeline.Value

namespace Cert.Spec

open Idealize.ShloMosaic Idealize.ShloMosaic.ValueIdx

/-- The tokens flattened: word `4096 · b + l` of the flat array is token `l` of sequence `b`. -/
theorem flat_tokens {α : Type} (x : (⟨2, ![16, 4096]⟩ : Shape).Idx → α)
    (h : (⟨2, ![16, 4096]⟩ : Shape).ShapeCasts ⟨1, ![65536]⟩) (b : Fin 16) (l : Fin 4096) :
    shapeCast ⟨1, ![65536]⟩ x h (ix1 ⟨4096 * b.val + l.val, by omega⟩) = x (ix2 b l) := by
  refine shapeCast_apply x h _ _ ?_
  rw [Shape.rowMajor_val_two, Shape.rowMajor_val_one]
  show b.val * 4096 + l.val = 4096 * b.val + l.val
  omega

/-- The table cut into blocks of 128 rows: row `c` of block `r` is row `128 · r + c` of the table. -/
theorem table_blocks {α : Type} (x : (⟨2, ![32000, 1024]⟩ : Shape).Idx → α)
    (h : (⟨2, ![32000, 1024]⟩ : Shape).ShapeCasts ⟨3, ![250, 128, 1024]⟩) (r : Fin 250) (c : Fin 128) (d : Fin 1024) :
    shapeCast ⟨3, ![250, 128, 1024]⟩ x h (ix3 r c d) = x (ix2 ⟨128 * r.val + c.val, by omega⟩ d) := by
  refine shapeCast_apply x h _ _ ?_
  rw [Shape.rowMajor_val_two, Shape.rowMajor_val_three]
  show (128 * r.val + c.val) * 1024 + d.val = (r.val * 128 + c.val) * 1024 + d.val
  omega

/-- The row sums flattened: number `128 · (50 · t + r) + c` of the flat array is entry `(t, r, c)`. -/
theorem flat_rowsums {α : Type} (x : (⟨3, ![5, 50, 128]⟩ : Shape).Idx → α)
    (h : (⟨3, ![5, 50, 128]⟩ : Shape).ShapeCasts ⟨1, ![32000]⟩) (t : Fin 5) (r : Fin 50) (c : Fin 128) :
    shapeCast ⟨1, ![32000]⟩ x h (ix1 ⟨128 * (50 * t.val + r.val) + c.val, by omega⟩) = x (ix3 t r c) := by
  refine shapeCast_apply x h _ _ ?_
  rw [Shape.rowMajor_val_three, Shape.rowMajor_val_one]
  show (t.val * 50 + r.val) * 128 + c.val = 128 * (50 * t.val + r.val) + c.val
  omega

/-- The same read from the flat side: row `v` of the flat array is entry `(v / 6400, (v / 128) % 50, v % 128)`. -/
theorem flat_rowsums_row {α : Type} (x : (⟨3, ![5, 50, 128]⟩ : Shape).Idx → α)
    (h : (⟨3, ![5, 50, 128]⟩ : Shape).ShapeCasts ⟨1, ![32000]⟩) (v : Fin 32000) :
    shapeCast ⟨1, ![32000]⟩ x h (ix1 v)
      = x (ix3 (⟨v.val / 6400, by omega⟩ : Fin 5) (⟨(v.val / 128) % 50, by omega⟩ : Fin 50) (⟨v.val % 128, by omega⟩ : Fin 128)) := by
  refine shapeCast_apply x h _ _ ?_
  rw [Shape.rowMajor_val_three, Shape.rowMajor_val_one]
  show (v.val / 6400 * 50 + (v.val / 128) % 50) * 128 + v.val % 128 = v.val
  omega

/-- The table's blocks read from the table's side: row `n` of the table is row `n % 128` of block `n / 128`. -/
theorem table_blocks_row {α : Type} (x : (⟨2, ![32000, 1024]⟩ : Shape).Idx → α)
    (h : (⟨2, ![32000, 1024]⟩ : Shape).ShapeCasts ⟨3, ![250, 128, 1024]⟩) (n : Fin 32000) (d : Fin 1024) :
    shapeCast ⟨3, ![250, 128, 1024]⟩ x h (ix3 (⟨n.val / 128, by omega⟩ : Fin 250) (⟨n.val % 128, by omega⟩ : Fin 128) d)
      = x (ix2 n d) := by
  refine shapeCast_apply x h _ _ ?_
  rw [Shape.rowMajor_val_two, Shape.rowMajor_val_three]
  show n.val * 1024 + d.val = (n.val / 128 * 128 + n.val % 128) * 1024 + d.val
  omega

end Cert.Spec
-- ==== Proof.KernelReads.lean ====
/-
  The host program's last stage, read at the arrays that matter.

  No host operation, region or call writes an argument, so the three arguments are, at the last stage, as launched.
  The subcores' three inputs are read off the launch contents: the lengths are the second argument untouched; the
  flat tokens are the first argument's words in row-major order; the flat row sums are the region's output — the row
  sums of the table cut into 250 groups of 128 rows — in row-major order. The result is the host's sum, from the zero
  constant, of the partial sums. And where every token names a row of the table, every word of the flat token list
  is below 32000: flat word "j" is token "j % 4096" of sequence "j / 4096".
-/
import proofs.«212176_g79912161509532_cont_sun_c4_840_27_alg».proof.Proof.MainVals
import proofs.«212176_g79912161509532_cont_sun_c4_840_27_alg».proof.Proof.RegionAfter
import proofs.«212176_g79912161509532_cont_sun_c4_840_27_alg».proof.Proof.HostReads
import proofs.«212176_g79912161509532_cont_sun_c4_840_27_alg».proof.Proof.SpecFlat

noncomputable section

namespace Cert.KernelIdeal.Hand

open Cert.KernelIdeal Cert.KernelIdeal.Gen
open Idealize.ShloMosaic Idealize.ShloMosaic.StableHlo Idealize.ShloMosaic.ValueIdx

variable {F : FTy → Type} [FloatOps F]

variable (m : (ℓ : Loc nD τ sig) → Buf (Elt F) ℓ)

/-! ## An array that nothing writes -/

/-- An array other than the four that the host operations and the region write, before the call: as launched. -/
theorem W3_of_unwritten (d : Dev nD) (r : Ref sig .tc) (h0 : r ≠ main_v0) (h1 : r ≠ main_v1) (h2 : r ≠ main_v2)
    (h3 : r ≠ main_v3) : W3 m d (Proc.devRef .tc r) = m (d, Proc.devRef .tc r) :=
  (reshape_result_ne _ _ _ _ _ _ _ h3).trans <| (reshape_result_ne _ _ _ _ _ _ _ h2).trans <|
    (afterRegion_of_ne (W1 m) d _ (devRef_ne_of_ne h1)).trans <| reshape_result_ne _ _ _ _ _ _ _ h0

/-- An array that nothing writes at all: as launched at the last stage. -/
theorem W5_of_unwritten (d : Dev nD) (r : Ref sig .tc) (h0 : r ≠ main_v0) (h1 : r ≠ main_v1) (h2 : r ≠ main_v2)
    (h3 : r ≠ main_v3) (h4 : r ≠ main_v4) (hc : r ≠ main_cst) (h5 : r ≠ main_v5) :
    W5 m d (Proc.devRef .tc r) = m (d, Proc.devRef .tc r) :=
  (binary_result_ne _ _ _ _ _ _ _ _ h5).trans <| (nullary_result_ne _ _ _ _ hc).trans <|
    (Function.update_of_ne (devRef_ne_of_ne h4) _ _).trans <| W3_of_unwritten m d r h0 h1 h2 h3

/-- The three arguments end as launched. -/
theorem W5_arg0 (d : Dev nD) : W5 m d a0' = m (d, a0') :=
  W5_of_unwritten m d main_arg0 (by decide) (by decide) (by decide) (by decide) (by decide) (by decide) (by decide)
theorem W5_arg1 (d : Dev nD) : W5 m d a1' = m (d, a1') :=
  W5_of_unwritten m d main_arg1 (by decide) (by decide) (by decide) (by decide) (by decide) (by decide) (by decide)
theorem W5_arg2 (d : Dev nD) : W5 m d a2' = m (d, a2') :=
  W5_of_unwritten m d main_arg2 (by decide) (by decide) (by decide) (by decide) (by decide) (by decide) (by decide)

/-! ## What the subcores are handed, read off the launch contents -/

/-- The lengths: the second argument. -/
theorem SL_read (d : Dev nD) : SL m d = m (d, a1') :=
  W3_of_unwritten m d main_arg1 (by decide) (by decide) (by decide) (by decide)

/-- The flat tokens: the first argument's words in row-major order. -/
theorem TK_read (d : Dev nD) :
    TK m d = shapeCast S65536 (m (d, a0')) Facts₀.shapeCasts_S16x4096_S65536 := by
  have e : (opFlatRows (F := F)).result (W2 m d) a0' = m (d, a0') :=
    (reshape_result_ne _ _ _ _ _ _ _ (by decide)).trans <|
      (afterRegion_of_ne (W1 m) d _ (devRef_ne_of_ne (by decide))).trans <| reshape_result_ne _ _ _ _ _ _ _ (by decide)
  refine (reshape_result _ _ _ _ _ _ _).trans ?_
  rw [e]
  rfl

/-- The table as the region finds it: the third argument's entries in row-major order, as 250 groups of 128 rows. -/
theorem W1_blocks (d : Dev nD) :
    W1 m d v0' = shapeCast S250x128x1024 (m (d, a2')) Facts₀.shapeCasts_S32000x1024_S250x128x1024 :=
  reshape_result _ _ _ _ _ _ _

/-- The flat row sums: the region's output, of the table as it finds it, in row-major order. -/
theorem RS_read (d : Dev nD) :
    RS m d = shapeCast S32000
      (rowsOut (shapeCast S250x128x1024 (m (d, a2')) Facts₀.shapeCasts_S32000x1024_S250x128x1024))
      Facts₀.shapeCasts_S5x50x128_S32000 := by
  have e : W2 m d v1' = rowsOut (shapeCast S250x128x1024 (m (d, a2')) Facts₀.shapeCasts_S32000x1024_S250x128x1024) :=
    (afterRegion_v1 (W1 m) d).trans (congrArg rowsOut (W1_blocks m d))
  refine (reshape_result_ne _ _ _ _ _ _ _ (by decide)).trans <| (reshape_result _ _ _ _ _ _ _).trans ?_
  rw [e]
  rfl

/-- The result: the host's sum of the partial sums, from the zero constant. -/
theorem W5_sum (d : Dev nD) :
    W5 m d v5' = Host.reduceAdd (PS m d) (constant (F := F) S_ .f32 0x00000000#32)
      Facts₀.reducesTo_S16x16_S_d0_1 Facts₀.h_S_ := by
  have e4 : (opZero (F := F)).result (W4 m d) v4' = PS m d :=
    (nullary_result_ne _ _ _ _ (by decide)).trans (Function.update_self _ _ _)
  have ec : (opZero (F := F)).result (W4 m d) cst' = constant (F := F) S_ .f32 0x00000000#32 := nullary_result _ _ _ _
  refine (binary_result _ _ _ _ _ _ _ _).trans ?_
  rw [e4, ec]

/-! ## The flat tokens name rows -/

/-- On a device where every token names a row of the table, so does every word of the flat token list. -/
theorem TK_small (d : Dev nD) (h : Cert.Spec.TokInRange (m (d, a0'))) : ∀ j, (TK m d j).toNat < 32000 := by
  intro j
  obtain ⟨n, rfl⟩ : ∃ n : Fin 65536, j = ix1 n := ⟨j 0, eq_ix1 j⟩
  have hn : n = ⟨4096 * (⟨n.val / 4096, by omega⟩ : Fin 16).val + (⟨n.val % 4096, by omega⟩ : Fin 4096).val, by omega⟩ :=
    Fin.ext (by show n.val = 4096 * (n.val / 4096) + n.val % 4096; omega)
  rw [TK_read, hn, Cert.Spec.flat_tokens]
  exact h _ _

/-- Where every token names a row of the table, so does every word of the flat token list. -/
theorem tokOK_of_range (h : ∀ d : Dev nD, Cert.Spec.TokInRange (m (d, a0'))) :
    ∀ (d : Dev nD) j, (TK m d j).toNat < 32000 :=
  fun d => TK_small m d (h d)

end Cert.KernelIdeal.Hand

end
-- ==== Proof.Word.RegionAfter.lean ====
/-
  What the row-sum region leaves, array by array.

  The region's output has five slabs of 50 × 128 numbers. Point `t` of the grid reads block `t` of the table (the index
  map of the input is `(t, 0, 0)` over blocks of 50 × 128 × 1024) and writes slab `t` of the output (the output's index
  map is `(t, 0, 0)` over blocks of 1 × 50 × 128). So what point `t` writes back is slab `t` of one function of the
  table, the slabs are pairwise disjoint and together are the whole output, and after the five points the output array
  is that function of the table. The table itself is only read, and no other array is touched.
-/
import proofs.«212176_g79912161509532_cont_sun_c4_840_27_alg».proof.Proof.Word.RegionDat

set_option maxRecDepth 16384

noncomputable section

namespace Cert.Kernel.Hand

open Cert.Kernel Cert.Kernel.Gen
open Idealize.ShloMosaic Idealize.ShloMosaic.TcCoe Idealize.ShloMosaic.ValueIdx
open Idealize.ShloMosaic.SparseCore.Cfg (HIx)
open Idealize.SL Idealize.SL.Sem
open Idealize.ShloMosaic.Pipeline (Dat)

variable {F : FTy → Type} [FloatOps F]

variable (W : Dev nD → Valuation τ sig (Elt F))

/-- The printed index maps, decided over the five points: at point `t` both windows are at block `(t, 0, 0)`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- What point `t` writes back is slab `t` of the row sums of the table as the region finds it. -/
theorem flushed_out (c : Dev nD) (t : Fin cfg0.N) :
    (dat0 W c).flushed 1 t = ((cfg0.win 1).blk t).view.read (Elt F) (rowsOut (entryAt W c main_v0)) := by
  show (cfg0.win 1).cut (grid0.coords t) ((dat0 W c).after 1 t) = _
  rw [dat0_after_out]
  obtain ⟨e0, e1, e2, e3, e4, e5⟩ := index_facts t
  funext y
  show blockSums (blockAt W c 0 t) y = rowsOut (entryAt W c main_v0) (((cfg0.win 1).blk t).view.emb y)
  unfold rowsOut
  have hy0 : (y 0).val < 1 := (y 0).isLt
  -- the input block at point `t` is block `t` of the table
  have hblock : ∀ T : Fin 5, T.val = t.val → tableBlock (entryAt W c main_v0) T = blockAt W c 0 t := by
    intro T hT
    funext z
    unfold tableBlock blockAt
    show entryAt W c main_v0 _ = entryAt W c main_v0 (((cfg0.win 0).blk t).view.emb z)
    refine congrArg _ (funext fun a => Fin.ext ?_)
    match a with
    | ⟨0, _⟩ => show 50 * T.val + (z 0).val = win0_0.index t (0 : Fin 3) * 50 + 1 * (z 0).val; omega
    | ⟨1, _⟩ => show (z 1).val = win0_0.index t (1 : Fin 3) * 128 + 1 * (z 1).val; omega
    | ⟨2, _⟩ => show (z 2).val = win0_0.index t (2 : Fin 3) * 1024 + 1 * (z 2).val; omega
  -- an index of slab `t` is the slab's own index with first coordinate `t`
  have hidx : ∀ (a : Fin 1) (b : Fin 50) (d : Fin 128), b.val = (y 1).val → d.val = (y 2).val → ix3 a b d = y := by
    intro a b d hb hd
    funext k; apply Fin.ext
    match k with
    | ⟨0, _⟩ => show a.val = (y 0).val; omega
    | ⟨1, _⟩ => exact hb
    | ⟨2, _⟩ => exact hd
  refine congr (congrArg blockSums (hblock _ ?_).symm) (hidx _ _ _ ?_ ?_).symm
  · show win0_1.index t (0 : Fin 3) * 1 + 1 * (y 0).val = t.val; omega
  · show win0_1.index t (1 : Fin 3) * 50 + 1 * (y 1).val = (y 1).val; omega
  · show win0_1.index t (2 : Fin 3) * 128 + 1 * (y 2).val = (y 2).val; omega

/-- An index of the output is in point `t`'s slab iff each coordinate is in the slab's range on its axis. -/
theorem mem_slab (t : Fin cfg0.N) (i : S5x50x128.Idx) :
    i ∈ ((cfg0.win 1).blk t).view.set ↔ ∀ a : Fin 3, win0_1.index t a * S1x50x128.size a ≤ (i a).val
      ∧ (i a).val < win0_1.index t a * S1x50x128.size a + S1x50x128.size a := by
  show i ∈ ((View.whole main_v1).slice (win0_1.rect t)).set ↔ _
  rw [View.set_slice_whole, Rect.mem_set_unit]
  exact Iff.rfl

/-- Every index of the output is in the slab of the point its first coordinate names. -/
theorem slabs_cover (i : S5x50x128.Idx) :
    ∃ t : Fin cfg0.N, (cfg0.win 1).flush t = true ∧ i ∈ ((cfg0.win 1).blk t).view.set := by
  have hi0 : (i 0).val < 5 := (i 0).isLt
  have hi1 : (i 1).val < 50 := (i 1).isLt
  have hi2 : (i 2).val < 128 := (i 2).isLt
  obtain ⟨t, ht⟩ : ∃ t : Fin cfg0.N, t.val = (i 0).val := ⟨⟨(i 0).val, by rw [show cfg0.N = 5 from N_0]; exact hi0⟩, rfl⟩
  obtain ⟨-, -, -, e3, e4, e5⟩ := index_facts t
  refine ⟨t, flush0_1 t, (mem_slab t i).mpr fun a => ?_⟩
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 50 ≤ (i 1).val ∧ (i 1).val < win0_1.index t (1 : Fin 3) * 50 + 50; omega
  | ⟨2, _⟩ => show win0_1.index t (2 : Fin 3) * 128 ≤ (i 2).val ∧ (i 2).val < win0_1.index t (2 : Fin 3) * 128 + 128; omega

/-- After the five points the output array holds the row sums of the table as the region found it. -/
theorem arrAt_out (c : Dev nD) : (dat0 W c).arrAt 1 cfg0.N = rowsOut (entryAt W c main_v0) :=
  (dat0 W c).arrAt_eq_of_cover 1 (rowsOut (entryAt W c main_v0)) (fun t _ => flushed_out W c t) slabs_cover

/-- The table is only read. -/
theorem arrAt_in (c : Dev nD) : (dat0 W c).arrAt 0 cfg0.N = entryAt W c main_v0 :=
  ((dat0 W c).arrAt_in 0 rfl cfg0.N).trans (dat0_A W c 0)

/-- The output array when the region is left: one function of the table as the region found it. -/
theorem afterRegion_v1 (c : Dev nD) :
    afterRegion W c (Proc.devRef .tc main_v1) = rowsOut (W c (Proc.devRef .tc main_v0)) :=
  (afterRegion_arr W c 1).trans (arrAt_out W c)

/-- Every other array when the region is left: as the region found it. -/
theorem afterRegion_of_ne (c : Dev nD) (b : DevRef τ sig) (hb : b ≠ Proc.devRef .tc main_v1) :
    afterRegion W c b = W c b := by
  by_cases h : ∃ w, Proc.devRef .tc (Pipeline.arrRef spec0 w) = b
  · obtain ⟨w, rfl⟩ := h
    rcases w with ⟨_ | _ | n, hw⟩
    · exact (afterRegion_arr W c 0).trans (arrAt_in W c)
    · exact absurd rfl hb
    · exact absurd hw (by omega)
  · unfold afterRegion Pipeline.withArrays
    rw [dif_neg h]

end Cert.Kernel.Hand

end
-- ==== Proof.Word.KernelReads.lean ====
/-
  The host program's last stage, read at the arrays that matter.

  No host operation, region or call writes an argument, so the three arguments are, at the last stage, as launched.
  The subcores' three inputs are read off the launch contents: the lengths are the second argument untouched; the
  flat tokens are the first argument's words in row-major order; the flat row sums are the region's output — the row
  sums of the table cut into 250 groups of 128 rows — in row-major order. The result is the host's sum, from the zero
  constant, of the partial sums. And where every token names a row of the table, every word of the flat token list
  is below 32000: flat word "j" is token "j % 4096" of sequence "j / 4096".
-/
import proofs.«212176_g79912161509532_cont_sun_c4_840_27_alg».proof.Proof.Word.MainVals
import proofs.«212176_g79912161509532_cont_sun_c4_840_27_alg».proof.Proof.Word.RegionAfter
import proofs.«212176_g79912161509532_cont_sun_c4_840_27_alg».proof.Proof.HostReads
import proofs.«212176_g79912161509532_cont_sun_c4_840_27_alg».proof.Proof.SpecFlat

noncomputable section

namespace Cert.Kernel.Hand

open Cert.Kernel Cert.Kernel.Gen
open Idealize.ShloMosaic Idealize.ShloMosaic.StableHlo Idealize.ShloMosaic.ValueIdx

variable {F : FTy → Type} [FloatOps F]

variable (m : (ℓ : Loc nD τ sig) → Buf (Elt F) ℓ)

/-! ## An array that nothing writes -/

/-- An array other than the four that the host operations and the region write, before the call: as launched. -/
theorem W3_of_unwritten (d : Dev nD) (r : Ref sig .tc) (h0 : r ≠ main_v0) (h1 : r ≠ main_v1) (h2 : r ≠ main_v2)
    (h3 : r ≠ main_v3) : W3 m d (Proc.devRef .tc r) = m (d, Proc.devRef .tc r) :=
  (reshape_result_ne _ _ _ _ _ _ _ h3).trans <| (reshape_result_ne _ _ _ _ _ _ _ h2).trans <|
    (afterRegion_of_ne (W1 m) d _ (devRef_ne_of_ne h1)).trans <| reshape_result_ne _ _ _ _ _ _ _ h0

/-- An array that nothing writes at all: as launched at the last stage. -/
theorem W5_of_unwritten (d : Dev nD) (r : Ref sig .tc) (h0 : r ≠ main_v0) (h1 : r ≠ main_v1) (h2 : r ≠ main_v2)
    (h3 : r ≠ main_v3) (h4 : r ≠ main_v4) (hc : r ≠ main_cst) (h5 : r ≠ main_v5) :
    W5 m d (Proc.devRef .tc r) = m (d, Proc.devRef .tc r) :=
  (binary_result_ne _ _ _ _ _ _ _ _ h5).trans <| (nullary_result_ne _ _ _ _ hc).trans <|
    (Function.update_of_ne (devRef_ne_of_ne h4) _ _).trans <| W3_of_unwritten m d r h0 h1 h2 h3

/-- The three arguments end as launched. -/
theorem W5_arg0 (d : Dev nD) : W5 m d a0' = m (d, a0') :=
  W5_of_unwritten m d main_arg0 (by decide) (by decide) (by decide) (by decide) (by decide) (by decide) (by decide)
theorem W5_arg1 (d : Dev nD) : W5 m d a1' = m (d, a1') :=
  W5_of_unwritten m d main_arg1 (by decide) (by decide) (by decide) (by decide) (by decide) (by decide) (by decide)
theorem W5_arg2 (d : Dev nD) : W5 m d a2' = m (d, a2') :=
  W5_of_unwritten m d main_arg2 (by decide) (by decide) (by decide) (by decide) (by decide) (by decide) (by decide)

/-! ## What the subcores are handed, read off the launch contents -/

/-- The lengths: the second argument. -/
theorem SL_read (d : Dev nD) : SL m d = m (d, a1') :=
  W3_of_unwritten m d main_arg1 (by decide) (by decide) (by decide) (by decide)

/-- The flat tokens: the first argument's words in row-major order. -/
theorem TK_read (d : Dev nD) :
    TK m d = shapeCast S65536 (m (d, a0')) Facts₀.shapeCasts_S16x4096_S65536 := by
  have e : (opFlatRows (F := F)).result (W2 m d) a0' = m (d, a0') :=
    (reshape_result_ne _ _ _ _ _ _ _ (by decide)).trans <|
      (afterRegion_of_ne (W1 m) d _ (devRef_ne_of_ne (by decide))).trans <| reshape_result_ne _ _ _ _ _ _ _ (by decide)
  refine (reshape_result _ _ _ _ _ _ _).trans ?_
  rw [e]
  rfl

/-- The table as the region finds it: the third argument's entries in row-major order, as 250 groups of 128 rows. -/
theorem W1_blocks (d : Dev nD) :
    W1 m d v0' = shapeCast S250x128x1024 (m (d, a2')) Facts₀.shapeCasts_S32000x1024_S250x128x1024 :=
  reshape_result _ _ _ _ _ _ _

/-- The flat row sums: the region's output, of the table as it finds it, in row-major order. -/
theorem RS_read (d : Dev nD) :
    RS m d = shapeCast S32000
      (rowsOut (shapeCast S250x128x1024 (m (d, a2')) Facts₀.shapeCasts_S32000x1024_S250x128x1024))
      Facts₀.shapeCasts_S5x50x128_S32000 := by
  have e : W2 m d v1' = rowsOut (shapeCast S250x128x1024 (m (d, a2')) Facts₀.shapeCasts_S32000x1024_S250x128x1024) :=
    (afterRegion_v1 (W1 m) d).trans (congrArg rowsOut (W1_blocks m d))
  refine (reshape_result_ne _ _ _ _ _ _ _ (by decide)).trans <| (reshape_result _ _ _ _ _ _ _).trans ?_
  rw [e]
  rfl

/-- The result: the host's sum of the partial sums, from the zero constant. -/
theorem W5_sum (d : Dev nD) :
    W5 m d v5' = Host.reduceAdd (PS m d) (constant (F := F) S_ .f32 0x00000000#32)
      Facts₀.reducesTo_S16x16_S_d0_1 Facts₀.h_S_ := by
  have e4 : (opZero (F := F)).result (W4 m d) v4' = PS m d :=
    (nullary_result_ne _ _ _ _ (by decide)).trans (Function.update_self _ _ _)
  have ec : (opZero (F := F)).result (W4 m d) cst' = constant (F := F) S_ .f32 0x00000000#32 := nullary_result _ _ _ _
  refine (binary_result _ _ _ _ _ _ _ _).trans ?_
  rw [e4, ec]

/-! ## The flat tokens name rows -/

/-- On a device where every token names a row of the table, so does every word of the flat token list. -/
theorem TK_small (d : Dev nD) (h : Cert.Spec.TokInRange (m (d, a0'))) : ∀ j, (TK m d j).toNat < 32000 := by
  intro j
  obtain ⟨n, rfl⟩ : ∃ n : Fin 65536, j = ix1 n := ⟨j 0, eq_ix1 j⟩
  have hn : n = ⟨4096 * (⟨n.val / 4096, by omega⟩ : Fin 16).val + (⟨n.val % 4096, by omega⟩ : Fin 4096).val, by omega⟩ :=
    Fin.ext (by show n.val = 4096 * (n.val / 4096) + n.val % 4096; omega)
  rw [TK_read, hn, Cert.Spec.flat_tokens]
  exact h _ _

/-- Where every token names a row of the table, so does every word of the flat token list. -/
theorem tokOK_of_range (h : ∀ d : Dev nD, Cert.Spec.TokInRange (m (d, a0'))) :
    ∀ (d : Dev nD) j, (TK m d j).toNat < 32000 :=
  fun d => TK_small m d (h d)

end Cert.Kernel.Hand

end
-- ==== Proof.TileIdeal.lean ====
/-
  The partial sums read at the extended reals.

  There the accumulator's addition is the sum of extended reals and the zero word is 0, so a lane's accumulator after
  256 trips is the sum of the 256 row sums it looked up. Position `16 k + x` is below 4096, so the 32-bit word the
  subcore computes for it is that number itself, and its signed comparison against the sequence's length is the
  specification's. The word looked up is then the specification's own: the token word `4096 b + 16 k + x` of the flat
  list inside the sequence, and 0 past its end; it names a row because every token does.
-/
import proofs.«212176_g79912161509532_cont_sun_c4_840_27_alg».proof.Proof.TileValue
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The position trip `k` computes for lane `x`, as a 32-bit word, is the number `16 k + x`. -/
theorem tripPos_apply (k : Nat) (x : Fin 16) : tripPos k (ix1 x) = BitVec.ofNat 32 (16 * k + x.val) := by
  show (0#32 + BitVec.ofNat 32 k * 1#32) * 16#32 + BitVec.ofNat 32 (0 * 16 + x.val) = _
  apply BitVec.eq_of_toNat_eq
  simp only [BitVec.toNat_add, BitVec.toNat_mul, BitVec.toNat_ofNat]
  omega

/-- The signed comparison as a bit is 1 exactly where the comparison holds. -/
theorem cmpi_slt_eq_one (a b : BitVec 32) : IntOp.cmpi .slt a b = 1#1 ↔ a.slt b = true := by
  show BitVec.ofBool (a.slt b) = 1#1 ↔ _
  cases a.slt b <;> simp

/-- The word trip `k` looks up in lane `x` is the specification's for position `16 k + x` of sequence `b`. -/
theorem tripSel_toNat (tk : IVec S65536 32) (sl : IVec S16 32) (b : Fin 16) (k : Fin 256) (x : Fin 16) :
    (tripSel tk sl b k.val (ix1 x)).toNat = Cert.Spec.flatTok tk sl b ⟨16 * k.val + x.val, by omega⟩ := by
  unfold tripSel Cert.Spec.flatTok Cert.Spec.live
  rw [select_apply]
  show (Scalar.select (IntOp.cmpi .slt (tripPos k.val (ix1 x)) (sl (ix1 b))) (tripToks tk b k.val (ix1 x)) 0#32).toNat = _
  rw [tripPos_apply]
  by_cases h : (BitVec.ofNat 32 (16 * k.val + x.val)).slt (sl (ix1 b)) = true
  · rw [(cmpi_slt_eq_one _ _).mpr h, select_one, if_pos h]
    unfold tripToks
    congr 3
    apply Fin.ext
    show 4096 * b.val + 16 * (k.val % 256) + x.val = 4096 * b.val + (16 * k.val + x.val)
    rw [Nat.mod_eq_of_lt k.isLt]; omega
  · have h0 : IntOp.cmpi .slt (BitVec.ofNat 32 (16 * k.val + x.val)) (sl (ix1 b)) = 0#1 :=
      eq_zero_of_ne_one fun e => h ((cmpi_slt_eq_one _ _).mp e)
    rw [h0, select_zero, if_neg h]; rfl

/-- A word below 32000 reads the row sum it names. -/
theorem gatherRows_apply (rs : FVec Ideal S32000 .f32) (w : IVec S16 32) (x : S16.Idx) (h : (w x).toNat < 32000) :
    gatherRows rs w x = Cert.Spec.rsAt rs (w x).toNat := by
  unfold gatherRows Cert.Spec.rsAt
  rw [dif_pos h, dif_pos h]

/-- The specification's word names a row when every token does. -/
theorem flatTok_lt (tk : IVec S65536 32) (sl : IVec S16 32) (hin : ∀ j, (tk j).toNat < 32000) (b : Fin 16) (l : Fin 4096) :
    Cert.Spec.flatTok tk sl b l < 32000 := by
  unfold Cert.Spec.flatTok; split
  · exact hin _
  · decide

/-- A lane's accumulator after `n` trips is the sum of the row sums it looked up in them. -/
theorem laneAcc_ideal (rs : FVec Ideal S32000 .f32) (tk : IVec S65536 32) (sl : IVec S16 32) (hin : ∀ j, (tk j).toNat < 32000)
    (b lane : Fin 16) (n : Nat) (hn : n ≤ 256) :
    laneAcc (F := Ideal) rs tk sl b n (ix1 lane)
      = ∑ k ∈ Finset.range n, if h : k < 256 then Cert.Spec.rsAt rs (Cert.Spec.flatTok tk sl b ⟨16 * k + lane.val, by omega⟩) else 0 := by
  induction n with
  | zero =>
    show Ideal.ofBits .f32 0x00000000#32 = _
    rw [Ideal.ofBits_zero_f32, Finset.range_zero, Finset.sum_empty]
  | succ n ih =>
    have hn' : n < 256 := hn
    rw [Finset.sum_range_succ, ← ih (Nat.le_of_lt hn'), dif_pos hn']
    show laneAcc (F := Ideal) rs tk sl b n (ix1 lane) + gatherRows rs (tripSel tk sl b n) (ix1 lane) = _
    have e := tripSel_toNat tk sl b ⟨n, hn'⟩ lane
    rw [gatherRows_apply rs _ _ (e ▸ flatTok_lt tk sl hin b _), e]

/-- Entry `(b, lane)` of the partial sums is the sum, over the 256 trips, of the row sums lane `lane` of subcore `b` looks up. -/
theorem partials_ideal (rs : FVec Ideal S32000 .f32) (tk : IVec S65536 32) (sl : IVec S16 32) (hin : ∀ j, (tk j).toNat < 32000) (b lane : Fin 16) :
    partials (F := Ideal) rs tk sl (ValueIdx.ix2 b lane)
      = ∑ k : Fin 256, Cert.Spec.rsAt rs (Cert.Spec.flatTok tk sl b ⟨16 * k.val + lane.val, by omega⟩) := by
  show laneAcc (F := Ideal) rs tk sl b 256 (ix1 lane) = _
  rw [laneAcc_ideal rs tk sl hin b lane 256 le_rfl, ← Fin.sum_univ_eq_sum_range (fun k => if h : k < 256 then Cert.Spec.rsAt rs (Cert.Spec.flatTok tk sl b ⟨16 * k + lane.val, by omega⟩) else 0) 256]
  exact Finset.sum_congr rfl fun k _ => dif_pos k.isLt

end Cert.KernelIdeal.Hand

end
-- ==== Proof.SpecSums.lean ====
/-
  The specification's sum, regrouped the way the kernel adds it up.

  A sequence's 4096 positions are walked in 256 steps of 16 lanes: position `l` is lane `l % 16` of step `l / 16`, that
  is `l = 16 · k + lane`. Each lane keeps its own running sum over the steps, and the sixteen sequences' sixteen lane
  sums are added up at the end. Since `(lane, k) ↦ 16 · k + lane` is a bijection from pairs onto positions, the sum over
  lanes of the sums over steps is the sum over positions: this uses nothing but commutativity and associativity of the
  addition, so it holds in any commutative monoid — in particular for extended reals, finite or not.
-/
import proofs.«212176_g79912161509532_cont_sun_c4_840_27_alg».proof.Proof.Spec
import Idealize.ShloMosaic.PureOps.Ideal.Laws

noncomputable section

open scoped BigOperators

namespace Cert.Spec

open Idealize.ShloMosaic Idealize.ShloMosaic.ValueIdx

/-- Lane `lane` of step `k` is position `16 · k + lane`: a bijection from (lane, step) pairs onto the 4096 positions,
    with inverse `l ↦ (l % 16, l / 16)`. -/
def laneStep : Fin 16 × Fin 256 ≃ Fin 4096 where
  toFun p := ⟨16 * p.2.val + p.1.val, by omega⟩
  invFun l := (⟨l.val % 16, by omega⟩, ⟨l.val / 16, by omega⟩)
  left_inv p := by
    apply Prod.ext <;> apply Fin.ext
    · show (16 * p.2.val + p.1.val) % 16 = p.1.val
      omega
    · show (16 * p.2.val + p.1.val) / 16 = p.2.val
      omega
  right_inv l := by
    apply Fin.ext
    show 16 * (l.val / 16) + l.val % 16 = l.val
    omega

/-- Summing lane by lane, each lane over its 256 steps, is summing over the 4096 positions. -/
theorem sum_lane_step {M : Type*} [AddCommMonoid M] (f : Fin 4096 → M) :
    ∑ lane : Fin 16, ∑ k : Fin 256, f ⟨16 * k.val + lane.val, by omega⟩ = ∑ l : Fin 4096, f l :=
  (Fintype.sum_prod_type fun p : Fin 16 × Fin 256 => f (laneStep p)).symm.trans (Equiv.sum_comp laneStep f)

/-- The specification's total, with each sequence's positions grouped into lanes and steps. -/
theorem total_eq_lanes (tok : IVec Toks 32) (sl : IVec Lens 32) (emb : FVec Ideal Table .f32) :
    total tok sl emb = ∑ b : Fin 16, ∑ lane : Fin 16, ∑ k : Fin 256,
      rowSum emb (padTok tok sl b ⟨16 * k.val + lane.val, by omega⟩) :=
  Finset.sum_congr rfl fun b _ => (sum_lane_step fun l => rowSum emb (padTok tok sl b l)).symm

/-- The final sum of the 16 × 16 array of lane sums, read as extended reals: the initial value plus the double sum over
    sequences and lanes. -/
theorem reduce_partials (x : FVec Ideal ⟨2, ![16, 16]⟩ .f32) (init : FVec Ideal ⟨0, ![]⟩ .f32)
    (hr : (⟨2, ![16, 16]⟩ : Shape).ReducesTo [0, 1] ⟨0, ![]⟩) (hn : 0 < (⟨0, ![]⟩ : Shape).numel) :
    Host.reduceAdd (F := Ideal) x init hr hn
      = fun _ => init ix0 + ∑ b : Fin 16, ∑ lane : Fin 16, x (ix2 b lane) := by
  funext j
  show Ideal.hostReduceAdd hr x (init (Shape.Idx.first hn)) j = _
  rw [Ideal.hostReduceAdd_total hr (fun b => b.elim0) x _ j, sum_idx2,
    show Shape.Idx.first hn = ix0 from funext fun a => a.elim0]

end Cert.Spec

end
-- ==== Proof.KernelValue.lean ====
/-
  The kernel side's value at the extended reals.

  The result is the host's sum, from zero, of the sixteen by sixteen partial sums. Entry (b, lane) of those is the sum,
  over the 256 trips, of the flat row sums named by the words lane "lane" of subcore "b" looks up. Those words are the
  specification's padded tokens, because the flat token list is the tokens in row-major order; and the flat row sum a
  number "n" names is the sum of the 1024 entries of row "n" of the table, because the region sums each row of the
  table cut into groups of 128 rows, row "n" being row "n % 128" of group "n / 128", and the flattening puts the sum
  of that row back at position "n". Summing lane by lane, each lane over its trips, is summing over the positions. Only
  the shape of the sums is used, never that an entry is finite.
-/
import proofs.«212176_g79912161509532_cont_sun_c4_840_27_alg».proof.Proof.KernelReads
import proofs.«212176_g79912161509532_cont_sun_c4_840_27_alg».proof.Proof.TileIdeal
import proofs.«212176_g79912161509532_cont_sun_c4_840_27_alg».proof.Proof.SpecSums
import Idealize.ShloMosaic.PureOps.Ideal.Laws

noncomputable section

open scoped BigOperators

namespace Cert.KernelIdeal.Hand

open Cert.KernelIdeal Cert.KernelIdeal.Gen
open Idealize.ShloMosaic Idealize.ShloMosaic.StableHlo Idealize.ShloMosaic.ValueIdx

/-- The word looked up at position "l" of sequence "b", read off the flat token list: the specification's padded token. -/
theorem flatTok_TK {F : FTy → Type} [FloatOps F] (m : (ℓ : Loc nD τ sig) → Buf (Elt F) ℓ) (d : Dev nD)
    (sl : IVec S16 32) (b : Fin 16) (l : Fin 4096) :
    Cert.Spec.flatTok (TK m d) sl b l = Cert.Spec.padTok (m (d, a0')) sl b l := by
  unfold Cert.Spec.flatTok Cert.Spec.padTok
  rw [TK_read, Cert.Spec.flat_tokens]

variable (hrows : ∀ (x : FVec Ideal S250x128x1024 .f32) (t : Fin 5) (r : Fin 50) (c : Fin 128),
  rowsOut (F := Ideal) x (ValueIdx.ix3 t r c) = ∑ d : Fin 1024, x (ValueIdx.ix3 (⟨50 * t.val + r.val, by omega⟩ : Fin 250) c d))

variable (m : (ℓ : Loc nD τ sig) → Buf (Elt Ideal) ℓ)

include hrows in
/-- The flat row sum a number names: the sum of the 1024 entries of that row of the table (zero for a number that names
    no row). -/
theorem rsAt_RS (d : Dev nD) (n : Nat) : Cert.Spec.rsAt (RS m d) n = Cert.Spec.rowSum (m (d, a2')) n := by
  unfold Cert.Spec.rsAt Cert.Spec.rowSum
  by_cases hn : n < 32000
  · rw [dif_pos hn, dif_pos hn, RS_read, Cert.Spec.flat_rowsums_row, hrows]
    refine Finset.sum_congr rfl fun dd _ => ?_
    have h1 : n / 128 < 250 := by omega
    have h2 : n % 128 < 128 := by omega
    have key : ∀ (g : Fin 250) (c : Fin 128), g.val = n / 128 → c.val = n % 128 →
        shapeCast S250x128x1024 (m (d, a2')) Facts₀.shapeCasts_S32000x1024_S250x128x1024 (ix3 g c dd)
          = m (d, a2') (ix2 (⟨n, hn⟩ : Fin 32000) dd) := by
      intro g c hg hc
      obtain rfl : g = ⟨n / 128, h1⟩ := Fin.ext hg
      obtain rfl : c = ⟨n % 128, h2⟩ := Fin.ext hc
      exact Cert.Spec.table_blocks_row _ _ (⟨n, hn⟩ : Fin 32000) dd
    exact key _ _ (by show 50 * (n / 6400) + (n / 128) % 50 = n / 128; omega) rfl
  · rw [dif_neg hn, dif_neg hn]

include hrows in
/-- With every token naming a row of the table, the kernel side's result is the total of the looked-up rows' sums. -/
theorem W5_result (d : Dev nD) (h : Cert.Spec.TokInRange (m (d, a0'))) :
    W5 (F := Ideal) m d v5' = fun _ => Cert.Spec.total (m (d, a0')) (m (d, a1')) (m (d, a2')) := by
  refine ((W5_sum m d).trans (Cert.Spec.reduce_partials _ _ _ _)).trans ?_
  funext _
  rw [constant_apply, Ideal.ofBits_zero_f32, zero_add, Cert.Spec.total_eq_lanes]
  refine Finset.sum_congr rfl fun b _ => Finset.sum_congr rfl fun lane _ => ?_
  refine (partials_ideal _ _ _ (TK_small m d h) b lane).trans ?_
  refine Finset.sum_congr rfl fun k _ => ?_
  rw [rsAt_RS hrows m d, flatTok_TK, SL_read]

end Cert.KernelIdeal.Hand

end
-- ==== Proof.RegionValue.lean ====
/-
  The row-sum region's output, read as extended reals.

  Entry `(t, r, c)` of the region's output is entry `(0, r, c)` of what the body stores at point `t`: the body's sum, along
  the 1024 entries, of row `c` of group `r` of block `t` of the table, that is of row `c` of group `50 t + r`. Read as
  extended reals the body's reduction is the exact sum of the 1024 entries (it starts from zero, the sum's neutral
  element), and the two changes of shape around it only rename positions.
-/
import proofs.«212176_g79912161509532_cont_sun_c4_840_27_alg».proof.Proof.RegionDat
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.ValueIdx

/-- Entry `(t, r, c)` of the region's output is the sum of the 1024 entries of row `c` of group `50 t + r` of the table. -/
theorem rowsOut_ideal (x : FVec Ideal S250x128x1024 .f32) (t : Fin 5) (r : Fin 50) (c : Fin 128) :
    rowsOut (F := Ideal) x (ix3 t r c) = ∑ d : Fin 1024, x (ix3 (⟨50 * t.val + r.val, by omega⟩ : Fin 250) c d) := by
  unfold rowsOut
  show k0_pay1 (F := Ideal) (tableBlock x (⟨t.val, t.isLt⟩ : Fin 5))
      (ix3 (0 : Fin 1) (⟨r.val, r.isLt⟩ : Fin 50) (⟨c.val, c.isLt⟩ : Fin 128)) = _
  unfold k0_pay1
  -- position (0, r, c) of the 1 × 50 × 128 result is position (r, c) of the 50 × 128 sums
  refine (shapeCast_apply _ _ _ (ix2 r c) ?_).trans ?_
  · rw [Shape.rowMajor_val_two, Shape.rowMajor_val_three]
    show r.val * 128 + c.val = (0 * 50 + r.val) * 128 + c.val
    omega
  -- the reduction along the last axis is the sum over its 1024 coordinates
  refine (Ideal.multiReduction_add_single _ _ _ _ _ (ix2 r c)).trans ?_
  show ∑ d : Fin 1024, _ = ∑ d : Fin 1024, _
  refine Finset.sum_congr rfl fun d _ => ?_
  -- the first change of shape changes nothing; the block's group `r` is the table's group `50 t + r`
  refine (congrFun (shapeCast_self _ _) _).trans ?_
  unfold tableBlock
  refine congrArg x (funext fun a => Fin.ext ?_)
  match a with
  | ⟨0, _⟩ => rfl
  | ⟨1, _⟩ => rfl
  | ⟨2, _⟩ => rfl

end Cert.KernelIdeal.Hand

end
-- ==== Proof.RefRun.lean ====
/-
  The reference's run, written out by hand.

  The reference program is a straight line of thirty-five host operations once its three outlined functions are
  put back at their call sites: seven of its own (the positions, the lengths broadcast beside them, the signed
  comparison, the zero), the three of the padding select, the twenty-three of the row lookup (the wrap of a
  negative index by the table's height, the range test of the wrapped index, the gather, the select against the
  fill value), and its last two (the zero and the sum over all three axes). Listed in order, the program is the
  sequence of that list; the run of a sequence ends with every buffer at the fold of the operations' results over
  the launch contents; and the fold at the result buffer is the composition of the operations' functions,
  which is what "refVal" names.
-/
import proofs.«212176_g79912161509532_cont_sun_c4_840_27_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The stages of the composed term -/

/-- The tokens with every position past its sequence's end replaced by zero: position "l" of sequence "b" keeps
    its token when "l", as a signed word, is below the length of "b". -/
def padded (tok : IVec S16x4096 32) (sl : IVec S16 32) : IVec S16x4096 32 :=
  select
    (cmpi .slt
      (broadcastInDim S16x4096 ![0, 1] bcast_S1x4096_S16x4096_0_1 (broadcastInDim S1x4096 ![1] bcast_S4096_S1x4096_1 (iotaInDim S4096 32 0)))
      (broadcastInDim S16x4096 ![0, 1] bcast_S16x1_S16x4096_0_1 (broadcastInDim S16x1 ![0] bcast_S16_S16x1_0 sl)))
    tok
    (broadcastInDim S16x4096 ![] bcast_S_S16x4096 (id (constantI S_ 32 0#32)))

/-- An index with the table's height added when it is negative. -/
def wrapped (p : IVec S16x4096 32) : IVec S16x4096 32 :=
  select (cmpi .slt p (broadcastInDim S16x4096 ![] bcast_S_S16x4096 (constantI S_ 32 0#32)))
    (addi p (broadcastInDim S16x4096 ![] bcast_S_S16x4096 (constantI S_ 32 32000#32)))
    p

/-- The indices as a column of one-component index vectors. -/
def column (w : IVec S16x4096 32) : IVec S16x4096x1 32 :=
  broadcastInDim S16x4096x1 ![0, 1] bcast_S16x4096_S16x4096x1_0_1 w

/-- Which index vectors lie inside the table: every component at least zero and at most the last row. -/
def inRange (k : IVec S16x4096x1 32) : IVec S16x4096 1 :=
  Host.reduce IntOp.andi
    (andi
      (cmpi .sge k (broadcastInDim S16x4096x1 ![] bcast_S_S16x4096x1 (constantI S_ 32 0#32)))
      (cmpi .sle k (broadcastInDim S16x4096x1 ![0, 1, 2] bcast_S1x1x1_S16x4096x1_0_1_2
        (broadcastInDim S1x1x1 ![2] bcast_S1_S1x1x1_2 (constantI S1 32 31999#32)))))
    (constantI S_ 1 1#1) reducesTo_S16x4096x1_S16x4096_d2 h_S_

/-- The rows looked up: the gathered row where the index lies inside the table, the fill value elsewhere. -/
def looked (emb : FVec Ideal S32000x1024 .f32) (k : IVec S16x4096x1 32) : FVec Ideal S16x4096x1024 .f32 :=
  select
    (broadcastInDim S16x4096x1024 ![0, 1] bcast_S16x4096_S16x4096x1024_0_1 (inRange k))
    (Host.gather gather_S32000x1024_S16x4096x1_S16x4096x1024_2_0_n_n_0_2_11024 emb k)
    (broadcastInDim S16x4096x1024 ![] bcast_S_S16x4096x1024 (constant (F := Ideal) S_ .f32 0x7FC00000#32))

/-- The reference's result as the composed pure term of its three arguments (the operations of the program and of
    the functions put back at their call sites, in order). -/
def refVal (tok : IVec S16x4096 32) (sl : IVec S16 32) (emb : FVec Ideal S32000x1024 .f32) : FVec Ideal S_ .f32 :=
  Host.reduceAdd (looked emb (column (wrapped (padded tok sl)))) (constant (F := Ideal) S_ .f32 0x00000000#32)
    reducesTo_S16x4096x1024_S_d0_1_2 h_S_

/-! ## The program as a list of operations -/

section Line

variable {F : FTy → Type} [FloatOps F]

/-- The thirty-five operations, in order, the three functions' bodies at their call sites. -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_arg1 main_v2 (broadcastInDim S16x1 ![0] bcast_S16_S16x1_0 : (⟨S16, .i32⟩ : BufTy).Contents (Elt F) → (⟨S16x1, .i32⟩ : BufTy).Contents (Elt F)),
    unary main_v1 main_v3 (broadcastInDim S16x4096 ![0, 1] bcast_S1x4096_S16x4096_0_1 : (⟨S1x4096, .i32⟩ : BufTy).Contents (Elt F) → (⟨S16x4096, .i32⟩ : BufTy).Contents (Elt F)),
    unary main_v2 main_v4 (broadcastInDim S16x4096 ![0, 1] bcast_S16x1_S16x4096_0_1 : (⟨S16x1, .i32⟩ : BufTy).Contents (Elt F) → (⟨S16x4096, .i32⟩ : BufTy).Contents (Elt F)),
    binary main_v3 main_v4 main_v5 (cmpi .slt : (⟨S16x4096, .i32⟩ : BufTy).Contents (Elt F) → (⟨S16x4096, .i32⟩ : BufTy).Contents (Elt F) → (⟨S16x4096, .i1⟩ : BufTy).Contents (Elt F)),
    nullary main_c (constantI S_ 32 0#32),
    unary main_c main_call0_v0 (id : (⟨S_, .i32⟩ : BufTy).Contents (Elt F) → (⟨S_, .i32⟩ : BufTy).Contents (Elt F)),
    unary main_call0_v0 main_call0_v1 (broadcastInDim S16x4096 ![] bcast_S_S16x4096 : (⟨S_, .i32⟩ : BufTy).Contents (Elt F) → (⟨S16x4096, .i32⟩ : BufTy).Contents (Elt F)),
    ternary main_v5 main_arg0 main_call0_v1 main_v6 (select : (⟨S16x4096, .i1⟩ : BufTy).Contents (Elt F) → (⟨S16x4096, .i32⟩ : BufTy).Contents (Elt F) → (⟨S16x4096, .i32⟩ : BufTy).Contents (Elt F) → (⟨S16x4096, .i32⟩ : BufTy).Contents (Elt F)),
    nullary main_call1_c (constantI S_ 32 0#32 : (⟨S_, .i32⟩ : BufTy).Contents (Elt F)),
    unary main_call1_c main_call1_v0 (broadcastInDim S16x4096 ![] bcast_S_S16x4096 : (⟨S_, .i32⟩ : BufTy).Contents (Elt F) → (⟨S16x4096, .i32⟩ : BufTy).Contents (Elt F)),
    binary main_v6 main_call1_v0 main_call1_v1 (cmpi .slt : (⟨S16x4096, .i32⟩ : BufTy).Contents (Elt F) → (⟨S16x4096, .i32⟩ : BufTy).Contents (Elt F) → (⟨S16x4096, .i1⟩ : BufTy).Contents (Elt F)),
    nullary main_call1_c_0 (constantI S_ 32 32000#32 : (⟨S_, .i32⟩ : BufTy).Contents (Elt F)),
    unary main_call1_c_0 main_call1_v2 (broadcastInDim S16x4096 ![] bcast_S_S16x4096 : (⟨S_, .i32⟩ : BufTy).Contents (Elt F) → (⟨S16x4096, .i32⟩ : BufTy).Contents (Elt F)),
    binary main_v6 main_call1_v2 main_call1_v3 (addi : (⟨S16x4096, .i32⟩ : BufTy).Contents (Elt F) → (⟨S16x4096, .i32⟩ : BufTy).Contents (Elt F) → (⟨S16x4096, .i32⟩ : BufTy).Contents (Elt F)),
    ternary main_call1_v1 main_call1_v3 main_v6 main_call1_v4 (select : (⟨S16x4096, .i1⟩ : BufTy).Contents (Elt F) → (⟨S16x4096, .i32⟩ : BufTy).Contents (Elt F) → (⟨S16x4096, .i32⟩ : BufTy).Contents (Elt F) → (⟨S16x4096, .i32⟩ : BufTy).Contents (Elt F)),
    unary main_call1_v4 main_call1_v5 (broadcastInDim S16x4096x1 ![0, 1] bcast_S16x4096_S16x4096x1_0_1 : (⟨S16x4096, .i32⟩ : BufTy).Contents (Elt F) → (⟨S16x4096x1, .i32⟩ : BufTy).Contents (Elt F)),
    nullary main_call1_c_1 (constantI S1 32 31999#32 : (⟨S1, .i32⟩ : BufTy).Contents (Elt F)),
    nullary main_call1_c_2 (constantI S_ 32 0#32 : (⟨S_, .i32⟩ : BufTy).Contents (Elt F)),
    unary main_call1_c_2 main_call1_v6 (broadcastInDim S16x4096x1 ![] bcast_S_S16x4096x1 : (⟨S_, .i32⟩ : BufTy).Contents (Elt F) → (⟨S16x4096x1, .i32⟩ : BufTy).Contents (Elt F)),
    binary main_call1_v5 main_call1_v6 main_call1_v7 (cmpi .sge : (⟨S16x4096x1, .i32⟩ : BufTy).Contents (Elt F) → (⟨S16x4096x1, .i32⟩ : BufTy).Contents (Elt F) → (⟨S16x4096x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S16x4096x1 ![0, 1, 2] bcast_S1x1x1_S16x4096x1_0_1_2 : (⟨S1x1x1, .i32⟩ : BufTy).Contents (Elt F) → (⟨S16x4096x1, .i32⟩ : BufTy).Contents (Elt F)),
    binary main_call1_v5 main_call1_v9 main_call1_v10 (cmpi .sle : (⟨S16x4096x1, .i32⟩ : BufTy).Contents (Elt F) → (⟨S16x4096x1, .i32⟩ : BufTy).Contents (Elt F) → (⟨S16x4096x1, .i1⟩ : BufTy).Contents (Elt F)),
    binary main_call1_v7 main_call1_v10 main_call1_v11 (andi : (⟨S16x4096x1, .i1⟩ : BufTy).Contents (Elt F) → (⟨S16x4096x1, .i1⟩ : BufTy).Contents (Elt F) → (⟨S16x4096x1, .i1⟩ : BufTy).Contents (Elt F)),
    nullary main_call1_c_3 (constantI S_ 1 1#1 : (⟨S_, .i1⟩ : BufTy).Contents (Elt F)),
    binary main_call1_v11 main_call1_c_3 main_call1_v12 (fun x v => Host.reduce IntOp.andi x v reducesTo_S16x4096x1_S16x4096_d2 h_S_ : (⟨S16x4096x1, .i1⟩ : BufTy).Contents (Elt F) → (⟨S_, .i1⟩ : BufTy).Contents (Elt F) → (⟨S16x4096, .i1⟩ : BufTy).Contents (Elt F)),
    binary main_arg2 main_call1_v5 main_call1_v13 (fun x i => Host.gather gather_S32000x1024_S16x4096x1_S16x4096x1024_2_0_n_n_0_2_11024 x i : (⟨S32000x1024, .f32⟩ : BufTy).Contents (Elt F) → (⟨S16x4096x1, .i32⟩ : BufTy).Contents (Elt F) → (⟨S16x4096x1024, .f32⟩ : BufTy).Contents (Elt F)),
    unary main_call1_v12 main_call1_v14 (broadcastInDim S16x4096x1024 ![0, 1] bcast_S16x4096_S16x4096x1024_0_1 : (⟨S16x4096, .i1⟩ : BufTy).Contents (Elt F) → (⟨S16x4096x1024, .i1⟩ : BufTy).Contents (Elt F)),
    nullary main_call1_cst (constant S_ .f32 0x7FC00000#32 : (⟨S_, .f32⟩ : BufTy).Contents (Elt F)),
    unary main_call1_cst main_call1_v15 (broadcastInDim S16x4096x1024 ![] bcast_S_S16x4096x1024 : (⟨S_, .f32⟩ : BufTy).Contents (Elt F) → (⟨S16x4096x1024, .f32⟩ : BufTy).Contents (Elt F)),
    ternary main_call1_v14 main_call1_v13 main_call1_v15 main_v7 (select : (⟨S16x4096x1024, .i1⟩ : BufTy).Contents (Elt F) → (⟨S16x4096x1024, .f32⟩ : BufTy).Contents (Elt F) → (⟨S16x4096x1024, .f32⟩ : BufTy).Contents (Elt F) → (⟨S16x4096x1024, .f32⟩ : BufTy).Contents (Elt F)),
    nullary main_cst (constant S_ .f32 0x00000000#32),
    binary main_v7 main_cst main_v8 ((fun x v => Host.reduceAdd x v reducesTo_S16x4096x1024_S_d0_1_2 h_S_) : (⟨S16x4096x1024, .f32⟩ : BufTy).Contents (Elt F) → (⟨S_, .f32⟩ : BufTy).Contents (Elt F) → (⟨S_, .f32⟩ : BufTy).Contents (Elt F)) ]

/-- The same thirty-five operations as the program spells them: those of the three functions over typed references
    (each a transport of the function along an equation of buffer types that is the identity at these literal references). -/
abbrev opsT : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_arg1 main_v2 (broadcastInDim S16x1 ![0] bcast_S16_S16x1_0 : (⟨S16, .i32⟩ : BufTy).Contents (Elt F) → (⟨S16x1, .i32⟩ : BufTy).Contents (Elt F)),
    unary main_v1 main_v3 (broadcastInDim S16x4096 ![0, 1] bcast_S1x4096_S16x4096_0_1 : (⟨S1x4096, .i32⟩ : BufTy).Contents (Elt F) → (⟨S16x4096, .i32⟩ : BufTy).Contents (Elt F)),
    unary main_v2 main_v4 (broadcastInDim S16x4096 ![0, 1] bcast_S16x1_S16x4096_0_1 : (⟨S16x1, .i32⟩ : BufTy).Contents (Elt F) → (⟨S16x4096, .i32⟩ : BufTy).Contents (Elt F)),
    binary main_v3 main_v4 main_v5 (cmpi .slt : (⟨S16x4096, .i32⟩ : BufTy).Contents (Elt F) → (⟨S16x4096, .i32⟩ : BufTy).Contents (Elt F) → (⟨S16x4096, .i1⟩ : BufTy).Contents (Elt F)),
    nullary main_c (constantI S_ 32 0#32),
    TRef.unary (.of main_c : TRef sig ⟨S_, .i32⟩) main_call0.v0 id,
    TRef.unary main_call0.v0 main_call0.v1 (broadcastInDim S16x4096 ![] bcast_S_S16x4096),
    TRef.ternary (.of main_v5 : TRef sig ⟨S16x4096, .i1⟩) (.of main_arg0 : TRef sig ⟨S16x4096, .i32⟩) main_call0.v1 main_call0.v2 select,
    TRef.nullary main_call1.c (constantI S_ 32 0#32),
    TRef.unary main_call1.c main_call1.v0 (broadcastInDim S16x4096 ![] bcast_S_S16x4096),
    TRef.binary (.of main_v6 : TRef sig ⟨S16x4096, .i32⟩) main_call1.v0 main_call1.v1 (cmpi .slt),
    TRef.nullary main_call1.c_0 (constantI S_ 32 32000#32),
    TRef.unary main_call1.c_0 main_call1.v2 (broadcastInDim S16x4096 ![] bcast_S_S16x4096),
    TRef.binary (.of main_v6 : TRef sig ⟨S16x4096, .i32⟩) main_call1.v2 main_call1.v3 addi,
    TRef.ternary main_call1.v1 main_call1.v3 (.of main_v6 : TRef sig ⟨S16x4096, .i32⟩) main_call1.call0.v0 select,
    TRef.unary main_call1.call0.v0 main_call1.v5 (broadcastInDim S16x4096x1 ![0, 1] bcast_S16x4096_S16x4096x1_0_1),
    TRef.nullary main_call1.c_1 (constantI S1 32 31999#32),
    TRef.nullary main_call1.c_2 (constantI S_ 32 0#32),
    TRef.unary main_call1.c_2 main_call1.v6 (broadcastInDim S16x4096x1 ![] bcast_S_S16x4096x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16x4096x1 ![0, 1, 2] bcast_S1x1x1_S16x4096x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16x4096x1_S16x4096_d2 h_S_),
    TRef.binary (.of main_arg2 : TRef sig ⟨S32000x1024, .f32⟩) main_call1.v5 main_call1.v13 (fun x i => Host.gather gather_S32000x1024_S16x4096x1_S16x4096x1024_2_0_n_n_0_2_11024 x i),
    TRef.unary main_call1.v12 main_call1.v14 (broadcastInDim S16x4096x1024 ![0, 1] bcast_S16x4096_S16x4096x1024_0_1),
    TRef.nullary main_call1.cst (constant S_ .f32 0x7FC00000#32),
    TRef.unary main_call1.cst main_call1.v15 (broadcastInDim S16x4096x1024 ![] bcast_S_S16x4096x1024),
    TRef.ternary main_call1.v14 main_call1.v13 main_call1.v15 main_call1.v16 select,
    nullary main_cst (constant S_ .f32 0x00000000#32),
    binary main_v7 main_cst main_v8 ((fun x v => Host.reduceAdd x v reducesTo_S16x4096x1024_S_d0_1_2 h_S_) : (⟨S16x4096x1024, .f32⟩ : BufTy).Contents (Elt F) → (⟨S_, .f32⟩ : BufTy).Contents (Elt F) → (⟨S_, .f32⟩ : BufTy).Contents (Elt F)) ]

attribute [local irreducible] Host.reduce Host.gather Host.reduceAdd in
/-- The typed spelling is the plain one: operation by operation, the transports are the identity. -/
theorem opsT_eq : (opsT : List (HloOp τ sig (Elt F))) = ops := rfl

set_option maxRecDepth 1024 in
/-- The program is that straight line: the functions' definitions unfolded at their calls, both sides are one chain
    of steps once the sequencing is reassociated. -/
theorem main_eq (c : Dev nD) : main (F := F) c = seq ops := by
  rw [← opsT_eq]
  simp only [main, fn_where.body, fn_where_0.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation names buffers of the TensorCore only. -/
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub ..⟩

/-- Every weakly fair execution of the program terminates with each buffer at the fold of the operations' results
    over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-! ## The fold at the result and at the arguments -/

attribute [local irreducible] Host.reduce Host.gather Host.reduceAdd in
set_option maxRecDepth 8192 in
/-- The fold at the result buffer is the composed term: each operation's result decides whether the buffer read is
    the one it writes, and the typed references' transports are the identity at these literal references. -/
theorem out_eq (V : Valuation τ sig (Elt Ideal)) :
    after (ops (F := Ideal)) V (main_v8 : DevRef τ sig)
      = refVal (V (main_arg0 : DevRef τ sig)) (V (main_arg1 : DevRef τ sig)) (V (main_arg2 : DevRef τ sig)) := by
  after_results_simp
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

/-- From any memory with zero counters, every weakly fair execution of the reference terminates with its result at
    the composed term of its three arguments, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v8)
          = refVal (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v8).trans (out_eq _), (h c main_arg0).trans (arg0_eq _),
      (h c main_arg1).trans (arg1_eq _), (h c main_arg2).trans (arg2_eq _)⟩)
    (run_fold m g)

end Cert.ReferenceIdeal.Hand

end
-- ==== Proof.RefIndex.lean ====
/-
  Three general facts the reading of the reference rests on, none of them about a program.

  A sum over a rank-3 index set is the triple sum over its coordinates. A lookup of whole rows — a gather of a table
  of "N" rows of "W" entries at an "R" by "C" array of one-component start indices, the result "R" by "C" by "W" —
  reads, at position (r, c) and entry k, entry k of the table's row named by the start index there, read as a signed
  integer and clamped into the table. And a left fold by "and" over one-bit words that are all 1, from 1, is 1.
-/
import Idealize.ShloMosaic.PureOps.Ideal
import Idealize.ShloMosaic.Lib.ValueIdx

noncomputable section

open scoped BigOperators

namespace Cert.RowTake

open Idealize.ShloMosaic Idealize.ShloMosaic.ValueIdx

/-! ## A rank-3 sum by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## A lookup of whole rows read at an index -/

variable {α : Type}

/-- The dimension numbers of the lookup: the table's axis 0 collapsed and named by the start index's one component,
    the start indices' last axis the index vector's, the result's last axis the row's entries. -/
abbrev rowTakeDims (N R C W : Nat)
    (wf : GatherDims.WF ⟨2, ![N, W]⟩ ⟨3, ![R, C, 1]⟩ ⟨3, ![R, C, W]⟩ [2] [0] [] [0] [] 2 ![1, W]) :
    GatherDims ⟨2, ![N, W]⟩ ⟨3, ![R, C, 1]⟩ ⟨3, ![R, C, W]⟩ where
  offsetDims := [2]
  collapsedSliceDims := [0]
  operandBatchingDims := []
  startIndicesBatchingDims := []
  startIndexMap := [0]
  indexVectorDim := 2
  sliceSizes := ![1, W]
  wf := wf

/-- The row a start-index word names: the word read signed, clamped into the table's "N" rows. -/
def rowOf (N : Nat) (hN : 0 < N) {w : Nat} (b : BitVec w) : Fin N := ⟨min b.toInt.toNat (N - 1), by omega⟩

/-- The lookup read at (r, c, k): entry k of the table's row named by the start index at (r, c). -/
theorem gather_rowTake_apply {N R C W w : Nat} (hN : 0 < N)
    (wf : GatherDims.WF ⟨2, ![N, W]⟩ ⟨3, ![R, C, 1]⟩ ⟨3, ![R, C, W]⟩ [2] [0] [] [0] [] 2 ![1, W])
    (x : (⟨2, ![N, W]⟩ : Shape).Idx → α) (idx : IVec ⟨3, ![R, C, 1]⟩ w) (r : Fin R) (c : Fin C) (k : Fin W) :
    Host.gather (rowTakeDims N R C W wf) x idx (ix3 r c k) = x (ix2 (rowOf N hN (idx (ix3 r c 0))) k) := by
  show x ((rowTakeDims N R C W wf).operandIdx (ix3 r c k) idx) = _
  refine congrArg x (funext fun a => Fin.ext ?_)
  match a with
  | ⟨0, _⟩ =>
    have hsi : (rowTakeDims N R C W wf).siIdx (ix3 r c k) ⟨0, Nat.one_pos⟩ = ix3 r c 0 := by
      funext b; refine Fin.ext ?_
      match b with
      | ⟨0, _⟩ => rfl
      | ⟨1, _⟩ => rfl
      | ⟨2, _⟩ => rfl
    show (rowTakeDims N R C W wf).start (ix3 r c k) idx 0 + (rowTakeDims N R C W wf).batchCoord (ix3 r c k) 0
      + (rowTakeDims N R C W wf).offCoord (ix3 r c k) 0 = min (idx (ix3 r c 0)).toInt.toNat (N - 1)
    rw [← hsi]
    rfl
  | ⟨1, _⟩ =>
    have hmap : (1 : Fin 2) ∉ (rowTakeDims N R C W wf).startIndexMap :=
      show (1 : Fin 2) ∉ ([0] : List (Fin 2)) by decide
    have hkept : (1 : Fin 2) ∈ (rowTakeDims N R C W wf).sKept :=
      (GatherDims.mem_sKept _ _).mpr ⟨show (1 : Fin 2) ∉ ([0] : List (Fin 2)) by decide, List.not_mem_nil⟩
    show (rowTakeDims N R C W wf).start (ix3 r c k) idx 1 + (rowTakeDims N R C W wf).batchCoord (ix3 r c k) 1
      + (rowTakeDims N R C W wf).offCoord (ix3 r c k) 1 = k.val
    unfold GatherDims.start GatherDims.offCoord
    rw [dif_neg hmap, GatherDims.batchCoord_eq_zero _ _ _ List.not_mem_nil, dif_pos hkept, Nat.zero_add]
    rfl

/-! ## A fold by "and" over ones -/

/-- A left fold by "and" from 1 over words that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all_one f hf l

end Cert.RowTake

end
-- ==== Proof.RefReads.lean ====
/-
  The stages of the reference's composed term, each read at an index.

  With every token naming a row of the table (a word whose value is below 32000): the padded tokens at position "l"
  of sequence "b" are the token there inside the sequence and the zero word past its end; a word below 32000 is not
  negative as a signed word, so the wrap of negative indices leaves it alone; as a column of one-component index
  vectors the indices are the same words; each of them is at least zero and at most 31999, so the range test is 1
  everywhere and the select never takes the fill value; and the lookup reads, at (b, l, d), entry "d" of the table's
  row named by the padded token.
-/
import proofs.«212176_g79912161509532_cont_sun_c4_840_27_alg».proof.Proof.RefRun
import proofs.«212176_g79912161509532_cont_sun_c4_840_27_alg».proof.Proof.RefIndex
import proofs.«212176_g79912161509532_cont_sun_c4_840_27_alg».proof.Proof.Spec
import Idealize.ShloMosaic.Lib.IdealHost
import Idealize.ShloMosaic.Lib.Pipeline.Value
import Idealize.ShloMosaic.Lib.ReduceAll

noncomputable section

namespace Cert.ReferenceIdeal.Hand

open Cert.ReferenceIdeal Cert.ReferenceIdeal.Gen Idealize.ShloMosaic Idealize.ShloMosaic.ValueIdx Cert.RowTake

/-! ## Words -/

/-- A select on a decided bit. -/
theorem select_ofBool {α : Type} (t : Bool) (a b : α) : Scalar.select (BitVec.ofBool t) a b = if t then a else b := by
  cases t
  · exact select_zero a b
  · exact select_one a b

/-- A 32-bit word below 2³¹ read as a signed integer is its value. -/
theorem toInt_of_small (x : BitVec 32) (hx : x.toNat < 32000) : x.toInt = (x.toNat : ℤ) :=
  BitVec.toInt_eq_toNat_of_lt (by omega)

/-- The wrap of negative indices leaves a word below 32000 alone. -/
theorem wrap_of_small (x : BitVec 32) (hx : x.toNat < 32000) :
    Scalar.select (IntOp.cmpi .slt x 0#32) (IntOp.addi x 32000#32) x = x := by
  have h : x.slt 0#32 = false := by
    rw [BitVec.slt_eq_decide, toInt_of_small x hx, BitVec.toInt_zero]
    exact decide_eq_false (by omega)
  show Scalar.select (BitVec.ofBool (x.slt 0#32)) _ _ = _
  rw [h]
  exact select_zero _ _

/-- A word below 32000 passes the range test: it is at least zero and at most 31999 as a signed word. -/
theorem range_of_small (x : BitVec 32) (hx : x.toNat < 32000) :
    IntOp.andi (IntOp.cmpi .sge x 0#32) (IntOp.cmpi .sle x 31999#32) = 1#1 := by
  have h0 : IntOp.cmpi .sge x 0#32 = 1#1 := by
    rw [IntOp.cmpi_sge, toInt_of_small x hx, BitVec.toInt_zero]; omega
  have h1 : IntOp.cmpi .sle x 31999#32 = 1#1 := by
    rw [IntOp.cmpi_sle, toInt_of_small x hx, show (31999#32 : BitVec 32).toInt = 31999 by decide]; omega
  rw [h0, h1]; rfl

/-- The row a word below 32000 names, after clamping, is its value. -/
theorem rowOf_of_small (x : BitVec 32) (hx : x.toNat < 32000) : rowOf 32000 (by decide) x = ⟨x.toNat, hx⟩ := by
  refine Fin.ext ?_
  show min x.toInt.toNat (32000 - 1) = x.toNat
  rw [toInt_of_small x hx]; omega

/-! ## The padded tokens -/

/-- The padded token at position "l" of sequence "b", as a word. -/
def padWord (tok : IVec S16x4096 32) (sl : IVec S16 32) (b : Fin 16) (l : Fin 4096) : BitVec 32 :=
  if Cert.Spec.live sl b l then tok (ix2 b l) else 0#32

theorem padWord_toNat (tok : IVec S16x4096 32) (sl : IVec S16 32) (b : Fin 16) (l : Fin 4096) :
    (padWord tok sl b l).toNat = Cert.Spec.padTok tok sl b l := by
  unfold padWord Cert.Spec.padTok
  split <;> rfl

/-- The positions broadcast over the sequences, at (b, l): the word of "l". -/
theorem positions_apply (b : Fin 16) (l : Fin 4096) :
    broadcastInDim S16x4096 ![0, 1] bcast_S1x4096_S16x4096_0_1
      (broadcastInDim S1x4096 ![1] bcast_S4096_S1x4096_1 (iotaInDim S4096 32 0)) (ix2 b l) = BitVec.ofNat 32 l.val := by
  refine (broadcastInDim_apply _ _ _ (ix2 b l) (ix2 (0 : Fin 1) l)
    (fun a => match a with | ⟨0, _⟩ => rfl | ⟨1, _⟩ => rfl)).trans ?_
  exact broadcastInDim_apply _ _ _ (ix2 (0 : Fin 1) l) (ix1 l) (fun a => match a with | ⟨0, _⟩ => rfl)

/-- The lengths broadcast over the positions, at (b, l): the length of "b". -/
theorem lengths_apply (sl : IVec S16 32) (b : Fin 16) (l : Fin 4096) :
    broadcastInDim S16x4096 ![0, 1] bcast_S16x1_S16x4096_0_1
      (broadcastInDim S16x1 ![0] bcast_S16_S16x1_0 sl) (ix2 b l) = sl (ix1 b) := by
  refine (broadcastInDim_apply _ _ _ (ix2 b l) (ix2 b (0 : Fin 1))
    (fun a => match a with | ⟨0, _⟩ => rfl | ⟨1, _⟩ => rfl)).trans ?_
  exact broadcastInDim_apply _ _ _ (ix2 b (0 : Fin 1)) (ix1 b) (fun a => match a with | ⟨0, _⟩ => rfl)

/-- The padded tokens read at (b, l). -/
theorem padded_apply (tok : IVec S16x4096 32) (sl : IVec S16 32) (b : Fin 16) (l : Fin 4096) :
    padded tok sl (ix2 b l) = padWord tok sl b l := by
  unfold padded padWord Cert.Spec.live
  rw [select_apply]
  show Scalar.select (IntOp.cmpi .slt _ _) _ _ = _
  rw [positions_apply, lengths_apply, broadcastInDim_scalar_apply]
  exact select_ofBool _ _ _

/-! ## The wrap, the column, the range test -/

/-- The wrapped index at (b, l), where the index there is below 32000: the index itself. -/
theorem wrapped_apply (p : IVec S16x4096 32) (b : Fin 16) (l : Fin 4096) (hp : (p (ix2 b l)).toNat < 32000) :
    wrapped p (ix2 b l) = p (ix2 b l) := by
  unfold wrapped
  rw [select_apply]
  show Scalar.select (IntOp.cmpi .slt (p (ix2 b l)) _) (IntOp.addi (p (ix2 b l)) _) _ = _
  rw [broadcastInDim_scalar_apply, broadcastInDim_scalar_apply]
  exact wrap_of_small _ hp

/-- The column of index vectors at (b, l, e): the index at (b, l). -/
theorem column_apply (w : IVec S16x4096 32) (b : Fin 16) (l : Fin 4096) (e : Fin 1) :
    column w (ix3 b l e) = w (ix2 b l) :=
  broadcastInDim_apply _ _ _ (ix3 b l e) (ix2 b l) (fun a => match a with | ⟨0, _⟩ => rfl | ⟨1, _⟩ => rfl)

/-- The range test is 1 everywhere when every index vector's component is below 32000. -/
theorem inRange_of_small (k : IVec S16x4096x1 32) (hk : ∀ i, (k i).toNat < 32000) (j : S16x4096.Idx) :
    inRange k j = 1#1 := by
  unfold inRange
  rw [Host.reduce_eq_foldl]
  refine foldl_andi_of_all_one _ (fun i => ?_) _
  show IntOp.andi (IntOp.cmpi .sge (k i) _) (IntOp.cmpi .sle (k i) _) = 1#1
  rw [broadcastInDim_scalar_apply]
  exact range_of_small _ (hk i)

/-! ## The lookup -/

/-- The index vectors of the reference: the padded tokens, wrapped, as a column. -/
def indices (tok : IVec S16x4096 32) (sl : IVec S16 32) : IVec S16x4096x1 32 := column (wrapped (padded tok sl))

/-- With every token naming a row, the index vector at (b, l, e) is the padded token. -/
theorem indices_apply (tok : IVec S16x4096 32) (sl : IVec S16 32) (h : Cert.Spec.TokInRange tok)
    (b : Fin 16) (l : Fin 4096) (e : Fin 1) : indices tok sl (ix3 b l e) = padWord tok sl b l := by
  unfold indices
  rw [column_apply, wrapped_apply _ _ _ (by rw [padded_apply, padWord_toNat]; exact Cert.Spec.padTok_lt h sl b l),
    padded_apply]

theorem indices_small (tok : IVec S16x4096 32) (sl : IVec S16 32) (h : Cert.Spec.TokInRange tok)
    (i : S16x4096x1.Idx) : (indices tok sl i).toNat < 32000 := by
  obtain ⟨b, l, e, rfl⟩ : ∃ (b : Fin 16) (l : Fin 4096) (e : Fin 1), i = ix3 b l e := ⟨i 0, i 1, i 2, eq_ix3 i⟩
  rw [indices_apply tok sl h, padWord_toNat]
  exact Cert.Spec.padTok_lt h sl b l

/-- With every token naming a row, the rows looked up at (b, l, d): entry "d" of the row named by the padded token. -/
theorem looked_apply (tok : IVec S16x4096 32) (sl : IVec S16 32) (emb : FVec Ideal S32000x1024 .f32)
    (h : Cert.Spec.TokInRange tok) (b : Fin 16) (l : Fin 4096) (d : Fin 1024) :
    looked emb (indices tok sl) (ix3 b l d)
      = emb (ix2 (⟨Cert.Spec.padTok tok sl b l, Cert.Spec.padTok_lt h sl b l⟩ : Fin 32000) d) := by
  unfold looked
  rw [select_apply]
  have hm : broadcastInDim S16x4096x1024 ![0, 1] bcast_S16x4096_S16x4096x1024_0_1 (inRange (indices tok sl)) (ix3 b l d) = 1#1 :=
    (broadcastInDim_apply _ _ _ (ix3 b l d) (ix2 b l) (fun a => match a with | ⟨0, _⟩ => rfl | ⟨1, _⟩ => rfl)).trans
      (inRange_of_small _ (indices_small tok sl h) _)
  rw [hm, select_one]
  refine (gather_rowTake_apply (N := 32000) (R := 16) (C := 4096) (W := 1024) (by decide)
    gather_S32000x1024_S16x4096x1_S16x4096x1024_2_0_n_n_0_2_11024_wf emb (indices tok sl) b l d).trans ?_
  rw [indices_apply tok sl h, rowOf_of_small _ (by rw [padWord_toNat]; exact Cert.Spec.padTok_lt h sl b l)]
  exact congrArg (fun n => emb (ix2 n d)) (Fin.ext (padWord_toNat tok sl b l))

end Cert.ReferenceIdeal.Hand

end
-- ==== Proof.RefValue.lean ====
/-
  The reference's value.

  The last operation of the reference sums the rows looked up over all three axes, from zero. A sum into the shape
  with no axes is the sum over every index of the source; a sum over a rank-3 index set is the triple sum over its
  coordinates; at (b, l, d) the source is entry "d" of the table's row named by the padded token of position "l" of
  sequence "b"; and the sum of that row's entries over "d" is the row's sum. Zero plus the total is the total: only
  the shape of the sum is used, never that an entry is finite.
-/
import proofs.«212176_g79912161509532_cont_sun_c4_840_27_alg».proof.Proof.RefReads
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Cert.RowTake

/-- With every token naming a row of the table, the reference's result is the total of the looked-up rows' sums. -/
theorem refVal_eq (tok : IVec Cert.Spec.Toks 32) (sl : IVec Cert.Spec.Lens 32) (emb : FVec Ideal Cert.Spec.Table .f32)
    (h : Cert.Spec.TokInRange tok) :
    refVal tok sl emb = fun _ => Cert.Spec.total tok sl emb := by
  funext j
  show Host.reduceAdd (looked emb (indices tok sl)) (constant (F := Ideal) S_ .f32 0x00000000#32)
    reducesTo_S16x4096x1024_S_d0_1_2 h_S_ j = _
  rw [hostReduceAdd_apply, Ideal.hostReduceAdd_total _ (fun b => b.elim0), constant_apply, Ideal.ofBits_zero_f32, zero_add,
    sum_idx3]
  unfold Cert.Spec.total
  refine Finset.sum_congr rfl fun b _ => Finset.sum_congr rfl fun l _ => ?_
  unfold Cert.Spec.rowSum
  rw [dif_pos (Cert.Spec.padTok_lt h sl b l)]
  exact Finset.sum_congr rfl fun d _ => looked_apply tok sl emb h b l d

end Cert.ReferenceIdeal.Hand

end
-- ==== Proof.PreDecode.lean ====
/-
  From the precondition to "every token names a row of the table".

  The precondition is the conjunction of three statements about the argument arrays, each an "all" over one array:
  every entry of the table is finite; every token `v` has `0 ≤ v` and `v ≤ 31999` as a signed 32-bit word; every
  length lies between 1 and 4096. Only the middle one is used here. A conjunction of one-bit words that is 1 has
  both its members 1; an "all" that is 1 has a 1 at every index; and a signed word `v` with `0 ≤ v ≤ 31999` has its
  top bit clear, so that read unsigned it is the same number, below 32000.
-/
import proofs.«212176_g79912161509532_cont_sun_c4_840_27_alg».proof.Pre_input_domain
import proofs.«212176_g79912161509532_cont_sun_c4_840_27_alg».proof.Proof.Gen.Pre_input_domain
import proofs.«212176_g79912161509532_cont_sun_c4_840_27_alg».proof.Proof.Spec
import Idealize.ShloMosaic.Lib.ReduceAll

namespace Cert.Spec

open Idealize.ShloMosaic Idealize.ShloMosaic.ValueIdx

/-- A signed 32-bit word that is at least 0 and at most 31999 reads, unsigned, below 32000. -/
theorem toNat_lt_of_signed_range (v : BitVec 32)
    (e : IntOp.andi (IntOp.cmpi .sge v 0#32) (IntOp.cmpi .sle v 31999#32) = 1#1) : v.toNat < 32000 := by
  obtain ⟨h0, h1⟩ := IntOp.andi_eq_one.1 e
  rw [IntOp.cmpi_sge, show (0#32 : BitVec 32).toInt = 0 from by decide] at h0
  rw [IntOp.cmpi_sle, show (31999#32 : BitVec 32).toInt = 31999 from by decide] at h1
  rw [BitVec.toInt_eq_toNat_cond] at h0 h1
  have hv := v.isLt
  split at h0 <;> omega

/-- The scalar shape has one index. -/
instance : Subsingleton Cert.Pre_input_domain.S_.Idx := ⟨fun a b => funext fun d => d.elim0⟩

/-- Under the precondition every token names a row of the table. -/
theorem tokInRange_of_pre {F : FTy → Type} [FloatOps F] (tok : IVec Toks 32) (sl : IVec Lens 32) (emb : FVec F Table .f32)
    (h : Cert.Pre_input_domain.fn (F := F) tok sl emb = fun _ => 1#1) : TokInRange tok := by
  intro b l
  have e := congrFun h ix0
  dsimp only [Cert.Pre_input_domain.fn, Cert.Pre_input_domain.fn_part1, andi] at e
  obtain ⟨e1, -⟩ := IntOp.andi_eq_one.1 e
  obtain ⟨-, e2⟩ := IntOp.andi_eq_one.1 e1
  have e3 := Host.reduce_andi_all _ _ _ _ _ e2 (ix2 b l)
  dsimp only [andi, cmpi, constantI, broadcastInDim] at e3
  exact toNat_lt_of_signed_range _ e3

end Cert.Spec
-- ==== Proof.Claims.lean ====
/-
  The five claims.

  The kernel program's run (Run.lean, once per printed program) ends with the result at the last stage's value and the
  three arguments as launched; the reference's run (RefRun.lean) ends with its result at its composed term and its
  arguments as launched. The frames are those runs with the values dropped. At the ideal instance the kernel's last
  stage is the total over every sequence and position of the looked-up row's sum (KernelValue.lean), and so is the
  reference's term (RefValue.lean): both need only that every token names a row of the table, which the precondition
  says (PreDecode.lean). The idealization rewrote no operation, so there is nothing for it to preserve.
-/
import proofs.«212176_g79912161509532_cont_sun_c4_840_27_alg».proof.Defs
import proofs.«212176_g79912161509532_cont_sun_c4_840_27_alg».proof.Proof.Run
import proofs.«212176_g79912161509532_cont_sun_c4_840_27_alg».proof.Proof.Word.Run
import proofs.«212176_g79912161509532_cont_sun_c4_840_27_alg».proof.Proof.KernelReads
import proofs.«212176_g79912161509532_cont_sun_c4_840_27_alg».proof.Proof.Word.KernelReads
import proofs.«212176_g79912161509532_cont_sun_c4_840_27_alg».proof.Proof.KernelValue
import proofs.«212176_g79912161509532_cont_sun_c4_840_27_alg».proof.Proof.RegionValue
import proofs.«212176_g79912161509532_cont_sun_c4_840_27_alg».proof.Proof.RefValue
import proofs.«212176_g79912161509532_cont_sun_c4_840_27_alg».proof.Proof.PreDecode
import proofs.«212176_g79912161509532_cont_sun_c4_840_27_alg».proof.Proof.Gen.Kernel
import proofs.«212176_g79912161509532_cont_sun_c4_840_27_alg».proof.Proof.Gen.KernelIdeal
import proofs.«212176_g79912161509532_cont_sun_c4_840_27_alg».proof.Proof.Gen.ReferenceIdeal
import proofs.«212176_g79912161509532_cont_sun_c4_840_27_alg».proof.Proof.Gen.Pre_input_domain

noncomputable section

namespace Cert.Proof.Claims

open Idealize.ShloMosaic Idealize.SL.Sem

/-- Under the precondition every token of the word-level program's launch memory names a row of the table. -/
theorem tokens_k (m : (ℓ : Loc Cert.Kernel.nD Cert.Kernel.τ Cert.Kernel.sig) → Buf (Elt Bits) ℓ) (h : Cert.Pre_Kernel m) :
    ∀ d : Dev Cert.Kernel.nD, Cert.Spec.TokInRange (m (d, Cert.Kernel.Hand.a0')) :=
  fun d => Cert.Spec.tokInRange_of_pre (F := Bits) _ _ _ (h d)

/-- The same of the idealized program's. -/
theorem tokens_ki (m : (ℓ : Loc Cert.KernelIdeal.nD Cert.KernelIdeal.τ Cert.KernelIdeal.sig) → Buf (Elt Ideal) ℓ) (h : Cert.Pre_KernelIdeal m) :
    ∀ d : Dev Cert.KernelIdeal.nD, Cert.Spec.TokInRange (m (d, Cert.KernelIdeal.Hand.a0')) :=
  fun d => Cert.Spec.tokInRange_of_pre (F := Ideal) _ _ _ (h d)

theorem frame_k : Cert.frame_Kernel := fun m ρ hpre =>
  (θ_run Cert.Kernel.defs _ _).mono
    (fun _ h c => ⟨(h c).2.1.trans (Cert.Kernel.Hand.W5_arg0 m c), (h c).2.2.1.trans (Cert.Kernel.Hand.W5_arg1 m c),
      (h c).2.2.2.trans (Cert.Kernel.Hand.W5_arg2 m c)⟩)
    (Cert.Kernel.Hand.run_main (F := Bits) m ρ (Cert.Kernel.Hand.tokOK_of_range m (tokens_k m hpre)))

theorem frame_ki : Cert.frame_KernelIdeal := fun m ρ hpre =>
  (θ_run Cert.KernelIdeal.defs _ _).mono
    (fun _ h c => ⟨(h c).2.1.trans (Cert.KernelIdeal.Hand.W5_arg0 m c), (h c).2.2.1.trans (Cert.KernelIdeal.Hand.W5_arg1 m c),
      (h c).2.2.2.trans (Cert.KernelIdeal.Hand.W5_arg2 m c)⟩)
    (Cert.KernelIdeal.Hand.run_main (F := Ideal) m ρ (Cert.KernelIdeal.Hand.tokOK_of_range m (tokens_ki m hpre)))

theorem frame_ri : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- Both programs end at the total of the looked-up rows' sums. -/
theorem algebraic : Cert.algebraic_KernelIdeal_ReferenceIdeal := by
  intro m ρ m' ρ' hpre hagree
  refine ⟨fun c => Cert.KernelIdeal.Hand.W5 (F := Ideal) m c Cert.KernelIdeal.Hand.v5', ?_, ?_⟩
  · exact (θ_run Cert.KernelIdeal.defs _ _).mono
      (fun _ h c => ⟨(h c).1, (h c).2.1.trans (Cert.KernelIdeal.Hand.W5_arg0 m c), (h c).2.2.1.trans (Cert.KernelIdeal.Hand.W5_arg1 m c),
        (h c).2.2.2.trans (Cert.KernelIdeal.Hand.W5_arg2 m c)⟩)
      (Cert.KernelIdeal.Hand.run_main (F := Ideal) m ρ (Cert.KernelIdeal.Hand.tokOK_of_range m (tokens_ki m hpre)))
  · refine (θ_run Cert.ReferenceIdeal.defs _ _).mono (fun _ h c => ⟨(h c).1.trans ?_, (h c).2⟩) (Cert.ReferenceIdeal.Hand.run m' ρ')
    rw [(hagree c).1, (hagree c).2.1, (hagree c).2.2]
    exact (Cert.ReferenceIdeal.Hand.refVal_eq _ _ _ (tokens_ki m hpre c)).trans
      (Cert.KernelIdeal.Hand.W5_result Cert.KernelIdeal.Hand.rowsOut_ideal m c (tokens_ki m hpre c)).symm

end Cert.Proof.Claims

end
-- ==== Proof.lean ====
/- The proof of `Cert.Claim` (proofs.«212176_g79912161509532_cont_sun_c4_840_27_alg».proof.Defs).

   The kernel program sums, for sixteen token sequences of 4096 positions, the table rows the positions look up —
   the token's row inside the sequence, row 0 past its end — in three stages: a kernel region on the TensorCore adds
   up each of the table's 32000 rows; sixteen vector subcores of a SparseCore each copy the row sums, their own
   sequence and the lengths into their memory and add, over 256 steps of sixteen lanes, the row sums their positions
   look up; the host adds the sixteen by sixteen partial sums. The reference gathers the looked-up rows and adds all
   their entries. Both are the sum over sequences, positions and columns of the looked-up entry, grouped differently;
   addition on the extended reals is commutative and associative whatever its terms, so the two agree with no use of
   finiteness. What the frames need of the precondition is that every token names a row of the table: the subcores
   index their copy of the row sums by the tokens.

   Proof/Spec.lean states the common value; Proof/Ref*.lean run the reference and read its term; Proof/Region*.lean
   are the TensorCore region; Proof/Tile*.lean a vector subcore's task; Proof/Launch.lean, Ghost.lean, Main*.lean and
   Run.lean the launch of the device's threads; Proof/Kernel*.lean read the kernel program's last stage;
   Proof/Word/ holds the same modules for the word-level printed program; Proof/Claims.lean states the five claims,
   assembled here behind the witnesses of the programs' stated facts (the generated Proof/Gen/ instances). -/
import proofs.«212176_g79912161509532_cont_sun_c4_840_27_alg».proof.Defs
import proofs.«212176_g79912161509532_cont_sun_c4_840_27_alg».proof.Proof.Claims
import proofs.«212176_g79912161509532_cont_sun_c4_840_27_alg».proof.Proof.Gen.Kernel
import proofs.«212176_g79912161509532_cont_sun_c4_840_27_alg».proof.Proof.Gen.Kernel.Skeleton
import proofs.«212176_g79912161509532_cont_sun_c4_840_27_alg».proof.Proof.Gen.Kernel.Launch
import proofs.«212176_g79912161509532_cont_sun_c4_840_27_alg».proof.Proof.Gen.Kernel.Points
import proofs.«212176_g79912161509532_cont_sun_c4_840_27_alg».proof.Proof.Gen.KernelIdeal
import proofs.«212176_g79912161509532_cont_sun_c4_840_27_alg».proof.Proof.Gen.KernelIdeal.Skeleton
import proofs.«212176_g79912161509532_cont_sun_c4_840_27_alg».proof.Proof.Gen.KernelIdeal.Launch
import proofs.«212176_g79912161509532_cont_sun_c4_840_27_alg».proof.Proof.Gen.KernelIdeal.Points
import proofs.«212176_g79912161509532_cont_sun_c4_840_27_alg».proof.Proof.Gen.ReferenceIdeal
import proofs.«212176_g79912161509532_cont_sun_c4_840_27_alg».proof.Proof.Gen.Pre_input_domain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, Claims.preserves, Claims.algebraic⟩

end Cert.Proof

end
